-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x64 : Shape := ⟨2, ![8192, 64]⟩
abbrev S8192x32 : Shape := ⟨2, ![8192, 32]⟩
abbrev S8 : Shape := ⟨1, ![8]⟩
abbrev S2x131072 : Shape := ⟨2, ![2, 131072]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192x32 : S_.BroadcastsInDim S8192x32 (![] : Fin 0 → Fin S8192x32.rank)
  reducesTo_S8192x32_S_d0_1 : S8192x32.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_arg5 : FVec F S8 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S8192x128 .f32) (main_arg1 : FVec F S8192x64 .f32) (main_arg2 : FVec F S8192x64 .f32) (main_arg3 : FVec F S8192x32 .f32) (main_arg4 : FVec F S8 .f32) (main_arg5 : FVec F S8 .f32) (main_arg6 : IVec S2x131072 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Kernel.lean ====
abbrev S8192x128 : Shape := ⟨2, ![8192, 128]⟩
abbrev S8192x64 : Shape := ⟨2, ![8192, 64]⟩
abbrev S8192x32 : Shape := ⟨2, ![8192, 32]⟩
abbrev S8 : Shape := ⟨1, ![8]⟩
abbrev S2x131072 : Shape := ⟨2, ![2, 131072]⟩
abbrev S8x1024x8x16 : Shape := ⟨4, ![8, 1024, 8, 16]⟩
abbrev S8x8x1024x16 : Shape := ⟨4, ![8, 8, 1024, 16]⟩
abbrev S8x1024x64 : Shape := ⟨3, ![8, 1024, 64]⟩
abbrev S8192x8x4 : Shape := ⟨3, ![8192, 8, 4]⟩
abbrev S4x8x8192 : Shape := ⟨3, ![4, 8, 8192]⟩
abbrev S3x8x8192 : Shape := ⟨3, ![3, 8, 8192]⟩
abbrev S1x8x8192 : Shape := ⟨3, ![1, 8, 8192]⟩
abbrev S8x8192 : Shape := ⟨2, ![8, 8192]⟩
abbrev S8192x8 : Shape := ⟨2, ![8192, 8]⟩
abbrev S8x1024x8 : Shape := ⟨3, ![8, 1024, 8]⟩
abbrev S8x8x1024 : Shape := ⟨3, ![8, 8, 1024]⟩
abbrev S1x8x1 : Shape := ⟨3, ![1, 8, 1]⟩
abbrev S_ : Shape := ⟨0, ![]⟩
abbrev S1x131072 : Shape := ⟨2, ![1, 131072]⟩
abbrev S131072 : Shape := ⟨1, ![131072]⟩
abbrev S131072x1 : Shape := ⟨2, ![131072, 1]⟩
abbrev S8x131072 : Shape := ⟨2, ![8, 131072]⟩
abbrev S131072x8 : Shape := ⟨2, ![131072, 8]⟩
abbrev S8x1024x1024x8 : Shape := ⟨4, ![8, 1024, 1024, 8]⟩
abbrev S131072x3 : Shape := ⟨2, ![131072, 3]⟩
abbrev S8x8x1024x1024 : Shape := ⟨4, ![8, 8, 1024, 1024]⟩
abbrev S8x8x1024x1 : Shape := ⟨4, ![8, 8, 1024, 1]⟩
abbrev S64x1024x1024 : Shape := ⟨3, ![64, 1024, 1024]⟩
abbrev S64x1x1024 : Shape := ⟨3, ![64, 1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1x1024 : Shape := ⟨2, ![1, 1024]⟩
abbrev S8x1024x1024 : Shape := ⟨3, ![8, 1024, 1024]⟩
abbrev S8x1x1024x1024 : Shape := ⟨4, ![8, 1, 1024, 1024]⟩
abbrev S1x8x1x1 : Shape := ⟨4, ![1, 8, 1, 1]⟩
abbrev S8x1024x16x8 : Shape := ⟨4, ![8, 1024, 16, 8]⟩
abbrev S8x1024x128 : Shape := ⟨3, ![8, 1024, 128]⟩

abbrev nBuf : Space → Nat
  | .hbm => 194
  | .vmem => 8
  | .smem => 0
  | _ => 0

abbrev hbmTy0_0 (i : Nat) : BufTy := match i % 128 with
  | 0 => ⟨S8192x128, .f32⟩
  | 1 => ⟨S8192x64, .f32⟩
  | 2 => ⟨S8192x64, .f32⟩
  | 3 => ⟨S8192x32, .f32⟩
  | 4 => ⟨S8, .f32⟩
  | 5 => ⟨S8, .f32⟩
  | 6 => ⟨S2x131072, .i32⟩
  | 7 => ⟨S8x1024x8x16, .f32⟩
  | 8 => ⟨S8x8x1024x16, .f32⟩
  | 9 => ⟨S8x1024x64, .f32⟩
  | 10 => ⟨S8x1024x64, .f32⟩
  | 11 => ⟨S8192x8x4, .f32⟩
  | 12 => ⟨S4x8x8192, .f32⟩
  | 13 => ⟨S3x8x8192, .f32⟩
  | 14 => ⟨S1x8x8192, .f32⟩
  | 15 => ⟨S8x8192, .f32⟩
  | 16 => ⟨S8192x8, .f32⟩
  | 17 => ⟨S8x1024x8, .f32⟩
  | 18 => ⟨S8x8x1024, .f32⟩
  | 19 => ⟨S1x8x1, .f32⟩
  | 20 => ⟨S3x8x8192, .f32⟩
  | 21 => ⟨S3x8x8192, .f32⟩
  | 22 => ⟨S_, .f32⟩
  | 23 => ⟨S3x8x8192, .f32⟩
  | 24 => ⟨S3x8x8192, .f32⟩
  | 25 => ⟨S3x8x8192, .f32⟩
  | 26 => ⟨S3x8x8192, .f32⟩
  | 27 => ⟨S3x8x8192, .i1⟩
  | 28 => ⟨S3x8x8192, .f32⟩
  | 29 => ⟨S3x8x8192, .f32⟩
  | 30 => ⟨S3x8x8192, .f32⟩
  | 31 => ⟨S3x8x8192, .f32⟩
  | 32 => ⟨S3x8x8192, .f32⟩
  | 33 => ⟨S3x8x8192, .f32⟩
  | 34 => ⟨S3x8x8192, .f32⟩
  | 35 => ⟨S3x8x8192, .f32⟩
  | 36 => ⟨S3x8x8192, .f32⟩
  | 37 => ⟨S1x131072, .i32⟩
  | 38 => ⟨S131072, .i32⟩
  | 39 => ⟨S1x131072, .i32⟩
  | 40 => ⟨S131072, .i32⟩
  | 41 => ⟨S1x8x8192, .f32⟩
  | 42 => ⟨S8x8192, .f32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S8x131072, .f32⟩
  | 52 => ⟨S1x8x8192, .f32⟩
  | 53 => ⟨S8x8192, .f32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S131072x1, .i32⟩
  | 62 => ⟨S8x131072, .f32⟩
  | 63 => ⟨S8x131072, .f32⟩
  | 64 => ⟨S_, .f32⟩
  | 65 => ⟨S8x131072, .f32⟩
  | 66 => ⟨S8x131072, .f32⟩
  | 67 => ⟨S8x131072, .f32⟩
  | 68 => ⟨S131072x8, .f32⟩
  | 69 => ⟨S_, .i32⟩
  | 70 => ⟨S_, .i32⟩
  | 71 => ⟨S131072, .i32⟩
  | 72 => ⟨S131072, .i32⟩
  | 73 => ⟨S131072, .i32⟩
  | 74 => ⟨S_, .i32⟩
  | 75 => ⟨S131072, .i32⟩
  | 76 => ⟨S131072, .i1⟩
  | 77 => ⟨S131072, .i32⟩
  | 78 => ⟨S131072, .i32⟩
  | 79 => ⟨S_, .i32⟩
  | 80 => ⟨S131072, .i32⟩
  | 81 => ⟨S131072, .i1⟩
  | 82 => ⟨S131072, .i1⟩
  | 83 => ⟨S_, .i32⟩
  | 84 => ⟨S131072, .i32⟩
  | 85 => ⟨S131072, .i32⟩
  | 86 => ⟨S131072, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S131072, .i32⟩
  | 94 => ⟨S131072, .i32⟩
  | 95 => ⟨S_, .i32⟩
  | 96 => ⟨S131072, .i32⟩
  | 97 => ⟨S131072, .i1⟩
  | 98 => ⟨S_, .i32⟩
  | 99 => ⟨S131072, .i32⟩
  | 100 => ⟨S131072, .i1⟩
  | 101 => ⟨S_, .i32⟩
  | 102 => ⟨S_, .i1⟩
  | 103 => ⟨S131072, .i1⟩
  | 104 => ⟨S131072, .i1⟩
  | 105 => ⟨S131072, .i1⟩
  | 106 => ⟨S131072, .i32⟩
  | 107 => ⟨S131072, .i32⟩
  | 108 => ⟨S131072, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S131072, .i32⟩
  | 116 => ⟨S131072, .i32⟩
  | 117 => ⟨S_, .i32⟩
  | 118 => ⟨S131072, .i32⟩
  | 119 => ⟨S131072, .i1⟩
  | 120 => ⟨S_, .i32⟩
  | 121 => ⟨S131072, .i32⟩
  | 122 => ⟨S131072, .i1⟩
  | 123 => ⟨S_, .i32⟩
  | 124 => ⟨S_, .i1⟩
  | 125 => ⟨S131072, .i1⟩
  | 126 => ⟨S131072, .i1⟩
  | 127 => ⟨S131072, .i1⟩
  | _ => ⟨S8192x128, .f32⟩

abbrev hbmTy0_1 (i : Nat) : BufTy := match i % 128 with
  | 0 => ⟨S131072, .i32⟩
  | 1 => ⟨S131072, .i32⟩
  | 2 => ⟨S131072, .i32⟩
  | 3 => ⟨S_, .f32⟩
  | 4 => ⟨S8x1024x1024x8, .f32⟩
  | 5 => ⟨S_, .i32⟩
  | 6 => ⟨S131072, .i32⟩
  | 7 => ⟨S131072, .i1⟩
  | 8 => ⟨S_, .i32⟩
  | 9 => ⟨S131072, .i32⟩
  | 10 => ⟨S131072, .i32⟩
  | 11 => ⟨S131072, .i32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x1, .i32⟩
  | 28 => ⟨S131072x1, .i32⟩
  | 29 => ⟨S131072x3, .i32⟩
  | 30 => ⟨S8x1024x1024x8, .f32⟩
  | 31 => ⟨S8x8x1024x1024, .f32⟩
  | 32 => ⟨S1x8x8192, .f32⟩
  | 33 => ⟨S8x8192, .f32⟩
  | 34 => ⟨S8x8192, .f32⟩
  | 35 => ⟨S8192x8, .f32⟩
  | 36 => ⟨S8x1024x8, .f32⟩
  | 37 => ⟨S8x8x1024, .f32⟩
  | 38 => ⟨S_, .f32⟩
  | 39 => ⟨S8x8x1024, .f32⟩
  | 40 => ⟨S8x8x1024, .f32⟩
  | 41 => ⟨S8x8x1024x1, .f32⟩
  | 42 => ⟨S_, .f32⟩
  | 43 => ⟨S8x8x1024x1, .f32⟩
  | 44 => ⟨S8x8x1024x1, .f32⟩
  | 45 => ⟨S8x8x1024x1024, .f32⟩
  | 46 => ⟨S8x8x1024x1024, .f32⟩
  | 47 => ⟨S8x8x1024x1024, .f32⟩
  | 48 => ⟨S64x1024x1024, .f32⟩
  | 49 => ⟨S64x1024x1024, .bf16⟩
  | 50 => ⟨S64x1x1024, .f32⟩
  | 51 => ⟨S64x1024x1024, .bf16⟩
  | 52 => ⟨S8x8x1024x1024, .bf16⟩
  | 53 => ⟨S8x8x1024x1024, .f32⟩
  | 54 => ⟨S8x1024x1024, .f32⟩
  | 55 => ⟨S8x1x1024x1024, .f32⟩
  | 56 => ⟨S8x8x1024x1024, .f32⟩
  | 57 => ⟨S8x8x1024x1024, .f32⟩
  | 58 => ⟨S8x8x1024x16, .f32⟩
  | 59 => ⟨S1x8x1x1, .f32⟩
  | 60 => ⟨S8x8x1024x16, .f32⟩
  | 61 => ⟨S8x8x1024x16, .f32⟩
  | 62 => ⟨S8x8x1024x16, .f32⟩
  | 63 => ⟨S8x1024x16x8, .f32⟩
  | 64 => ⟨S8x1024x128, .f32⟩
  | 65 => ⟨S8192x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S1x1024x1024, .bf16⟩
  | .local _ .vmem, ⟨1, _⟩ => ⟨S1x1024x1024, .bf16⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_1 : Ref sig .tc := ⟨.hbm, 54, rfl⟩
abbrev main_v32 : Ref sig .tc := ⟨.hbm, 55, rfl⟩
abbrev main_v33 : Ref sig .tc := ⟨.hbm, 56, rfl⟩
abbrev main_c_2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_3 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_c : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_0 : Ref sig .tc := ⟨.hbm, 83, rfl⟩
abbrev main_call1_v12 : Ref sig .tc := ⟨.hbm, 84, rfl⟩
abbrev main_call1_v13 : Ref sig .tc := ⟨.hbm, 85, rfl⟩
abbrev main_v44 : Ref sig .tc := ⟨.hbm, 86, rfl⟩
abbrev main_c_4 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_1 : Ref sig .tc := ⟨.hbm, 95, rfl⟩
abbrev main_call2_v5 : Ref sig .tc := ⟨.hbm, 96, rfl⟩
abbrev main_call2_v6 : Ref sig .tc := ⟨.hbm, 97, rfl⟩
abbrev main_call2_c_2 : Ref sig .tc := ⟨.hbm, 98, rfl⟩
abbrev main_call2_v7 : Ref sig .tc := ⟨.hbm, 99, rfl⟩
abbrev main_call2_v8 : Ref sig .tc := ⟨.hbm, 100, rfl⟩
abbrev main_call2_c_3 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_v45 : Ref sig .tc := ⟨.hbm, 108, rfl⟩
abbrev main_c_5 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_v5 : Ref sig .tc := ⟨.hbm, 118, rfl⟩
abbrev main_call3_v6 : Ref sig .tc := ⟨.hbm, 119, rfl⟩
abbrev main_call3_c_2 : Ref sig .tc := ⟨.hbm, 120, rfl⟩
abbrev main_call3_v7 : Ref sig .tc := ⟨.hbm, 121, rfl⟩
abbrev main_call3_v8 : Ref sig .tc := ⟨.hbm, 122, rfl⟩
abbrev main_call3_c_3 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_v46 : Ref sig .tc := ⟨.hbm, 130, rfl⟩
abbrev main_cst_6 : Ref sig .tc := ⟨.hbm, 131, rfl⟩
abbrev main_v47 : Ref sig .tc := ⟨.hbm, 132, rfl⟩
abbrev main_c_7 : Ref sig .tc := ⟨.hbm, 133, rfl⟩
abbrev main_v48 : Ref sig .tc := ⟨.hbm, 134, rfl⟩
abbrev main_v49 : Ref sig .tc := ⟨.hbm, 135, rfl⟩
abbrev main_c_8 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_c_9 : Ref sig .tc := ⟨.hbm, 140, rfl⟩
abbrev main_v53 : Ref sig .tc := ⟨.hbm, 141, rfl⟩
abbrev main_v54 : Ref sig .tc := ⟨.hbm, 142, rfl⟩
abbrev main_c_10 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_c_11 : Ref sig .tc := ⟨.hbm, 147, rfl⟩
abbrev main_v58 : Ref sig .tc := ⟨.hbm, 148, rfl⟩
abbrev main_v59 : Ref sig .tc := ⟨.hbm, 149, rfl⟩
abbrev main_c_12 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_cst_13 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_cst_14 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192x128_S8x1024x8x16 : S8192x128.ShapeCasts S8x1024x8x16
  transposes_S8x1024x8x16_S8x8x1024x16_0_2_1_3 : S8x1024x8x16.Transposes [0, 2, 1, 3] S8x8x1024x16
  shapeCasts_S8192x64_S8x1024x64 : S8192x64.ShapeCasts S8x1024x64
  shapeCasts_S8192x32_S8192x8x4 : S8192x32.ShapeCasts S8192x8x4
  transposes_S8192x8x4_S4x8x8192_2_1_0 : S8192x8x4.Transposes [2, 1, 0] S4x8x8192
  slices_S4x8x8192_S3x8x8192_0_0_0 : S4x8x8192.Slices ![0, 0, 0] S3x8x8192
  slices_S4x8x8192_S1x8x8192_3_0_0 : S4x8x8192.Slices ![3, 0, 0] S1x8x8192
  shapeCasts_S1x8x8192_S8x8192 : S1x8x8192.ShapeCasts S8x8192
  transposes_S8x8192_S8192x8_1_0 : S8x8192.Transposes [1, 0] S8192x8
  shapeCasts_S8192x8_S8x1024x8 : S8192x8.ShapeCasts S8x1024x8
  transposes_S8x1024x8_S8x8x1024_0_2_1 : S8x1024x8.Transposes [0, 2, 1] S8x8x1024
  bcast_S8_S1x8x1_1 : S8.BroadcastsInDim S1x8x1 (![1] : Fin 1 → Fin S1x8x1.rank)
  bcast_S1x8x1_S3x8x8192_0_1_2 : S1x8x1.BroadcastsInDim S3x8x8192 (![0, 1, 2] : Fin 3 → Fin S3x8x8192.rank)
  bcast_S_S3x8x8192 : S_.BroadcastsInDim S3x8x8192 (![] : Fin 0 → Fin S3x8x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  slices_S3x8x8192_S1x8x8192_0_0_0 : S3x8x8192.Slices ![0, 0, 0] S1x8x8192
  bcast_S_S131072 : S_.BroadcastsInDim S131072 (![] : Fin 0 → Fin S131072.rank)
  bcast_S131072_S131072x1_0 : S131072.BroadcastsInDim S131072x1 (![0] : Fin 1 → Fin S131072x1.rank)
  slices_S3x8x8192_S1x8x8192_1_0_0 : S3x8x8192.Slices ![1, 0, 0] S1x8x8192
  bcast_S_S8x131072 : S_.BroadcastsInDim S8x131072 (![] : Fin 0 → Fin S8x131072.rank)
  transposes_S8x131072_S131072x8_1_0 : S8x131072.Transposes [1, 0] S131072x8
  bcast_S_S8x1024x1024x8 : S_.BroadcastsInDim S8x1024x1024x8 (![] : Fin 0 → Fin S8x1024x1024x8.rank)
  concatenates_S131072x1_S131072x1_S131072x1_S131072x3_d1 : Shape.Concatenates [S131072x1, S131072x1, S131072x1] S131072x3 1
  transposes_S8x1024x1024x8_S8x8x1024x1024_0_3_1_2 : S8x1024x1024x8.Transposes [0, 3, 1, 2] S8x8x1024x1024
  slices_S3x8x8192_S1x8x8192_2_0_0 : S3x8x8192.Slices ![2, 0, 0] S1x8x8192
  reducesTo_S8x8x1024x1024_S8x8x1024_d3 : S8x8x1024x1024.ReducesTo [3] S8x8x1024
  h_S_ : 0 < S_.numel
  bcast_S8x8x1024_S8x8x1024x1_0_1_2 : S8x8x1024.BroadcastsInDim S8x8x1024x1 (![0, 1, 2] : Fin 3 → Fin S8x8x1024x1.rank)
  bcast_S_S8x8x1024x1 : S_.BroadcastsInDim S8x8x1024x1 (![] : Fin 0 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x1024_S8x8x1024x1024_0_1_3_2 : S8x8x1024x1024.Transposes [0, 1, 3, 2] S8x8x1024x1024
  shapeCasts_S8x8x1024x1024_S64x1024x1024 : S8x8x1024x1024.ShapeCasts S64x1024x1024
  bitsLt_bf16_f32 : FTy.bits .bf16 < FTy.bits .f32
  shapeCasts_S8x8x1024_S64x1x1024 : S8x8x1024.ShapeCasts S64x1x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S64x1024x1024_S8x8x1024x1024 : S64x1024x1024.ShapeCasts S8x8x1024x1024
  bcast_S8x1024x1024_S8x1x1024x1024_0_2_3 : S8x1024x1024.BroadcastsInDim S8x1x1024x1024 (![0, 2, 3] : Fin 3 → Fin S8x1x1024x1024.rank)
  bcast_S8x1x1024x1024_S8x8x1024x1024_0_1_2_3 : S8x1x1024x1024.BroadcastsInDim S8x8x1024x1024 (![0, 1, 2, 3] : Fin 4 → Fin S8x8x1024x1024.rank)
  bcast_S8_S1x8x1x1_1 : S8.BroadcastsInDim S1x8x1x1 (![1] : Fin 1 → Fin S1x8x1x1.rank)
  bcast_S1x8x1x1_S8x8x1024x16_0_1_2_3 : S1x8x1x1.BroadcastsInDim S8x8x1024x16 (![0, 1, 2, 3] : Fin 4 → Fin S8x8x1024x16.rank)
  transposes_S8x8x1024x16_S8x1024x16x8_0_2_3_1 : S8x8x1024x16.Transposes [0, 2, 3, 1] S8x1024x16x8
  shapeCasts_S8x1024x16x8_S8x1024x128 : S8x1024x16x8.ShapeCasts S8x1024x128
  shapeCasts_S8x1024x128_S8192x128 : S8x1024x128.ShapeCasts S8192x128
  gather_S8x8192_S131072x1_S8x131072_0_1_n_n_1_1_81_wf : GatherDims.WF S8x8192 S131072x1 S8x131072 [0] [1] [] [1] [] 1 ![8, 1]
  scatter_S8x1024x1024x8_S131072x3_S131072x8_1_012_012_1_wf : ScatterDims.WF S8x1024x1024x8 S131072x3 S131072x8 [1] [0, 1, 2] [0, 1, 2] 1
  dot_S1024x1024_S1024x1024_S1024x1024_1_0_0_1_n_n_wf : DotDims.WF S1024x1024 S1024x1024 S1024x1024 [1] [0] [0] [1] [] []
  dot_S8x1024x64_S8x1024x64_S8x1024x1024_2_2_1_1_0_0_wf : DotDims.WF S8x1024x64 S8x1024x64 S8x1024x1024 [2] [2] [1] [1] [0] [0]
  dot_S8x8x1024x1024_S8x8x1024x16_S8x8x1024x16_3_2_2_3_01_01_wf : DotDims.WF S8x8x1024x1024 S8x8x1024x16 S8x8x1024x16 [3] [2] [2] [3] [0, 1] [0, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .bf16 = 32 ∨ (Rect.block (s := S64x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S64x1x1024.size a
  hwx0_1 : ∀ i : grid0.Coords, EltTy.bits .f32 = 32 ∨ (Rect.block (s := S64x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .bf16 = 32 ∨ (Rect.block (s := S64x1024x1024) S1x1024x1024.size (cc0_transform_2 i) (hinb0_2 i)).WholeWords (EltTy.packing .bf16)

variable [Facts₀]

def gather_S8x8192_S131072x1_S8x131072_0_1_n_n_1_1_81 : GatherDims S8x8192 S131072x1 S8x131072 where
  offsetDims := [0]
  collapsedSliceDims := [1]
  operandBatchingDims := []
  startIndicesBatchingDims := []
  startIndexMap := [1]
  indexVectorDim := 1
  sliceSizes := ![8, 1]
  wf := gather_S8x8192_S131072x1_S8x131072_0_1_n_n_1_1_81_wf
def scatter_S8x1024x1024x8_S131072x3_S131072x8_1_012_012_1 : ScatterDims S8x1024x1024x8 S131072x3 S131072x8 where
  updateWindowDims := [1]
  insertedWindowDims := [0, 1, 2]
  scatterDimsToOperandDims := [0, 1, 2]
  indexVectorDim := 1
  wf := scatter_S8x1024x1024x8_S131072x3_S131072x8_1_012_012_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S8x1024x64_S8x1024x64_S8x1024x1024_2_2_1_1_0_0 : DotDims S8x1024x64 S8x1024x64 S8x1024x1024 where
  lhsContracting := [2]
  rhsContracting := [2]
  lhsNonContracting := [1]
  rhsNonContracting := [1]
  lhsBatch := [0]
  rhsBatch := [0]
  wf := dot_S8x1024x64_S8x1024x64_S8x1024x1024_2_2_1_1_0_0_wf
def dot_S8x8x1024x1024_S8x8x1024x16_S8x8x1024x16_3_2_2_3_01_01 : DotDims S8x8x1024x1024 S8x8x1024x16 S8x8x1024x16 where
  lhsContracting := [3]
  rhsContracting := [2]
  lhsNonContracting := [2]
  rhsNonContracting := [3]
  lhsBatch := [0, 1]
  rhsBatch := [0, 1]
  wf := dot_S8x8x1024x1024_S8x8x1024x16_S8x8x1024x16_3_2_2_3_01_01_wf

abbrev win0_0 : Pipeline.Window sig grid0 :=
  Pipeline.Window.ofSpec (Memref.whole main_v84) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v86) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x64 : Shape := ⟨2, ![8192, 64]⟩
abbrev S8192x32 : Shape := ⟨2, ![8192, 32]⟩
abbrev S8 : Shape := ⟨1, ![8]⟩
abbrev S2x131072 : Shape := ⟨2, ![2, 131072]⟩
abbrev S8x1024x8x16 : Shape := ⟨4, ![8, 1024, 8, 16]⟩
abbrev S8x8x1024x16 : Shape := ⟨4, ![8, 8, 1024, 16]⟩
abbrev S8x1024x64 : Shape := ⟨3, ![8, 1024, 64]⟩
abbrev S8192x8x4 : Shape := ⟨3, ![8192, 8, 4]⟩
abbrev S4x8x8192 : Shape := ⟨3, ![4, 8, 8192]⟩
abbrev S3x8x8192 : Shape := ⟨3, ![3, 8, 8192]⟩
abbrev S1x8x8192 : Shape := ⟨3, ![1, 8, 8192]⟩
abbrev S8x8192 : Shape := ⟨2, ![8, 8192]⟩
abbrev S8192x8 : Shape := ⟨2, ![8192, 8]⟩
abbrev S8x1024x8 : Shape := ⟨3, ![8, 1024, 8]⟩
abbrev S8x8x1024 : Shape := ⟨3, ![8, 8, 1024]⟩
abbrev S1x8x1 : Shape := ⟨3, ![1, 8, 1]⟩
abbrev S_ : Shape := ⟨0, ![]⟩
abbrev S1x131072 : Shape := ⟨2, ![1, 131072]⟩
abbrev S131072 : Shape := ⟨1, ![131072]⟩
abbrev S131072x1 : Shape := ⟨2, ![131072, 1]⟩
abbrev S8x131072 : Shape := ⟨2, ![8, 131072]⟩
abbrev S131072x8 : Shape := ⟨2, ![131072, 8]⟩
abbrev S8x1024x1024x8 : Shape := ⟨4, ![8, 1024, 1024, 8]⟩
abbrev S131072x3 : Shape := ⟨2, ![131072, 3]⟩
abbrev S8x8x1024x1024 : Shape := ⟨4, ![8, 8, 1024, 1024]⟩
abbrev S8x8x1024x1 : Shape := ⟨4, ![8, 8, 1024, 1]⟩
abbrev S1024x1024 : Shape := ⟨2, ![1024, 1024]⟩
abbrev S1x1x1024x1024 : Shape := ⟨4, ![1, 1, 1024, 1024]⟩
abbrev S8x8x1x1024 : Shape := ⟨4, ![8, 8, 1, 1024]⟩
abbrev S8x1024x1024 : Shape := ⟨3, ![8, 1024, 1024]⟩
abbrev S8x1x1024x1024 : Shape := ⟨4, ![8, 1, 1024, 1024]⟩
abbrev S1x8x1x1 : Shape := ⟨4, ![1, 8, 1, 1]⟩
abbrev S8x1024x16x8 : Shape := ⟨4, ![8, 1024, 16, 8]⟩
abbrev S8x1024x128 : Shape := ⟨3, ![8, 1024, 128]⟩

abbrev nBuf : Space → Nat
  | .hbm => 226
  | .vmem => 0
  | .smem => 0
  | _ => 0

abbrev hbmTy0_0 (i : Nat) : BufTy := match i % 128 with
  | 0 => ⟨S8192x128, .f32⟩
  | 1 => ⟨S8192x64, .f32⟩
  | 2 => ⟨S8192x64, .f32⟩
  | 3 => ⟨S8192x32, .f32⟩
  | 4 => ⟨S8, .f32⟩
  | 5 => ⟨S8, .f32⟩
  | 6 => ⟨S2x131072, .i32⟩
  | 7 => ⟨S8x1024x8x16, .f32⟩
  | 8 => ⟨S8x8x1024x16, .f32⟩
  | 9 => ⟨S8x1024x64, .f32⟩
  | 10 => ⟨S8x1024x64, .f32⟩
  | 11 => ⟨S8192x8x4, .f32⟩
  | 12 => ⟨S4x8x8192, .f32⟩
  | 13 => ⟨S3x8x8192, .f32⟩
  | 14 => ⟨S1x8x8192, .f32⟩
  | 15 => ⟨S8x8192, .f32⟩
  | 16 => ⟨S8192x8, .f32⟩
  | 17 => ⟨S8x1024x8, .f32⟩
  | 18 => ⟨S8x8x1024, .f32⟩
  | 19 => ⟨S1x8x1, .f32⟩
  | 20 => ⟨S3x8x8192, .f32⟩
  | 21 => ⟨S3x8x8192, .f32⟩
  | 22 => ⟨S_, .f32⟩
  | 23 => ⟨S3x8x8192, .f32⟩
  | 24 => ⟨S3x8x8192, .f32⟩
  | 25 => ⟨S3x8x8192, .f32⟩
  | 26 => ⟨S3x8x8192, .f32⟩
  | 27 => ⟨S3x8x8192, .i1⟩
  | 28 => ⟨S3x8x8192, .f32⟩
  | 29 => ⟨S3x8x8192, .f32⟩
  | 30 => ⟨S3x8x8192, .f32⟩
  | 31 => ⟨S3x8x8192, .f32⟩
  | 32 => ⟨S3x8x8192, .f32⟩
  | 33 => ⟨S3x8x8192, .f32⟩
  | 34 => ⟨S3x8x8192, .f32⟩
  | 35 => ⟨S3x8x8192, .f32⟩
  | 36 => ⟨S3x8x8192, .f32⟩
  | 37 => ⟨S1x131072, .i32⟩
  | 38 => ⟨S131072, .i32⟩
  | 39 => ⟨S1x131072, .i32⟩
  | 40 => ⟨S131072, .i32⟩
  | 41 => ⟨S1x8x8192, .f32⟩
  | 42 => ⟨S8x8192, .f32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S8x131072, .f32⟩
  | 52 => ⟨S1x8x8192, .f32⟩
  | 53 => ⟨S8x8192, .f32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S131072x1, .i32⟩
  | 62 => ⟨S8x131072, .f32⟩
  | 63 => ⟨S8x131072, .f32⟩
  | 64 => ⟨S_, .f32⟩
  | 65 => ⟨S8x131072, .f32⟩
  | 66 => ⟨S8x131072, .f32⟩
  | 67 => ⟨S8x131072, .f32⟩
  | 68 => ⟨S131072x8, .f32⟩
  | 69 => ⟨S_, .i32⟩
  | 70 => ⟨S_, .i32⟩
  | 71 => ⟨S131072, .i32⟩
  | 72 => ⟨S131072, .i32⟩
  | 73 => ⟨S131072, .i32⟩
  | 74 => ⟨S_, .i32⟩
  | 75 => ⟨S131072, .i32⟩
  | 76 => ⟨S131072, .i1⟩
  | 77 => ⟨S131072, .i32⟩
  | 78 => ⟨S131072, .i32⟩
  | 79 => ⟨S_, .i32⟩
  | 80 => ⟨S131072, .i32⟩
  | 81 => ⟨S131072, .i1⟩
  | 82 => ⟨S131072, .i1⟩
  | 83 => ⟨S_, .i32⟩
  | 84 => ⟨S131072, .i32⟩
  | 85 => ⟨S131072, .i32⟩
  | 86 => ⟨S131072, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S131072, .i32⟩
  | 94 => ⟨S131072, .i32⟩
  | 95 => ⟨S_, .i32⟩
  | 96 => ⟨S131072, .i32⟩
  | 97 => ⟨S131072, .i1⟩
  | 98 => ⟨S_, .i32⟩
  | 99 => ⟨S131072, .i32⟩
  | 100 => ⟨S131072, .i1⟩
  | 101 => ⟨S_, .i32⟩
  | 102 => ⟨S_, .i1⟩
  | 103 => ⟨S131072, .i1⟩
  | 104 => ⟨S131072, .i1⟩
  | 105 => ⟨S131072, .i1⟩
  | 106 => ⟨S131072, .i32⟩
  | 107 => ⟨S131072, .i32⟩
  | 108 => ⟨S131072, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S131072, .i32⟩
  | 116 => ⟨S131072, .i32⟩
  | 117 => ⟨S_, .i32⟩
  | 118 => ⟨S131072, .i32⟩
  | 119 => ⟨S131072, .i1⟩
  | 120 => ⟨S_, .i32⟩
  | 121 => ⟨S131072, .i32⟩
  | 122 => ⟨S131072, .i1⟩
  | 123 => ⟨S_, .i32⟩
  | 124 => ⟨S_, .i1⟩
  | 125 => ⟨S131072, .i1⟩
  | 126 => ⟨S131072, .i1⟩
  | 127 => ⟨S131072, .i1⟩
  | _ => ⟨S8192x128, .f32⟩

abbrev hbmTy0_1 (i : Nat) : BufTy := match i % 128 with
  | 0 => ⟨S131072, .i32⟩
  | 1 => ⟨S131072, .i32⟩
  | 2 => ⟨S131072, .i32⟩
  | 3 => ⟨S_, .f32⟩
  | 4 => ⟨S8x1024x1024x8, .f32⟩
  | 5 => ⟨S_, .i32⟩
  | 6 => ⟨S131072, .i32⟩
  | 7 => ⟨S131072, .i1⟩
  | 8 => ⟨S_, .i32⟩
  | 9 => ⟨S131072, .i32⟩
  | 10 => ⟨S131072, .i32⟩
  | 11 => ⟨S131072, .i32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x1, .i32⟩
  | 28 => ⟨S131072x1, .i32⟩
  | 29 => ⟨S131072x3, .i32⟩
  | 30 => ⟨S8x1024x1024x8, .f32⟩
  | 31 => ⟨S8x8x1024x1024, .f32⟩
  | 32 => ⟨S1x8x8192, .f32⟩
  | 33 => ⟨S8x8192, .f32⟩
  | 34 => ⟨S8x8192, .f32⟩
  | 35 => ⟨S8192x8, .f32⟩
  | 36 => ⟨S8x1024x8, .f32⟩
  | 37 => ⟨S8x8x1024, .f32⟩
  | 38 => ⟨S_, .f32⟩
  | 39 => ⟨S8x8x1024, .f32⟩
  | 40 => ⟨S8x8x1024, .f32⟩
  | 41 => ⟨S8x8x1024x1, .f32⟩
  | 42 => ⟨S_, .f32⟩
  | 43 => ⟨S8x8x1024x1, .f32⟩
  | 44 => ⟨S8x8x1024x1, .f32⟩
  | 45 => ⟨S8x8x1024x1024, .f32⟩
  | 46 => ⟨S8x8x1024x1024, .f32⟩
  | 47 => ⟨S8x8x1024x1024, .f32⟩
  | 48 => ⟨S1024x1024, .i32⟩
  | 49 => ⟨S1024x1024, .i32⟩
  | 50 => ⟨S_, .i32⟩
  | 51 => ⟨S1024x1024, .i32⟩
  | 52 => ⟨S1024x1024, .i32⟩
  | 53 => ⟨S1024x1024, .i1⟩
  | 54 => ⟨S1024x1024, .f32⟩
  | 55 => ⟨S1x1x1024x1024, .f32⟩
  | 56 => ⟨S8x8x1024x1024, .f32⟩
  | 57 => ⟨S8x8x1024x1024, .f32⟩
  | 58 => ⟨S8x8x1024x1024, .f32⟩
  | 59 => ⟨S1x1x1024x1024, .f32⟩
  | 60 => ⟨S8x8x1024x1024, .f32⟩
  | 61 => ⟨S8x8x1024x1024, .f32⟩
  | 62 => ⟨S8x8x1024x1024, .f32⟩
  | 63 => ⟨S8x8x1024x1024, .f32⟩
  | 64 => ⟨S1x1x1024x1024, .f32⟩
  | 65 => ⟨S8x8x1024x1024, .f32⟩
  | 66 => ⟨S8x8x1024x1024, .f32⟩
  | 67 => ⟨S8x8x1024x1024, .f32⟩
  | 68 => ⟨S8x8x1024x1024, .f32⟩
  | 69 => ⟨S1x1x1024x1024, .f32⟩
  | 70 => ⟨S8x8x1024x1024, .f32⟩
  | 71 => ⟨S8x8x1024x1024, .f32⟩
  | 72 => ⟨S8x8x1024x1024, .f32⟩
  | 73 => ⟨S8x8x1024x1024, .f32⟩
  | 74 => ⟨S1x1x1024x1024, .f32⟩
  | 75 => ⟨S8x8x1024x1024, .f32⟩
  | 76 => ⟨S8x8x1024x1024, .f32⟩
  | 77 => ⟨S8x8x1024x1024, .f32⟩
  | 78 => ⟨S8x8x1024x1024, .f32⟩
  | 79 => ⟨S1x1x1024x1024, .f32⟩
  | 80 => ⟨S8x8x1024x1024, .f32⟩
  | 81 => ⟨S8x8x1024x1024, .f32⟩
  | 82 => ⟨S8x8x1024x1024, .f32⟩
  | 83 => ⟨S8x8x1x1024, .f32⟩
  | 84 => ⟨S8x8x1024x1024, .f32⟩
  | 85 => ⟨S8x8x1024x1024, .f32⟩
  | 86 => ⟨S8x1024x1024, .f32⟩
  | 87 => ⟨S8x1x1024x1024, .f32⟩
  | 88 => ⟨S8x8x1024x1024, .f32⟩
  | 89 => ⟨S8x8x1024x1024, .f32⟩
  | 90 => ⟨S8x8x1024x16, .f32⟩
  | 91 => ⟨S1x8x1x1, .f32⟩
  | 92 => ⟨S8x8x1024x16, .f32⟩
  | 93 => ⟨S8x8x1024x16, .f32⟩
  | 94 => ⟨S8x8x1024x16, .f32⟩
  | 95 => ⟨S8x1024x16x8, .f32⟩
  | 96 => ⟨S8x1024x128, .f32⟩
  | 97 => ⟨S8192x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_1 : Ref sig .tc := ⟨.hbm, 54, rfl⟩
abbrev main_v32 : Ref sig .tc := ⟨.hbm, 55, rfl⟩
abbrev main_v33 : Ref sig .tc := ⟨.hbm, 56, rfl⟩
abbrev main_c_2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_3 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_c : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_0 : Ref sig .tc := ⟨.hbm, 83, rfl⟩
abbrev main_call1_v12 : Ref sig .tc := ⟨.hbm, 84, rfl⟩
abbrev main_call1_v13 : Ref sig .tc := ⟨.hbm, 85, rfl⟩
abbrev main_v44 : Ref sig .tc := ⟨.hbm, 86, rfl⟩
abbrev main_c_4 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_1 : Ref sig .tc := ⟨.hbm, 95, rfl⟩
abbrev main_call2_v5 : Ref sig .tc := ⟨.hbm, 96, rfl⟩
abbrev main_call2_v6 : Ref sig .tc := ⟨.hbm, 97, rfl⟩
abbrev main_call2_c_2 : Ref sig .tc := ⟨.hbm, 98, rfl⟩
abbrev main_call2_v7 : Ref sig .tc := ⟨.hbm, 99, rfl⟩
abbrev main_call2_v8 : Ref sig .tc := ⟨.hbm, 100, rfl⟩
abbrev main_call2_c_3 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_v45 : Ref sig .tc := ⟨.hbm, 108, rfl⟩
abbrev main_c_5 : Ref sig .tc := ⟨.hbm, 109, rfl⟩
abbrev main_call3_v0 : Ref sig .tc := ⟨.hbm, 110, rfl⟩
abbrev main_call3_c : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_c_1 : Ref sig .tc := ⟨.hbm, 117, rfl⟩
abbrev main_call3_v5 : Ref sig .tc := ⟨.hbm, 118, rfl⟩
abbrev main_call3_v6 : Ref sig .tc := ⟨.hbm, 119, rfl⟩
abbrev main_call3_c_2 : Ref sig .tc := ⟨.hbm, 120, rfl⟩
abbrev main_call3_v7 : Ref sig .tc := ⟨.hbm, 121, rfl⟩
abbrev main_call3_v8 : Ref sig .tc := ⟨.hbm, 122, rfl⟩
abbrev main_call3_c_3 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_v46 : Ref sig .tc := ⟨.hbm, 130, rfl⟩
abbrev main_cst_6 : Ref sig .tc := ⟨.hbm, 131, rfl⟩
abbrev main_v47 : Ref sig .tc := ⟨.hbm, 132, rfl⟩
abbrev main_c_7 : Ref sig .tc := ⟨.hbm, 133, rfl⟩
abbrev main_v48 : Ref sig .tc := ⟨.hbm, 134, rfl⟩
abbrev main_v49 : Ref sig .tc := ⟨.hbm, 135, rfl⟩
abbrev main_c_8 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_c_9 : Ref sig .tc := ⟨.hbm, 140, rfl⟩
abbrev main_v53 : Ref sig .tc := ⟨.hbm, 141, rfl⟩
abbrev main_v54 : Ref sig .tc := ⟨.hbm, 142, rfl⟩
abbrev main_c_10 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_c_11 : Ref sig .tc := ⟨.hbm, 147, rfl⟩
abbrev main_v58 : Ref sig .tc := ⟨.hbm, 148, rfl⟩
abbrev main_v59 : Ref sig .tc := ⟨.hbm, 149, rfl⟩
abbrev main_c_12 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_cst_13 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_cst_14 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_c_15 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩

abbrev nD : Nat := 1
abbrev τ : Topo := Topo.v7x

variable {F : FTy → Type} [FloatOps F]

class Facts₀ : Prop where
  shapeCasts_S8192x128_S8x1024x8x16 : S8192x128.ShapeCasts S8x1024x8x16
  transposes_S8x1024x8x16_S8x8x1024x16_0_2_1_3 : S8x1024x8x16.Transposes [0, 2, 1, 3] S8x8x1024x16
  shapeCasts_S8192x64_S8x1024x64 : S8192x64.ShapeCasts S8x1024x64
  shapeCasts_S8192x32_S8192x8x4 : S8192x32.ShapeCasts S8192x8x4
  transposes_S8192x8x4_S4x8x8192_2_1_0 : S8192x8x4.Transposes [2, 1, 0] S4x8x8192
  slices_S4x8x8192_S3x8x8192_0_0_0 : S4x8x8192.Slices ![0, 0, 0] S3x8x8192
  slices_S4x8x8192_S1x8x8192_3_0_0 : S4x8x8192.Slices ![3, 0, 0] S1x8x8192
  shapeCasts_S1x8x8192_S8x8192 : S1x8x8192.ShapeCasts S8x8192
  transposes_S8x8192_S8192x8_1_0 : S8x8192.Transposes [1, 0] S8192x8
  shapeCasts_S8192x8_S8x1024x8 : S8192x8.ShapeCasts S8x1024x8
  transposes_S8x1024x8_S8x8x1024_0_2_1 : S8x1024x8.Transposes [0, 2, 1] S8x8x1024
  bcast_S8_S1x8x1_1 : S8.BroadcastsInDim S1x8x1 (![1] : Fin 1 → Fin S1x8x1.rank)
  bcast_S1x8x1_S3x8x8192_0_1_2 : S1x8x1.BroadcastsInDim S3x8x8192 (![0, 1, 2] : Fin 3 → Fin S3x8x8192.rank)
  bcast_S_S3x8x8192 : S_.BroadcastsInDim S3x8x8192 (![] : Fin 0 → Fin S3x8x8192.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  slices_S3x8x8192_S1x8x8192_0_0_0 : S3x8x8192.Slices ![0, 0, 0] S1x8x8192
  bcast_S_S131072 : S_.BroadcastsInDim S131072 (![] : Fin 0 → Fin S131072.rank)
  bcast_S131072_S131072x1_0 : S131072.BroadcastsInDim S131072x1 (![0] : Fin 1 → Fin S131072x1.rank)
  slices_S3x8x8192_S1x8x8192_1_0_0 : S3x8x8192.Slices ![1, 0, 0] S1x8x8192
  bcast_S_S8x131072 : S_.BroadcastsInDim S8x131072 (![] : Fin 0 → Fin S8x131072.rank)
  transposes_S8x131072_S131072x8_1_0 : S8x131072.Transposes [1, 0] S131072x8
  bcast_S_S8x1024x1024x8 : S_.BroadcastsInDim S8x1024x1024x8 (![] : Fin 0 → Fin S8x1024x1024x8.rank)
  concatenates_S131072x1_S131072x1_S131072x1_S131072x3_d1 : Shape.Concatenates [S131072x1, S131072x1, S131072x1] S131072x3 1
  transposes_S8x1024x1024x8_S8x8x1024x1024_0_3_1_2 : S8x1024x1024x8.Transposes [0, 3, 1, 2] S8x8x1024x1024
  slices_S3x8x8192_S1x8x8192_2_0_0 : S3x8x8192.Slices ![2, 0, 0] S1x8x8192
  reducesTo_S8x8x1024x1024_S8x8x1024_d3 : S8x8x1024x1024.ReducesTo [3] S8x8x1024
  h_S_ : 0 < S_.numel
  bcast_S8x8x1024_S8x8x1024x1_0_1_2 : S8x8x1024.BroadcastsInDim S8x8x1024x1 (![0, 1, 2] : Fin 3 → Fin S8x8x1024x1.rank)
  bcast_S_S8x8x1024x1 : S_.BroadcastsInDim S8x8x1024x1 (![] : Fin 0 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x1024_S8x8x1024x1024_0_1_3_2 : S8x8x1024x1024.Transposes [0, 1, 3, 2] S8x8x1024x1024
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S8x8x1024x1024_0_1_2_3 : S1x1x1024x1024.BroadcastsInDim S8x8x1024x1024 (![0, 1, 2, 3] : Fin 4 → Fin S8x8x1024x1024.rank)
  bcast_S8x8x1024_S8x8x1x1024_0_1_3 : S8x8x1024.BroadcastsInDim S8x8x1x1024 (![0, 1, 3] : Fin 3 → Fin S8x8x1x1024.rank)
  bcast_S8x8x1x1024_S8x8x1024x1024_0_1_2_3 : S8x8x1x1024.BroadcastsInDim S8x8x1024x1024 (![0, 1, 2, 3] : Fin 4 → Fin S8x8x1024x1024.rank)
  bcast_S8x1024x1024_S8x1x1024x1024_0_2_3 : S8x1024x1024.BroadcastsInDim S8x1x1024x1024 (![0, 2, 3] : Fin 3 → Fin S8x1x1024x1024.rank)
  bcast_S8x1x1024x1024_S8x8x1024x1024_0_1_2_3 : S8x1x1024x1024.BroadcastsInDim S8x8x1024x1024 (![0, 1, 2, 3] : Fin 4 → Fin S8x8x1024x1024.rank)
  bcast_S8_S1x8x1x1_1 : S8.BroadcastsInDim S1x8x1x1 (![1] : Fin 1 → Fin S1x8x1x1.rank)
  bcast_S1x8x1x1_S8x8x1024x16_0_1_2_3 : S1x8x1x1.BroadcastsInDim S8x8x1024x16 (![0, 1, 2, 3] : Fin 4 → Fin S8x8x1024x16.rank)
  transposes_S8x8x1024x16_S8x1024x16x8_0_2_3_1 : S8x8x1024x16.Transposes [0, 2, 3, 1] S8x1024x16x8
  shapeCasts_S8x1024x16x8_S8x1024x128 : S8x1024x16x8.ShapeCasts S8x1024x128
  shapeCasts_S8x1024x128_S8192x128 : S8x1024x128.ShapeCasts S8192x128
  gather_S8x8192_S131072x1_S8x131072_0_1_n_n_1_1_81_wf : GatherDims.WF S8x8192 S131072x1 S8x131072 [0] [1] [] [1] [] 1 ![8, 1]
  scatter_S8x1024x1024x8_S131072x3_S131072x8_1_012_012_1_wf : ScatterDims.WF S8x1024x1024x8 S131072x3 S131072x8 [1] [0, 1, 2] [0, 1, 2] 1
  dot_S8x8x1024x1024_S8x8x1024x1024_S8x8x1024x1024_3_2_2_3_01_01_wf : DotDims.WF S8x8x1024x1024 S8x8x1024x1024 S8x8x1024x1024 [3] [2] [2] [3] [0, 1] [0, 1]
  dot_S8x1024x64_S8x1024x64_S8x1024x1024_2_2_1_1_0_0_wf : DotDims.WF S8x1024x64 S8x1024x64 S8x1024x1024 [2] [2] [1] [1] [0] [0]
  dot_S8x8x1024x1024_S8x8x1024x16_S8x8x1024x16_3_2_2_3_01_01_wf : DotDims.WF S8x8x1024x1024 S8x8x1024x16 S8x8x1024x16 [3] [2] [2] [3] [0, 1] [0, 1]

variable [Facts₀]

def gather_S8x8192_S131072x1_S8x131072_0_1_n_n_1_1_81 : GatherDims S8x8192 S131072x1 S8x131072 where
  offsetDims := [0]
  collapsedSliceDims := [1]
  operandBatchingDims := []
  startIndicesBatchingDims := []
  startIndexMap := [1]
  indexVectorDim := 1
  sliceSizes := ![8, 1]
  wf := gather_S8x8192_S131072x1_S8x131072_0_1_n_n_1_1_81_wf
def scatter_S8x1024x1024x8_S131072x3_S131072x8_1_012_012_1 : ScatterDims S8x1024x1024x8 S131072x3 S131072x8 where
  updateWindowDims := [1]
  insertedWindowDims := [0, 1, 2]
  scatterDimsToOperandDims := [0, 1, 2]
  indexVectorDim := 1
  wf := scatter_S8x1024x1024x8_S131072x3_S131072x8_1_012_012_1_wf
def dot_S8x8x1024x1024_S8x8x1024x1024_S8x8x1024x1024_3_2_2_3_01_01 : DotDims S8x8x1024x1024 S8x8x1024x1024 S8x8x1024x1024 where
  lhsContracting := [3]
  rhsContracting := [2]
  lhsNonContracting := [2]
  rhsNonContracting := [3]
  lhsBatch := [0, 1]
  rhsBatch := [0, 1]
  wf := dot_S8x8x1024x1024_S8x8x1024x1024_S8x8x1024x1024_3_2_2_3_01_01_wf
def dot_S8x1024x64_S8x1024x64_S8x1024x1024_2_2_1_1_0_0 : DotDims S8x1024x64 S8x1024x64 S8x1024x1024 where
  lhsContracting := [2]
  rhsContracting := [2]
  lhsNonContracting := [1]
  rhsNonContracting := [1]
  lhsBatch := [0]
  rhsBatch := [0]
  wf := dot_S8x1024x64_S8x1024x64_S8x1024x1024_2_2_1_1_0_0_wf
def dot_S8x8x1024x1024_S8x8x1024x16_S8x8x1024x16_3_2_2_3_01_01 : DotDims S8x8x1024x1024 S8x8x1024x16 S8x8x1024x16 where
  lhsContracting := [3]
  rhsContracting := [2]
  lhsNonContracting := [2]
  rhsNonContracting := [3]
  lhsBatch := [0, 1]
  rhsBatch := [0, 1]
  wf := dot_S8x8x1024x1024_S8x8x1024x16_S8x8x1024x16_3_2_2_3_01_01_wf

class Facts : Prop extends Facts₀ where

variable [Facts]
-- ==== Proof.KI.Data.lean ====
/-
  The data of the kernel program's one pipeline: the arrays as the region finds them, each window's block at a
  grid point, what the body leaves in the output window's buffer (five rounds of squaring and accumulation over
  the two scratch buffers, then the scaling), and the pipeline's proof data.
-/
import proofs.«170030_j80934363725836_1_alg».proof.Proof.Gen.KernelIdeal.Launch
import proofs.«170030_j80934363725836_1_alg».proof.Proof.Gen.KernelIdeal.Skeleton
import proofs.«170030_j80934363725836_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays when the region is entered -/

/-- Core `c`'s TensorCore buffer contents when the region is entered, as a valuation: after the nine stretches of
    host operations before the region. -/
abbrev V0 (m : (ℓ : Loc nD τ sig) → Buf (Elt F) ℓ) (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

/-! ## The windows' blocks -/

/-- Window `w`'s block at point `t`, read off its array as the region finds it (`V`). -/
def iblk (m : (ℓ : Loc nD τ sig) → Buf (Elt F) ℓ) (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses: each through the whole-shape rectangle of its buffer -/

abbrev rB : Rect S1x1024x1024 := Rect.unit (s := S1x1024x1024) ![0, 0, 0] S1x1024x1024.size inb_S1x1024x1024_S1x1024x1024_0_0_0
abbrev rS : Rect S1x1x1024 := Rect.unit (s := S1x1x1024) ![0, 0, 0] S1x1x1024.size inb_S1x1x1024_S1x1x1024_0_0_0
abbrev rM : Rect S1024x1024 := Rect.unit (s := S1024x1024) ![0, 0] S1024x1024.size inb_S1024x1024_S1024x1024_0_0

/-! ## What the body computes

With `x` the matrix block and `I` the identity: `L₀ = x`, `A₀ = I + x`; each round `L ← L·L`, `A ← A·(I + L)`; after
five rounds the output is `A₅` scaled by the row block. Each value below is the payload of the store that last
wrote the scratch buffer a later load reads. -/

/-- The identity matrix. -/
def blockE : FVec F S1024x1024 .f32 := k0_pay6 (F := F)
def blockL0 (x : Vec F S1x1024x1024 .bf16) : Vec F S1024x1024 .f32 := k0_pay8 x
def blockA0 (x : Vec F S1x1024x1024 .bf16) : Vec F S1024x1024 .f32 := k0_pay9 x
def blockL1 (x : Vec F S1x1024x1024 .bf16) : Vec F S1024x1024 .f32 := k0_pay11 (blockL0 x)
def blockA1 (x : Vec F S1x1024x1024 .bf16) : Vec F S1024x1024 .f32 := k0_pay12 (blockL0 x) (blockA0 x)
/-- The second square, as the first part hands it to the second. -/
def blockV33 (x : Vec F S1x1024x1024 .bf16) : FVec F S1024x1024 .f32 := k0_pay13 (blockL1 x)
def blockL2 (x : Vec F S1x1024x1024 .bf16) : Vec F S1024x1024 .f32 := k0_pay14 (blockV33 x)
def blockA2 (x : Vec F S1x1024x1024 .bf16) : Vec F S1024x1024 .f32 := k0_pay15 (blockE (F := F)) (blockV33 x) (blockA1 x)
def blockL3 (x : Vec F S1x1024x1024 .bf16) : Vec F S1024x1024 .f32 := k0_pay17 (blockL2 x)
def blockA3 (x : Vec F S1x1024x1024 .bf16) : Vec F S1024x1024 .f32 := k0_pay18 (blockE (F := F)) (blockL2 x) (blockA2 x)
def blockL4 (x : Vec F S1x1024x1024 .bf16) : Vec F S1024x1024 .f32 := k0_pay20 (blockL3 x)
/-- `I + L₄` in bf16, as the second part hands it on. -/
def blockV66 (x : Vec F S1x1024x1024 .bf16) : FVec F S1024x1024 .bf16 := k0_pay21 (blockE (F := F)) (blockL3 x)
def blockA4 (x : Vec F S1x1024x1024 .bf16) : Vec F S1024x1024 .f32 := k0_pay1 (blockV66 x) (blockA3 x)
def blockL5 (x : Vec F S1x1024x1024 .bf16) : Vec F S1024x1024 .f32 := k0_pay3 (blockL4 x)
def blockA5 (x : Vec F S1x1024x1024 .bf16) : Vec F S1024x1024 .f32 := k0_pay4 (blockE (F := F)) (blockL4 x) (blockA4 x)

/-- What the body leaves in window 2's staging buffer, from the blocks of windows 0 and 1: its one store, through the
    whole-shape rectangle, of the scaled accumulator. -/
def blockOut (x0 : Vec F S1x1024x1024 .bf16) (x1 : Vec F S1x1x1024 .f32) : Vec F S1x1024x1024 .bf16 :=
  View.canon [⟨rB, k0_pay5 (View.ld x1 rS) (blockA5 (View.ld x0 rB))⟩]

/-! ## The pipeline's proof data -/

/-- The proof data of the one pipeline on core `c`: the arrays as the region finds them (`V`); after the body at
    point `t` each input's buffer at its block and the output's at `blockOut` of the input blocks; the invariant the
    scoped rest (the two scratch buffers at some contents) and the generator register; nothing owed; full shares. -/
def dats (m : (ℓ : Loc nD τ sig) → Buf (Elt F) ℓ) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

variable (m : (ℓ : Loc nD τ sig) → Buf (Elt F) ℓ)

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

end Cert.KernelIdeal.Hand

end
-- ==== Proof.KI.Kit.lean ====
/-
  @main around its one region: the host operations before it allocate nothing and write no argument array, those
  after it touch the pipeline's arrays and the bypassing buffers only and write neither an array of the pipeline
  nor an argument; each input window's staging buffer holds its block at every point; and the frame claim's post
  read off a frame run's.
-/
import proofs.«170030_j80934363725836_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the nine stretches of host operations before it, the region, the host operations after
    it; it reduces to the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The input windows' blocks -/

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post, read at the seven
    argument arrays (none is staged by a window, so each is as the operations after the region leave it, which is as
    launched), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

end Cert.KernelIdeal.Hand

end
-- ==== Proof.LibWholeStores.lean ====
/-
  Stores and loads through the whole-shape rectangle at zero offsets.

  A buffer last stored through the rectangle that covers its whole shape holds that store's payload, whatever
  was stored before; a load through the same rectangle reads the whole contents. Three forms, each over an
  abstract view, shape and payload, for buffers that a kernel body overwrites whole and reads back whole.
-/
import Idealize.ShloMosaic.Lib.Pipeline.Value
import Idealize.ShloMosaic.Lib.Pipeline.Frame

noncomputable section

namespace Idealize.ShloMosaic.View

variable {Val : EltTy → Type} {S : Shape} {e : EltTy}

/-- Every index lies under the first piece of a list whose first piece is the whole-shape rectangle. -/
theorem cover_cons_unit_zero {off : Fin S.rank → Nat} (h : off = fun _ => 0) (inb : ∀ a, off a + S.size a ≤ S.size a)
    (w : S.Idx → Val e) (L : List (Piece Val S e)) (y : S.Idx) :
    ∃ p ∈ ((⟨Rect.unit off S.size inb, w⟩ : Piece Val S e) :: L), y ∈ p.1.set :=
  ⟨_, List.mem_cons_self, mem_set_unit_zero h inb y⟩

/-- A whole load after a last whole store reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (cover_cons_unit_zero h inb w L), canon_cons_unit_zero h, ld_unit_zero h]

/-- What a list of stores whose last is whole leaves in a buffer reads as that store's payload. -/
theorem read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon _ _ _ (cover_cons_unit_zero h inb w L), canon_cons_unit_zero h]

/-- A whole load of a whole memref holding `X` reads `X`. -/
theorem readAt_unit_zero_unread {sig : RefSig} {κ : Kind} {sp : Space} (m : Memref sig κ sp S e) (hm : m.IsWhole)
    {off : Fin S.rank → Nat} (h : off = fun _ => 0) (inb : ∀ a, off a + S.size a ≤ S.size a) (X : S.Idx → Val e) :
    View.readAt Val m.view (Rect.unit off S.size inb).toLoadRect (hm.unread X) = X := by
  rw [readAt_eq_ld, hm.read_unread, ld_unit_zero h]

end Idealize.ShloMosaic.View

end
-- ==== Proof.KI.Body.lean ====
/-
  The body's triple. On whole staging memrefs — the two inputs' at their blocks, the output's and the two scratch
  buffers at anything — the kernel body runs to a state holding the inputs as they were, the output's buffer at
  `blockOut` of the input blocks and the two scratch buffers at some contents. Every load of a scratch buffer
  follows a store through the whole-shape rectangle into it, and reads that store's payload.
-/
import proofs.«170030_j80934363725836_1_alg».proof.Proof.KI.Data
import proofs.«170030_j80934363725836_1_alg».proof.Proof.LibWholeStores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The output's one store covers its buffer: its rectangle is the whole shape. -/
theorem cover0_2 (p0 : Vec F S1x1024x1024 .bf16) (y : S1x1024x1024.Idx) :
    ∃ pc ∈ ([⟨rB, p0⟩] : List (View.Piece (Elt F) S1x1024x1024 .bf16)), y ∈ pc.1.set :=
  ⟨_, List.mem_singleton_self _, View.mem_set_unit_zero (S := S1x1024x1024) hz3 inb_S1x1024x1024_S1x1024x1024_0_0_0 y⟩

set_option maxHeartbeats 1000000 in
/-- The kernel body on whole memrefs: the printed functions are their skeletons, whose loads and stores are stepped
    through in order, both parts included; each value loaded from a scratch buffer is then identified, store by store, with the chain
    `blockL·` / `blockA·` of the loaded matrix block. -/
theorem sound_kernel (c : Dev nD) (E : Set ℕ) (i : grid0.Coords)
    (arg1 : Memref sig .tc .vmem S1x1024x1024 .bf16) (harg1 : arg1.IsWhole)
    (arg2 : Memref sig .tc .vmem S1x1x1024 .f32) (harg2 : arg2.IsWhole)
    (arg3 : Memref sig .tc .vmem S1x1024x1024 .bf16) (harg3 : arg3.IsWhole)
    (arg4 : Memref sig .tc .vmem S1024x1024 .f32) (harg4 : arg4.IsWhole)
    (arg5 : Memref sig .tc .vmem S1024x1024 .f32) (harg5 : arg5.IsWhole)
    (x0 : Vec F S1x1024x1024 .bf16) (x1 : Vec F S1x1x1024 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (blockOut x0 x1)
            ∗ (∃ d, owns (c : Thread nD τ) arg4 fullShare d) ∗ (∃ d, owns (c : Thread nD τ) arg5 fullShare d)) -∗ K ⟨⟩))
      ⊢ wp frame (wpE (defs₀ (F := F)) Variants.none c none) E (cc0__dag_inverse_kernel i arg1 harg1 arg2 harg2 arg3 harg3 arg4 harg4 arg5 harg5) K := by
  simp only [cc0__dag_inverse_kernel_eq_skeleton]; unfold cc0__dag_inverse_kernel_skel
  simp only [k0_part1_eq_skeleton, k0_part2_eq_skeleton]; unfold k0_part1_skel k0_part2_skel
  unfold owns
  iintro ⟨⟨%f0, %hf0, H0⟩, ⟨%f1, %hf1, H1⟩, ⟨%d3, %f3, -, H3⟩, ⟨%d4, %f4, -, H4⟩, ⟨%d5, %f5, -, H5⟩, Hk⟩
  subst hf0 hf1
  sl_exec
  sl_step
  iapply Hk
  -- the loaded matrix block, and each scratch load as the payload last stored whole
  let X : Vec F S1x1024x1024 .bf16 := View.ld (View.read (Elt F) arg1.view f0) rB
  have h17 : (sound_kernel.sl.v17 c arg1 arg4 f0 : Vec F S1024x1024 .f32) = blockL0 X :=
    (View.readCov_cons_unit_zero (S := S1024x1024) (Val := Elt F) arg4.view hz2 inb_S1024x1024_S1024x1024_0_0 _ _).trans (by rfl)
  have h25 : (sound_kernel.sl.v25 c arg1 arg5 f0 : Vec F S1024x1024 .f32) = blockA0 X :=
    (View.readCov_cons_unit_zero (S := S1024x1024) (Val := Elt F) arg5.view hz2 inb_S1024x1024_S1024x1024_0_0 _ _).trans (by rfl)
  have h31 : (sound_kernel.sl.v31 c arg1 arg4 f0 : Vec F S1024x1024 .f32) = blockL1 X :=
    (View.readCov_cons_unit_zero (S := S1024x1024) (Val := Elt F) arg4.view hz2 inb_S1024x1024_S1024x1024_0_0 _ _).trans (by rw [h17]; rfl)
  have h39 : (sound_kernel.sl.v39 c arg1 arg4 arg5 f0 : Vec F S1024x1024 .f32) = blockA1 X :=
    (View.readCov_cons_unit_zero (S := S1024x1024) (Val := Elt F) arg5.view hz2 inb_S1024x1024_S1024x1024_0_0 _ _).trans (by rw [h17, h25]; rfl)
  have h45 : (sound_kernel.sl.v45 c arg1 arg4 f0 : Vec F S1024x1024 .f32) = blockL2 X :=
    (View.readCov_cons_unit_zero (S := S1024x1024) (Val := Elt F) arg4.view hz2 inb_S1024x1024_S1024x1024_0_0 _ _).trans (by rw [h31]; rfl)
  have h53 : (sound_kernel.sl.v53 c arg1 arg4 arg5 f0 : Vec F S1024x1024 .f32) = blockA2 X :=
    (View.readCov_cons_unit_zero (S := S1024x1024) (Val := Elt F) arg5.view hz2 inb_S1024x1024_S1024x1024_0_0 _ _).trans (by rw [h31, h39]; rfl)
  have h59 : (sound_kernel.sl.v59 c arg1 arg4 f0 : Vec F S1024x1024 .f32) = blockL3 X :=
    (View.readCov_cons_unit_zero (S := S1024x1024) (Val := Elt F) arg4.view hz2 inb_S1024x1024_S1024x1024_0_0 _ _).trans (by rw [h45]; rfl)
  have h67 : (sound_kernel.sl.v67 c arg1 arg4 arg5 f0 : Vec F S1024x1024 .f32) = blockA3 X :=
    (View.readCov_cons_unit_zero (S := S1024x1024) (Val := Elt F) arg5.view hz2 inb_S1024x1024_S1024x1024_0_0 _ _).trans (by rw [h45, h53]; rfl)
  have h73 : (sound_kernel.sl.v73 c arg1 arg4 f0 : Vec F S1024x1024 .f32) = blockL4 X :=
    (View.readCov_cons_unit_zero (S := S1024x1024) (Val := Elt F) arg4.view hz2 inb_S1024x1024_S1024x1024_0_0 _ _).trans (by rw [h59]; rfl)
  have h81 : (sound_kernel.sl.v81 c arg1 arg4 arg5 f0 : Vec F S1024x1024 .f32) = blockA4 X :=
    (View.readCov_cons_unit_zero (S := S1024x1024) (Val := Elt F) arg5.view hz2 inb_S1024x1024_S1024x1024_0_0 _ _).trans (by rw [h59, h67]; rfl)
  have h89 : (sound_kernel.sl.v89 c arg1 arg4 arg5 f0 : Vec F S1024x1024 .f32) = blockA5 X :=
    (View.readCov_cons_unit_zero (S := S1024x1024) (Val := Elt F) arg5.view hz2 inb_S1024x1024_S1024x1024_0_0 _ _).trans (by rw [h73, h81]; rfl)
  isplitl [H0]
  · iexists f0; isplitr; · ipureintro; rfl
    iexact H0
  isplitl [H1]
  · iexists f1; isplitr; · ipureintro; rfl
    iexact H1
  isplitl [H3]
  · iexists _; isplitr
    swap; · iexact H3
    ipureintro
    exact (View.read_writes_eq_canon _ _ _ (cover0_2 _)).trans (by rw [h89]; rfl)
  isplitl [H4]
  · iexists _, _; isplitr
    swap; · iexact H4
    ipureintro; rfl
  iexists _, _; isplitr
  swap; · iexact H5
  ipureintro; rfl

end Cert.KernelIdeal.Hand

end
-- ==== Proof.KI.Run.lean ====
/-
  The body obligation and the run. At every grid point the two input windows' staging buffers hold their blocks;
  the region's invariant hands the body the two scratch buffers at some contents and takes them back at some
  contents; so the body's triple applies, and the frame run of @main around its one region follows, with the frame
  claim read off it.
-/
import proofs.«170030_j80934363725836_1_alg».proof.Proof.KI.Kit
import proofs.«170030_j80934363725836_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operands: whole scoped buffers of the kernel's own, passed beside the windows. -/
abbrev scM0 : Memref sig .tc .vmem S1024x1024 .f32 := Memref.whole cc0_scratch0
abbrev scM1 : Memref sig .tc .vmem S1024x1024 .f32 := Memref.whole cc0_scratch1

/-- The region's invariant with the scratch operands as memrefs owned at some contents: what the body obligation
    hands the run and takes back. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, the invariant yields the two scratch buffers at
    some contents, so the body's triple applies; it returns them at some contents, which is the invariant again;
    the generator register and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, PhiA0_eq]
  iintro ⟨⟨⟨HS0, HS1⟩, Hg⟩, Ho, ⟨%d0, H0⟩, ⟨%d1, H1⟩, ⟨%d2, H2⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [HS0]; · iexact HS0
  isplitl [HS1]; · iexact HS1
  iintro ⟨H0, H1, H2, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data compute and
    every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`: @main runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.K.Data.lean ====
/-
  The data of the kernel program's one pipeline: the arrays as the region finds them, each window's block at a
  grid point, what the body leaves in the output window's buffer (five rounds of squaring and accumulation over
  the two scratch buffers, then the scaling), and the pipeline's proof data.
-/
import proofs.«170030_j80934363725836_1_alg».proof.Proof.Gen.Kernel.Launch
import proofs.«170030_j80934363725836_1_alg».proof.Proof.Gen.Kernel.Skeleton
import proofs.«170030_j80934363725836_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays when the region is entered -/

/-- Core `c`'s TensorCore buffer contents when the region is entered, as a valuation: after the nine stretches of
    host operations before the region. -/
abbrev V0 (m : (ℓ : Loc nD τ sig) → Buf (Elt F) ℓ) (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

/-! ## The windows' blocks -/

/-- Window `w`'s block at point `t`, read off its array as the region finds it (`V`). -/
def iblk (m : (ℓ : Loc nD τ sig) → Buf (Elt F) ℓ) (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses: each through the whole-shape rectangle of its buffer -/

abbrev rB : Rect S1x1024x1024 := Rect.unit (s := S1x1024x1024) ![0, 0, 0] S1x1024x1024.size inb_S1x1024x1024_S1x1024x1024_0_0_0
abbrev rS : Rect S1x1x1024 := Rect.unit (s := S1x1x1024) ![0, 0, 0] S1x1x1024.size inb_S1x1x1024_S1x1x1024_0_0_0
abbrev rM : Rect S1024x1024 := Rect.unit (s := S1024x1024) ![0, 0] S1024x1024.size inb_S1024x1024_S1024x1024_0_0

/-! ## What the body computes

With `x` the matrix block and `I` the identity: `L₀ = x`, `A₀ = I + x`; each round `L ← L·L`, `A ← A·(I + L)`; after
five rounds the output is `A₅` scaled by the row block. Each value below is the payload of the store that last
wrote the scratch buffer a later load reads. -/

/-- The identity matrix. -/
def blockE : FVec F S1024x1024 .f32 := k0_pay6 (F := F)
def blockL0 (x : Vec F S1x1024x1024 .bf16) : Vec F S1024x1024 .f32 := k0_pay8 x
def blockA0 (x : Vec F S1x1024x1024 .bf16) : Vec F S1024x1024 .f32 := k0_pay9 x
def blockL1 (x : Vec F S1x1024x1024 .bf16) : Vec F S1024x1024 .f32 := k0_pay11 (blockL0 x)
def blockA1 (x : Vec F S1x1024x1024 .bf16) : Vec F S1024x1024 .f32 := k0_pay12 (blockL0 x) (blockA0 x)
/-- The second square, as the first part hands it to the second. -/
def blockV33 (x : Vec F S1x1024x1024 .bf16) : FVec F S1024x1024 .f32 := k0_pay13 (blockL1 x)
def blockL2 (x : Vec F S1x1024x1024 .bf16) : Vec F S1024x1024 .f32 := k0_pay14 (blockV33 x)
def blockA2 (x : Vec F S1x1024x1024 .bf16) : Vec F S1024x1024 .f32 := k0_pay15 (blockE (F := F)) (blockV33 x) (blockA1 x)
def blockL3 (x : Vec F S1x1024x1024 .bf16) : Vec F S1024x1024 .f32 := k0_pay17 (blockL2 x)
def blockA3 (x : Vec F S1x1024x1024 .bf16) : Vec F S1024x1024 .f32 := k0_pay18 (blockE (F := F)) (blockL2 x) (blockA2 x)
def blockL4 (x : Vec F S1x1024x1024 .bf16) : Vec F S1024x1024 .f32 := k0_pay20 (blockL3 x)
/-- `I + L₄` in bf16, as the second part hands it on. -/
def blockV66 (x : Vec F S1x1024x1024 .bf16) : FVec F S1024x1024 .bf16 := k0_pay21 (blockE (F := F)) (blockL3 x)
def blockA4 (x : Vec F S1x1024x1024 .bf16) : Vec F S1024x1024 .f32 := k0_pay1 (blockV66 x) (blockA3 x)
def blockL5 (x : Vec F S1x1024x1024 .bf16) : Vec F S1024x1024 .f32 := k0_pay3 (blockL4 x)
def blockA5 (x : Vec F S1x1024x1024 .bf16) : Vec F S1024x1024 .f32 := k0_pay4 (blockE (F := F)) (blockL4 x) (blockA4 x)

/-- What the body leaves in window 2's staging buffer, from the blocks of windows 0 and 1: its one store, through the
    whole-shape rectangle, of the scaled accumulator. -/
def blockOut (x0 : Vec F S1x1024x1024 .bf16) (x1 : Vec F S1x1x1024 .f32) : Vec F S1x1024x1024 .bf16 :=
  View.canon [⟨rB, k0_pay5 (View.ld x1 rS) (blockA5 (View.ld x0 rB))⟩]

/-! ## The pipeline's proof data -/

/-- The proof data of the one pipeline on core `c`: the arrays as the region finds them (`V`); after the body at
    point `t` each input's buffer at its block and the output's at `blockOut` of the input blocks; the invariant the
    scoped rest (the two scratch buffers at some contents) and the generator register; nothing owed; full shares. -/
def dats (m : (ℓ : Loc nD τ sig) → Buf (Elt F) ℓ) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

variable (m : (ℓ : Loc nD τ sig) → Buf (Elt F) ℓ)

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

end Cert.Kernel.Hand

end
-- ==== Proof.K.Kit.lean ====
/-
  @main around its one region: the host operations before it allocate nothing and write no argument array, those
  after it touch the pipeline's arrays and the bypassing buffers only and write neither an array of the pipeline
  nor an argument; each input window's staging buffer holds its block at every point; and the frame claim's post
  read off a frame run's.
-/
import proofs.«170030_j80934363725836_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the nine stretches of host operations before it, the region, the host operations after
    it; it reduces to the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.TRef.nullary, StableHlo.TRef.unary, StableHlo.TRef.binary, StableHlo.TRef.ternary, StableHlo.TRef.quaternary, StableHlo.TRef.nary, StableHlo.TRef.unaryIndexed, StableHlo.TRef.binaryIndexed, StableHlo.TRef.reshape, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The input windows' blocks -/

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post, read at the seven
    argument arrays (none is staged by a window, so each is as the operations after the region leave it, which is as
    launched), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

end Cert.Kernel.Hand

end
-- ==== Proof.K.Body.lean ====
/-
  The body's triple. On whole staging memrefs — the two inputs' at their blocks, the output's and the two scratch
  buffers at anything — the kernel body runs to a state holding the inputs as they were, the output's buffer at
  `blockOut` of the input blocks and the two scratch buffers at some contents. Every load of a scratch buffer
  follows a store through the whole-shape rectangle into it, and reads that store's payload.
-/
import proofs.«170030_j80934363725836_1_alg».proof.Proof.K.Data
import proofs.«170030_j80934363725836_1_alg».proof.Proof.LibWholeStores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The output's one store covers its buffer: its rectangle is the whole shape. -/
theorem cover0_2 (p0 : Vec F S1x1024x1024 .bf16) (y : S1x1024x1024.Idx) :
    ∃ pc ∈ ([⟨rB, p0⟩] : List (View.Piece (Elt F) S1x1024x1024 .bf16)), y ∈ pc.1.set :=
  ⟨_, List.mem_singleton_self _, View.mem_set_unit_zero (S := S1x1024x1024) hz3 inb_S1x1024x1024_S1x1024x1024_0_0_0 y⟩

set_option maxHeartbeats 1000000 in
/-- The kernel body on whole memrefs: the printed functions are their skeletons, whose loads and stores are stepped
    through in order, both parts included; each value loaded from a scratch buffer is then identified, store by store, with the chain
    `blockL·` / `blockA·` of the loaded matrix block. -/
theorem sound_kernel (c : Dev nD) (E : Set ℕ) (i : grid0.Coords)
    (arg1 : Memref sig .tc .vmem S1x1024x1024 .bf16) (harg1 : arg1.IsWhole)
    (arg2 : Memref sig .tc .vmem S1x1x1024 .f32) (harg2 : arg2.IsWhole)
    (arg3 : Memref sig .tc .vmem S1x1024x1024 .bf16) (harg3 : arg3.IsWhole)
    (arg4 : Memref sig .tc .vmem S1024x1024 .f32) (harg4 : arg4.IsWhole)
    (arg5 : Memref sig .tc .vmem S1024x1024 .f32) (harg5 : arg5.IsWhole)
    (x0 : Vec F S1x1024x1024 .bf16) (x1 : Vec F S1x1x1024 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (blockOut x0 x1)
            ∗ (∃ d, owns (c : Thread nD τ) arg4 fullShare d) ∗ (∃ d, owns (c : Thread nD τ) arg5 fullShare d)) -∗ K ⟨⟩))
      ⊢ wp frame (wpE (defs₀ (F := F)) Variants.none c none) E (cc0__dag_inverse_kernel i arg1 harg1 arg2 harg2 arg3 harg3 arg4 harg4 arg5 harg5) K := by
  simp only [cc0__dag_inverse_kernel_eq_skeleton]; unfold cc0__dag_inverse_kernel_skel
  simp only [k0_part1_eq_skeleton, k0_part2_eq_skeleton]; unfold k0_part1_skel k0_part2_skel
  unfold owns
  iintro ⟨⟨%f0, %hf0, H0⟩, ⟨%f1, %hf1, H1⟩, ⟨%d3, %f3, -, H3⟩, ⟨%d4, %f4, -, H4⟩, ⟨%d5, %f5, -, H5⟩, Hk⟩
  subst hf0 hf1
  sl_exec
  sl_step
  iapply Hk
  -- the loaded matrix block, and each scratch load as the payload last stored whole
  let X : Vec F S1x1024x1024 .bf16 := View.ld (View.read (Elt F) arg1.view f0) rB
  have h17 : (sound_kernel.sl.v17 c arg1 arg4 f0 : Vec F S1024x1024 .f32) = blockL0 X :=
    (View.readCov_cons_unit_zero (S := S1024x1024) (Val := Elt F) arg4.view hz2 inb_S1024x1024_S1024x1024_0_0 _ _).trans (by rfl)
  have h25 : (sound_kernel.sl.v25 c arg1 arg5 f0 : Vec F S1024x1024 .f32) = blockA0 X :=
    (View.readCov_cons_unit_zero (S := S1024x1024) (Val := Elt F) arg5.view hz2 inb_S1024x1024_S1024x1024_0_0 _ _).trans (by rfl)
  have h31 : (sound_kernel.sl.v31 c arg1 arg4 f0 : Vec F S1024x1024 .f32) = blockL1 X :=
    (View.readCov_cons_unit_zero (S := S1024x1024) (Val := Elt F) arg4.view hz2 inb_S1024x1024_S1024x1024_0_0 _ _).trans (by rw [h17]; rfl)
  have h39 : (sound_kernel.sl.v39 c arg1 arg4 arg5 f0 : Vec F S1024x1024 .f32) = blockA1 X :=
    (View.readCov_cons_unit_zero (S := S1024x1024) (Val := Elt F) arg5.view hz2 inb_S1024x1024_S1024x1024_0_0 _ _).trans (by rw [h17, h25]; rfl)
  have h45 : (sound_kernel.sl.v45 c arg1 arg4 f0 : Vec F S1024x1024 .f32) = blockL2 X :=
    (View.readCov_cons_unit_zero (S := S1024x1024) (Val := Elt F) arg4.view hz2 inb_S1024x1024_S1024x1024_0_0 _ _).trans (by rw [h31]; rfl)
  have h53 : (sound_kernel.sl.v53 c arg1 arg4 arg5 f0 : Vec F S1024x1024 .f32) = blockA2 X :=
    (View.readCov_cons_unit_zero (S := S1024x1024) (Val := Elt F) arg5.view hz2 inb_S1024x1024_S1024x1024_0_0 _ _).trans (by rw [h31, h39]; rfl)
  have h59 : (sound_kernel.sl.v59 c arg1 arg4 f0 : Vec F S1024x1024 .f32) = blockL3 X :=
    (View.readCov_cons_unit_zero (S := S1024x1024) (Val := Elt F) arg4.view hz2 inb_S1024x1024_S1024x1024_0_0 _ _).trans (by rw [h45]; rfl)
  have h67 : (sound_kernel.sl.v67 c arg1 arg4 arg5 f0 : Vec F S1024x1024 .f32) = blockA3 X :=
    (View.readCov_cons_unit_zero (S := S1024x1024) (Val := Elt F) arg5.view hz2 inb_S1024x1024_S1024x1024_0_0 _ _).trans (by rw [h45, h53]; rfl)
  have h73 : (sound_kernel.sl.v73 c arg1 arg4 f0 : Vec F S1024x1024 .f32) = blockL4 X :=
    (View.readCov_cons_unit_zero (S := S1024x1024) (Val := Elt F) arg4.view hz2 inb_S1024x1024_S1024x1024_0_0 _ _).trans (by rw [h59]; rfl)
  have h81 : (sound_kernel.sl.v81 c arg1 arg4 arg5 f0 : Vec F S1024x1024 .f32) = blockA4 X :=
    (View.readCov_cons_unit_zero (S := S1024x1024) (Val := Elt F) arg5.view hz2 inb_S1024x1024_S1024x1024_0_0 _ _).trans (by rw [h59, h67]; rfl)
  have h89 : (sound_kernel.sl.v89 c arg1 arg4 arg5 f0 : Vec F S1024x1024 .f32) = blockA5 X :=
    (View.readCov_cons_unit_zero (S := S1024x1024) (Val := Elt F) arg5.view hz2 inb_S1024x1024_S1024x1024_0_0 _ _).trans (by rw [h73, h81]; rfl)
  isplitl [H0]
  · iexists f0; isplitr; · ipureintro; rfl
    iexact H0
  isplitl [H1]
  · iexists f1; isplitr; · ipureintro; rfl
    iexact H1
  isplitl [H3]
  · iexists _; isplitr
    swap; · iexact H3
    ipureintro
    exact (View.read_writes_eq_canon _ _ _ (cover0_2 _)).trans (by rw [h89]; rfl)
  isplitl [H4]
  · iexists _, _; isplitr
    swap; · iexact H4
    ipureintro; rfl
  iexists _, _; isplitr
  swap; · iexact H5
  ipureintro; rfl

end Cert.Kernel.Hand

end
-- ==== Proof.K.Run.lean ====
/-
  The body obligation and the run. At every grid point the two input windows' staging buffers hold their blocks;
  the region's invariant hands the body the two scratch buffers at some contents and takes them back at some
  contents; so the body's triple applies, and the frame run of @main around its one region follows, with the frame
  claim read off it.
-/
import proofs.«170030_j80934363725836_1_alg».proof.Proof.K.Kit
import proofs.«170030_j80934363725836_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operands: whole scoped buffers of the kernel's own, passed beside the windows. -/
abbrev scM0 : Memref sig .tc .vmem S1024x1024 .f32 := Memref.whole cc0_scratch0
abbrev scM1 : Memref sig .tc .vmem S1024x1024 .f32 := Memref.whole cc0_scratch1

/-- The region's invariant with the scratch operands as memrefs owned at some contents: what the body obligation
    hands the run and takes back. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, the invariant yields the two scratch buffers at
    some contents, so the body's triple applies; it returns them at some contents, which is the invariant again;
    the generator register and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, PhiA0_eq]
  iintro ⟨⟨⟨HS0, HS1⟩, Hg⟩, Ho, ⟨%d0, H0⟩, ⟨%d1, H1⟩, ⟨%d2, H2⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [HS0]; · iexact HS0
  isplitl [HS1]; · iexact HS1
  iintro ⟨H0, H1, H2, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data compute and
    every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`: @main runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.Ref.Ops.lean ====
/- The reference program's @main as a straight line of StableHLO operations: the list of its 219 operations
   in order (the calls of @softplus, @floor_divide, @remainder and the @_where's inside them replaced by their
   bodies over the calls' own buffers), cut where the computation changes character: the operations that build the
   normalised adjacency (through the transpose %82), the identity matrix and the five doubling rounds
   (%83 … %116), and the weighting, the value product and the output layout (%117 … %131). -/
import proofs.«170030_j80934363725836_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 15 operations of @main. -/
abbrev ops_a0 : List (HloOp τ sig (Elt F)) :=
  [ StableHlo.reshape main_arg0 main_v0 rfl shapeCasts_S8192x128_S8x1024x8x16,
    StableHlo.unary main_v0 main_v1 ((transpose S8x8x1024x16 [0, 2, 1, 3] · transposes_S8x1024x8x16_S8x8x1024x16_0_2_1_3) : (⟨S8x1024x8x16, .f32⟩ : BufTy).Contents (Elt F) → (⟨S8x8x1024x16, .f32⟩ : BufTy).Contents (Elt F)),
    StableHlo.reshape main_arg1 main_v2 rfl shapeCasts_S8192x64_S8x1024x64,
    StableHlo.reshape main_arg2 main_v3 rfl shapeCasts_S8192x64_S8x1024x64,
    StableHlo.reshape main_arg3 main_v4 rfl shapeCasts_S8192x32_S8192x8x4,
    StableHlo.unary main_v4 main_v5 ((transpose S4x8x8192 [2, 1, 0] · transposes_S8192x8x4_S4x8x8192_2_1_0) : (⟨S8192x8x4, .f32⟩ : BufTy).Contents (Elt F) → (⟨S4x8x8192, .f32⟩ : BufTy).Contents (Elt F)),
    StableHlo.unary main_v5 main_v6 ((extractStridedSlice S3x8x8192 ![0, 0, 0] · slices_S4x8x8192_S3x8x8192_0_0_0) : (⟨S4x8x8192, .f32⟩ : BufTy).Contents (Elt F) → (⟨S3x8x8192, .f32⟩ : BufTy).Contents (Elt F)),
    StableHlo.unary main_v5 main_v7 ((extractStridedSlice S1x8x8192 ![3, 0, 0] · slices_S4x8x8192_S1x8x8192_3_0_0) : (⟨S4x8x8192, .f32⟩ : BufTy).Contents (Elt F) → (⟨S1x8x8192, .f32⟩ : BufTy).Contents (Elt F)),
    StableHlo.reshape main_v7 main_v8 rfl shapeCasts_S1x8x8192_S8x8192,
    StableHlo.unary main_v8 main_v9 ((transpose S8192x8 [1, 0] · transposes_S8x8192_S8192x8_1_0) : (⟨S8x8192, .f32⟩ : BufTy).Contents (Elt F) → (⟨S8192x8, .f32⟩ : BufTy).Contents (Elt F)),
    StableHlo.reshape main_v9 main_v10 rfl shapeCasts_S8192x8_S8x1024x8,
    StableHlo.unary main_v10 main_v11 ((transpose S8x8x1024 [0, 2, 1] · transposes_S8x1024x8_S8x8x1024_0_2_1) : (⟨S8x1024x8, .f32⟩ : BufTy).Contents (Elt F) → (⟨S8x8x1024, .f32⟩ : BufTy).Contents (Elt F)),
    StableHlo.unary main_arg4 main_v12 (broadcastInDim S1x8x1 ![1] bcast_S8_S1x8x1_1 : (⟨S8, .f32⟩ : BufTy).Contents (Elt F) → (⟨S1x8x1, .f32⟩ : BufTy).Contents (Elt F)),
    StableHlo.unary main_v12 main_v13 (broadcastInDim S3x8x8192 ![0, 1, 2] bcast_S1x8x1_S3x8x8192_0_1_2 : (⟨S1x8x1, .f32⟩ : BufTy).Contents (Elt F) → (⟨S3x8x8192, .f32⟩ : BufTy).Contents (Elt F)),
    StableHlo.binary main_v6 main_v13 main_v14 (addf : (⟨S3x8x8192, .f32⟩ : BufTy).Contents (Elt F) → (⟨S3x8x8192, .f32⟩ : BufTy).Contents (Elt F) → (⟨S3x8x8192, .f32⟩ : BufTy).Contents (Elt F)) ]
theorem ops_a0_sub : (ops_a0 : List (HloOp τ sig (Elt F))).Forall fun op => op.bufs ⊆ tcRefs τ sig :=
  ⟨reshape_bufs_sub .., unary_bufs_sub .., reshape_bufs_sub .., reshape_bufs_sub .., reshape_bufs_sub .., unary_bufs_sub .., unary_bufs_sub .., unary_bufs_sub .., reshape_bufs_sub .., unary_bufs_sub .., reshape_bufs_sub .., unary_bufs_sub .., unary_bufs_sub .., unary_bufs_sub .., binary_bufs_sub ..⟩
theorem ops_a0_fresh : (ops_a0 : List (HloOp τ sig (Elt F))).Forall fun op => op.fresh = ∅ :=
  ⟨rfl, rfl, rfl, rfl, rfl, rfl, rfl, rfl, rfl, rfl, rfl, rfl, rfl, rfl, rfl⟩

/-- 14 the inlined body of the call with buffer record main_call0. -/
abbrev ops_a1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S3x8x8192, .f32⟩) (broadcastInDim S3x8x8192 ![] bcast_S_S3x8x8192),
    StableHlo.TRef.binary (.of main_v14 : StableHlo.TRef sig ⟨S3x8x8192, .f32⟩) (.of main_call0_v0 : StableHlo.TRef sig ⟨S3x8x8192, .f32⟩) (.of main_call0_v1 : StableHlo.TRef sig ⟨S3x8x8192, .f32⟩) maximumf,
    StableHlo.TRef.unary (.of main_call0_cst : StableHlo.TRef sig ⟨S_, .f32⟩) (.of main_call0_v2 : StableHlo.TRef sig ⟨S3x8x8192, .f32⟩) (broadcastInDim S3x8x8192 ![] bcast_S_S3x8x8192),
    StableHlo.TRef.binary (.of main_v14 : StableHlo.TRef sig ⟨S3x8x8192, .f32⟩) (.of main_call0_v2 : StableHlo.TRef sig ⟨S3x8x8192, .f32⟩) (.of main_call0_v3 : StableHlo.TRef sig ⟨S3x8x8192, .f32⟩) subf,
    StableHlo.TRef.binary (.of main_call0_v3 : StableHlo.TRef sig ⟨S3x8x8192, .f32⟩) (.of main_call0_v3 : StableHlo.TRef sig ⟨S3x8x8192, .f32⟩) (.of main_call0_v4 : StableHlo.TRef sig ⟨S3x8x8192, .i1⟩) (cmpf .une),
    StableHlo.TRef.unary (.of main_call0_cst : StableHlo.TRef sig ⟨S_, .f32⟩) (.of main_call0_v5 : StableHlo.TRef sig ⟨S3x8x8192, .f32⟩) (broadcastInDim S3x8x8192 ![] bcast_S_S3x8x8192),
    StableHlo.TRef.binary (.of main_v14 : StableHlo.TRef sig ⟨S3x8x8192, .f32⟩) (.of main_call0_v5 : StableHlo.TRef sig ⟨S3x8x8192, .f32⟩) (.of main_call0_v6 : StableHlo.TRef sig ⟨S3x8x8192, .f32⟩) addf,
    StableHlo.TRef.unary (.of main_call0_v3 : StableHlo.TRef sig ⟨S3x8x8192, .f32⟩) (.of main_call0_v7 : StableHlo.TRef sig ⟨S3x8x8192, .f32⟩) Host.absf,
    StableHlo.TRef.unary (.of main_call0_v7 : StableHlo.TRef sig ⟨S3x8x8192, .f32⟩) (.of main_call0_v8 : StableHlo.TRef sig ⟨S3x8x8192, .f32⟩) Host.negf,
    StableHlo.TRef.unary (.of main_call0_v8 : StableHlo.TRef sig ⟨S3x8x8192, .f32⟩) (.of main_call0_v9 : StableHlo.TRef sig ⟨S3x8x8192, .f32⟩) Host.exp,
    StableHlo.TRef.unary (.of main_call0_v9 : StableHlo.TRef sig ⟨S3x8x8192, .f32⟩) (.of main_call0_v10 : StableHlo.TRef sig ⟨S3x8x8192, .f32⟩) Host.log1p,
    StableHlo.TRef.binary (.of main_call0_v1 : StableHlo.TRef sig ⟨S3x8x8192, .f32⟩) (.of main_call0_v10 : StableHlo.TRef sig ⟨S3x8x8192, .f32⟩) (.of main_call0_v11 : StableHlo.TRef sig ⟨S3x8x8192, .f32⟩) addf,
    StableHlo.TRef.ternary (.of main_call0_v4 : StableHlo.TRef sig ⟨S3x8x8192, .i1⟩) (.of main_call0_v6 : StableHlo.TRef sig ⟨S3x8x8192, .f32⟩) (.of main_call0_v11 : StableHlo.TRef sig ⟨S3x8x8192, .f32⟩) (.of main_v15 : StableHlo.TRef sig ⟨S3x8x8192, .f32⟩) select ]
theorem ops_a1_sub : (ops_a1 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem ops_a1_fresh : (ops_a1 : List (HloOp τ sig (Elt F))).Forall fun op => op.fresh = ∅ :=
  ⟨rfl, rfl, rfl, rfl, rfl, rfl, rfl, rfl, rfl, rfl, rfl, rfl, rfl, rfl⟩

/-- 34 operations of @main. -/
abbrev ops_a2 : List (HloOp τ sig (Elt F)) :=
  [ StableHlo.unary main_v15 main_v16 (Host.negf : (⟨S3x8x8192, .f32⟩ : BufTy).Contents (Elt F) → (⟨S3x8x8192, .f32⟩ : BufTy).Contents (Elt F)),
    StableHlo.unary main_arg6 main_v17 ((extractStridedSlice S1x131072 ![0, 0] · slices_S2x131072_S1x131072_0_0) : (⟨S2x131072, .i32⟩ : BufTy).Contents (Elt F) → (⟨S1x131072, .i32⟩ : BufTy).Contents (Elt F)),
    StableHlo.reshape main_v17 main_v18 rfl shapeCasts_S1x131072_S131072,
    StableHlo.unary main_arg6 main_v19 ((extractStridedSlice S1x131072 ![1, 0] · slices_S2x131072_S1x131072_1_0) : (⟨S2x131072, .i32⟩ : BufTy).Contents (Elt F) → (⟨S1x131072, .i32⟩ : BufTy).Contents (Elt F)),
    StableHlo.reshape main_v19 main_v20 rfl shapeCasts_S1x131072_S131072,
    StableHlo.unary main_v16 main_v21 ((extractStridedSlice S1x8x8192 ![0, 0, 0] · slices_S3x8x8192_S1x8x8192_0_0_0) : (⟨S3x8x8192, .f32⟩ : BufTy).Contents (Elt F) → (⟨S1x8x8192, .f32⟩ : BufTy).Contents (Elt F)),
    StableHlo.reshape main_v21 main_v22 rfl shapeCasts_S1x8x8192_S8x8192,
    StableHlo.nullary main_c (constantI S_ 32 0#32),
    StableHlo.unary main_c main_v23 (broadcastInDim S131072 ![] bcast_S_S131072 : (⟨S_, .i32⟩ : BufTy).Contents (Elt F) → (⟨S131072, .i32⟩ : BufTy).Contents (Elt F)),
    StableHlo.binary main_v18 main_v23 main_v24 (cmpi .slt : (⟨S131072, .i32⟩ : BufTy).Contents (Elt F) → (⟨S131072, .i32⟩ : BufTy).Contents (Elt F) → (⟨S131072, .i1⟩ : BufTy).Contents (Elt F)),
    StableHlo.nullary main_c_0 (constantI S_ 32 8192#32),
    StableHlo.unary main_c_0 main_v25 (broadcastInDim S131072 ![] bcast_S_S131072 : (⟨S_, .i32⟩ : BufTy).Contents (Elt F) → (⟨S131072, .i32⟩ : BufTy).Contents (Elt F)),
    StableHlo.binary main_v18 main_v25 main_v26 (addi : (⟨S131072, .i32⟩ : BufTy).Contents (Elt F) → (⟨S131072, .i32⟩ : BufTy).Contents (Elt F) → (⟨S131072, .i32⟩ : BufTy).Contents (Elt F)),
    StableHlo.ternary main_v24 main_v26 main_v18 main_v27 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v27 main_v28 (broadcastInDim S131072x1 ![0] bcast_S131072_S131072x1_0 : (⟨S131072, .i32⟩ : BufTy).Contents (Elt F) → (⟨S131072x1, .i32⟩ : BufTy).Contents (Elt F)),
    StableHlo.binary main_v22 main_v28 main_v29 ((fun x i => Host.gather gather_S8x8192_S131072x1_S8x131072_0_1_n_n_1_1_81 x i) : (⟨S8x8192, .f32⟩ : BufTy).Contents (Elt F) → (⟨S131072x1, .i32⟩ : BufTy).Contents (Elt F) → (⟨S8x131072, .f32⟩ : BufTy).Contents (Elt F)),
    StableHlo.unary main_v16 main_v30 ((extractStridedSlice S1x8x8192 ![1, 0, 0] · slices_S3x8x8192_S1x8x8192_1_0_0) : (⟨S3x8x8192, .f32⟩ : BufTy).Contents (Elt F) → (⟨S1x8x8192, .f32⟩ : BufTy).Contents (Elt F)),
    StableHlo.reshape main_v30 main_v31 rfl shapeCasts_S1x8x8192_S8x8192,
    StableHlo.nullary main_c_1 (constantI S_ 32 0#32),
    StableHlo.unary main_c_1 main_v32 (broadcastInDim S131072 ![] bcast_S_S131072 : (⟨S_, .i32⟩ : BufTy).Contents (Elt F) → (⟨S131072, .i32⟩ : BufTy).Contents (Elt F)),
    StableHlo.binary main_v20 main_v32 main_v33 (cmpi .slt : (⟨S131072, .i32⟩ : BufTy).Contents (Elt F) → (⟨S131072, .i32⟩ : BufTy).Contents (Elt F) → (⟨S131072, .i1⟩ : BufTy).Contents (Elt F)),
    StableHlo.nullary main_c_2 (constantI S_ 32 8192#32),
    StableHlo.unary main_c_2 main_v34 (broadcastInDim S131072 ![] bcast_S_S131072 : (⟨S_, .i32⟩ : BufTy).Contents (Elt F) → (⟨S131072, .i32⟩ : BufTy).Contents (Elt F)),
    StableHlo.binary main_v20 main_v34 main_v35 (addi : (⟨S131072, .i32⟩ : BufTy).Contents (Elt F) → (⟨S131072, .i32⟩ : BufTy).Contents (Elt F) → (⟨S131072, .i32⟩ : BufTy).Contents (Elt F)),
    StableHlo.ternary main_v33 main_v35 main_v20 main_v36 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v36 main_v37 (broadcastInDim S131072x1 ![0] bcast_S131072_S131072x1_0 : (⟨S131072, .i32⟩ : BufTy).Contents (Elt F) → (⟨S131072x1, .i32⟩ : BufTy).Contents (Elt F)),
    StableHlo.binary main_v31 main_v37 main_v38 ((fun x i => Host.gather gather_S8x8192_S131072x1_S8x131072_0_1_n_n_1_1_81 x i) : (⟨S8x8192, .f32⟩ : BufTy).Contents (Elt F) → (⟨S131072x1, .i32⟩ : BufTy).Contents (Elt F) → (⟨S8x131072, .f32⟩ : BufTy).Contents (Elt F)),
    StableHlo.binary main_v29 main_v38 main_v39 (addf : (⟨S8x131072, .f32⟩ : BufTy).Contents (Elt F) → (⟨S8x131072, .f32⟩ : BufTy).Contents (Elt F) → (⟨S8x131072, .f32⟩ : BufTy).Contents (Elt F)),
    StableHlo.nullary main_cst (constant S_ .f32 0x3F000000#32),
    StableHlo.unary main_cst main_v40 (broadcastInDim S8x131072 ![] bcast_S_S8x131072 : (⟨S_, .f32⟩ : BufTy).Contents (Elt F) → (⟨S8x131072, .f32⟩ : BufTy).Contents (Elt F)),
    StableHlo.binary main_v39 main_v40 main_v41 (mulf : (⟨S8x131072, .f32⟩ : BufTy).Contents (Elt F) → (⟨S8x131072, .f32⟩ : BufTy).Contents (Elt F) → (⟨S8x131072, .f32⟩ : BufTy).Contents (Elt F)),
    StableHlo.unary main_v41 main_v42 (Host.exp : (⟨S8x131072, .f32⟩ : BufTy).Contents (Elt F) → (⟨S8x131072, .f32⟩ : BufTy).Contents (Elt F)),
    StableHlo.unary main_v42 main_v43 ((transpose S131072x8 [1, 0] · transposes_S8x131072_S131072x8_1_0) : (⟨S8x131072, .f32⟩ : BufTy).Contents (Elt F) → (⟨S131072x8, .f32⟩ : BufTy).Contents (Elt F)),
    StableHlo.nullary main_c_3 (constantI S_ 32 1024#32) ]
theorem ops_a2_sub : (ops_a2 : List (HloOp τ sig (Elt F))).Forall fun op => op.bufs ⊆ tcRefs τ sig :=
  ⟨unary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., unary_bufs_sub .., nullary_bufs_sub ..⟩
theorem ops_a2_fresh : (ops_a2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- 17 the inlined body of the call with buffer record main_call1. -/
abbrev ops_a3 : List (HloOp τ sig (Elt F)) :=
  [ StableHlo.TRef.unary (.of main_c_3 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S131072, .i32⟩) (broadcastInDim S131072 ![] bcast_S_S131072),
    StableHlo.TRef.binary (.of main_v18 : StableHlo.TRef sig ⟨S131072, .i32⟩) (.of main_call1_v1 : StableHlo.TRef sig ⟨S131072, .i32⟩) (.of main_call1_v2 : StableHlo.TRef sig ⟨S131072, .i32⟩) Host.divsi,
    StableHlo.TRef.unary (.of main_v18 : StableHlo.TRef sig ⟨S131072, .i32⟩) (.of main_call1_v3 : StableHlo.TRef sig ⟨S131072, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S131072, .i32⟩) (broadcastInDim S131072 ![] bcast_S_S131072),
    StableHlo.TRef.binary (.of main_call1_v3 : StableHlo.TRef sig ⟨S131072, .i32⟩) (.of main_call1_v5 : StableHlo.TRef sig ⟨S131072, .i32⟩) (.of main_call1_v6 : StableHlo.TRef sig ⟨S131072, .i1⟩) (cmpi .ne),
    StableHlo.TRef.unary (.of main_call1_v0 : StableHlo.TRef sig ⟨S_, .i32⟩) (.of main_call1_v7 : StableHlo.TRef sig ⟨S131072, .i32⟩) (broadcastInDim S131072 ![] bcast_S_S131072),
    StableHlo.TRef.binary (.of main_v18 : StableHlo.TRef sig ⟨S131072, .i32⟩) (.of main_call1_v7 : StableHlo.TRef sig ⟨S131072, .i32⟩) (.of main_call1_v8 : StableHlo.TRef sig ⟨S131072, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S131072, .i32⟩) (broadcastInDim S131072 ![] bcast_S_S131072),
    StableHlo.TRef.binary (.of main_call1_v8 : StableHlo.TRef sig ⟨S131072, .i32⟩) (.of main_call1_v9 : StableHlo.TRef sig ⟨S131072, .i32⟩) (.of main_call1_v10 : StableHlo.TRef sig ⟨S131072, .i1⟩) (cmpi .ne),
    StableHlo.TRef.binary (.of main_call1_v6 : StableHlo.TRef sig ⟨S131072, .i1⟩) (.of main_call1_v10 : StableHlo.TRef sig ⟨S131072, .i1⟩) (.of main_call1_v11 : StableHlo.TRef sig ⟨S131072, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S131072, .i32⟩) (broadcastInDim S131072 ![] bcast_S_S131072),
    StableHlo.TRef.binary (.of main_call1_v2 : StableHlo.TRef sig ⟨S131072, .i32⟩) (.of main_call1_v12 : StableHlo.TRef sig ⟨S131072, .i32⟩) (.of main_call1_v13 : StableHlo.TRef sig ⟨S131072, .i32⟩) subi,
    StableHlo.TRef.ternary (.of main_call1_v11 : StableHlo.TRef sig ⟨S131072, .i1⟩) (.of main_call1_v13 : StableHlo.TRef sig ⟨S131072, .i32⟩) (.of main_call1_v2 : StableHlo.TRef sig ⟨S131072, .i32⟩) (.of main_v44 : StableHlo.TRef sig ⟨S131072, .i32⟩) select ]
theorem ops_a3_sub : (ops_a3 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops_a3_fresh : (ops_a3 : List (HloOp τ sig (Elt F))).Forall fun op => op.fresh = ∅ :=
  ⟨rfl, rfl, rfl, rfl, rfl, rfl, rfl, rfl, rfl, rfl, rfl, rfl, rfl, rfl, rfl, rfl, rfl⟩

/-- 1 operations of @main. -/
abbrev ops_a4 : List (HloOp τ sig (Elt F)) :=
  [ StableHlo.nullary main_c_4 (constantI S_ 32 1024#32) ]
theorem ops_a4_sub : (ops_a4 : List (HloOp τ sig (Elt F))).Forall fun op => op.bufs ⊆ tcRefs τ sig :=
  nullary_bufs_sub ..
theorem ops_a4_fresh : (ops_a4 : List (HloOp τ sig (Elt F))).Forall fun op => op.fresh = ∅ :=
  rfl

/-- 21 the inlined body of the call with buffer record main_call2. -/
abbrev ops_a5 : List (HloOp τ sig (Elt F)) :=
  [ StableHlo.TRef.unary (.of main_c_4 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary (.of main_call2_v2 : StableHlo.TRef sig ⟨S_, .i32⟩) (.of main_call2_v3 : StableHlo.TRef sig ⟨S131072, .i32⟩) (broadcastInDim S131072 ![] bcast_S_S131072),
    StableHlo.TRef.binary (.of main_v18 : StableHlo.TRef sig ⟨S131072, .i32⟩) (.of main_call2_v3 : StableHlo.TRef sig ⟨S131072, .i32⟩) (.of main_call2_v4 : StableHlo.TRef sig ⟨S131072, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S131072, .i32⟩) (broadcastInDim S131072 ![] bcast_S_S131072),
    StableHlo.TRef.binary (.of main_call2_v4 : StableHlo.TRef sig ⟨S131072, .i32⟩) (.of main_call2_v5 : StableHlo.TRef sig ⟨S131072, .i32⟩) (.of main_call2_v6 : StableHlo.TRef sig ⟨S131072, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S131072, .i32⟩) (broadcastInDim S131072 ![] bcast_S_S131072),
    StableHlo.TRef.binary (.of main_call2_v4 : StableHlo.TRef sig ⟨S131072, .i32⟩) (.of main_call2_v7 : StableHlo.TRef sig ⟨S131072, .i32⟩) (.of main_call2_v8 : StableHlo.TRef sig ⟨S131072, .i1⟩) (cmpi .slt),
    StableHlo.TRef.nullary (.of main_call2_c_3 : StableHlo.TRef sig ⟨S_, .i32⟩) (constantI S_ 32 0#32),
    StableHlo.TRef.binary (.of main_call2_v2 : StableHlo.TRef sig ⟨S_, .i32⟩) (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S131072, .i1⟩) (broadcastInDim S131072 ![] bcast_S_S131072),
    StableHlo.TRef.binary (.of main_call2_v8 : StableHlo.TRef sig ⟨S131072, .i1⟩) (.of main_call2_v10 : StableHlo.TRef sig ⟨S131072, .i1⟩) (.of main_call2_v11 : StableHlo.TRef sig ⟨S131072, .i1⟩) (cmpi .ne),
    StableHlo.TRef.binary (.of main_call2_v11 : StableHlo.TRef sig ⟨S131072, .i1⟩) (.of main_call2_v6 : StableHlo.TRef sig ⟨S131072, .i1⟩) (.of main_call2_v12 : StableHlo.TRef sig ⟨S131072, .i1⟩) andi,
    StableHlo.TRef.unary (.of main_call2_v2 : StableHlo.TRef sig ⟨S_, .i32⟩) (.of main_call2_v13 : StableHlo.TRef sig ⟨S131072, .i32⟩) (broadcastInDim S131072 ![] bcast_S_S131072),
    StableHlo.TRef.binary (.of main_call2_v4 : StableHlo.TRef sig ⟨S131072, .i32⟩) (.of main_call2_v13 : StableHlo.TRef sig ⟨S131072, .i32⟩) (.of main_call2_v14 : StableHlo.TRef sig ⟨S131072, .i32⟩) addi,
    StableHlo.TRef.ternary (.of main_call2_v12 : StableHlo.TRef sig ⟨S131072, .i1⟩) (.of main_call2_v14 : StableHlo.TRef sig ⟨S131072, .i32⟩) (.of main_call2_v4 : StableHlo.TRef sig ⟨S131072, .i32⟩) (.of main_v45 : StableHlo.TRef sig ⟨S131072, .i32⟩) select ]
theorem ops_a5_sub : (ops_a5 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops_a5_fresh : (ops_a5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 1 operations of @main. -/
abbrev ops_a6 : List (HloOp τ sig (Elt F)) :=
  [ StableHlo.nullary main_c_5 (constantI S_ 32 1024#32) ]
theorem ops_a6_sub : (ops_a6 : List (HloOp τ sig (Elt F))).Forall fun op => op.bufs ⊆ tcRefs τ sig :=
  nullary_bufs_sub ..
theorem ops_a6_fresh : (ops_a6 : List (HloOp τ sig (Elt F))).Forall fun op => op.fresh = ∅ :=
  rfl

/-- 21 the inlined body of the call with buffer record main_call3. -/
abbrev ops_a7 : List (HloOp τ sig (Elt F)) :=
  [ StableHlo.TRef.unary (.of main_c_5 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S131072, .i32⟩) (broadcastInDim S131072 ![] bcast_S_S131072),
    StableHlo.TRef.binary (.of main_v20 : StableHlo.TRef sig ⟨S131072, .i32⟩) (.of main_call3_v3 : StableHlo.TRef sig ⟨S131072, .i32⟩) (.of main_call3_v4 : StableHlo.TRef sig ⟨S131072, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S131072, .i32⟩) (broadcastInDim S131072 ![] bcast_S_S131072),
    StableHlo.TRef.binary (.of main_call3_v4 : StableHlo.TRef sig ⟨S131072, .i32⟩) (.of main_call3_v5 : StableHlo.TRef sig ⟨S131072, .i32⟩) (.of main_call3_v6 : StableHlo.TRef sig ⟨S131072, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S131072, .i32⟩) (broadcastInDim S131072 ![] bcast_S_S131072),
    StableHlo.TRef.binary (.of main_call3_v4 : StableHlo.TRef sig ⟨S131072, .i32⟩) (.of main_call3_v7 : StableHlo.TRef sig ⟨S131072, .i32⟩) (.of main_call3_v8 : StableHlo.TRef sig ⟨S131072, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S131072, .i1⟩) (broadcastInDim S131072 ![] bcast_S_S131072),
    StableHlo.TRef.binary (.of main_call3_v8 : StableHlo.TRef sig ⟨S131072, .i1⟩) (.of main_call3_v10 : StableHlo.TRef sig ⟨S131072, .i1⟩) (.of main_call3_v11 : StableHlo.TRef sig ⟨S131072, .i1⟩) (cmpi .ne),
    StableHlo.TRef.binary (.of main_call3_v11 : StableHlo.TRef sig ⟨S131072, .i1⟩) (.of main_call3_v6 : StableHlo.TRef sig ⟨S131072, .i1⟩) (.of main_call3_v12 : StableHlo.TRef sig ⟨S131072, .i1⟩) andi,
    StableHlo.TRef.unary (.of main_call3_v2 : StableHlo.TRef sig ⟨S_, .i32⟩) (.of main_call3_v13 : StableHlo.TRef sig ⟨S131072, .i32⟩) (broadcastInDim S131072 ![] bcast_S_S131072),
    StableHlo.TRef.binary (.of main_call3_v4 : StableHlo.TRef sig ⟨S131072, .i32⟩) (.of main_call3_v13 : StableHlo.TRef sig ⟨S131072, .i32⟩) (.of main_call3_v14 : StableHlo.TRef sig ⟨S131072, .i32⟩) addi,
    StableHlo.TRef.ternary (.of main_call3_v12 : StableHlo.TRef sig ⟨S131072, .i1⟩) (.of main_call3_v14 : StableHlo.TRef sig ⟨S131072, .i32⟩) (.of main_call3_v4 : StableHlo.TRef sig ⟨S131072, .i32⟩) (.of main_v46 : StableHlo.TRef sig ⟨S131072, .i32⟩) select ]
theorem ops_a7_sub : (ops_a7 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops_a7_fresh : (ops_a7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- 5 operations of @main. -/
abbrev ops_a8 : List (HloOp τ sig (Elt F)) :=
  [ StableHlo.nullary main_cst_6 (constant S_ .f32 0x00000000#32),
    StableHlo.unary main_cst_6 main_v47 (broadcastInDim S8x1024x1024x8 ![] bcast_S_S8x1024x1024x8 : (⟨S_, .f32⟩ : BufTy).Contents (Elt F) → (⟨S8x1024x1024x8, .f32⟩ : BufTy).Contents (Elt F)),
    StableHlo.nullary main_c_7 (constantI S_ 32 0#32),
    StableHlo.unary main_c_7 main_v48 (broadcastInDim S131072 ![] bcast_S_S131072 : (⟨S_, .i32⟩ : BufTy).Contents (Elt F) → (⟨S131072, .i32⟩ : BufTy).Contents (Elt F)),
    StableHlo.binary main_v44 main_v48 main_v49 (cmpi .slt : (⟨S131072, .i32⟩ : BufTy).Contents (Elt F) → (⟨S131072, .i32⟩ : BufTy).Contents (Elt F) → (⟨S131072, .i1⟩ : BufTy).Contents (Elt F)) ]
theorem ops_a8_sub : (ops_a8 : List (HloOp τ sig (Elt F))).Forall fun op => op.bufs ⊆ tcRefs τ sig :=
  ⟨nullary_bufs_sub .., unary_bufs_sub .., nullary_bufs_sub .., unary_bufs_sub .., binary_bufs_sub ..⟩
theorem ops_a8_fresh : (ops_a8 : List (HloOp τ sig (Elt F))).Forall fun op => op.fresh = ∅ :=
  ⟨rfl, rfl, rfl, rfl, rfl⟩

/-- 40 operations of @main, through the transpose %82. -/
abbrev ops_b0 : List (HloOp τ sig (Elt F)) :=
  [ StableHlo.nullary main_c_8 (constantI S_ 32 8#32),
    StableHlo.unary main_c_8 main_v50 (broadcastInDim S131072 ![] bcast_S_S131072 : (⟨S_, .i32⟩ : BufTy).Contents (Elt F) → (⟨S131072, .i32⟩ : BufTy).Contents (Elt F)),
    StableHlo.binary main_v44 main_v50 main_v51 (addi : (⟨S131072, .i32⟩ : BufTy).Contents (Elt F) → (⟨S131072, .i32⟩ : BufTy).Contents (Elt F) → (⟨S131072, .i32⟩ : BufTy).Contents (Elt F)),
    StableHlo.ternary main_v49 main_v51 main_v44 main_v52 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_9 (constantI S_ 32 0#32),
    StableHlo.unary main_c_9 main_v53 (broadcastInDim S131072 ![] bcast_S_S131072 : (⟨S_, .i32⟩ : BufTy).Contents (Elt F) → (⟨S131072, .i32⟩ : BufTy).Contents (Elt F)),
    StableHlo.binary main_v45 main_v53 main_v54 (cmpi .slt : (⟨S131072, .i32⟩ : BufTy).Contents (Elt F) → (⟨S131072, .i32⟩ : BufTy).Contents (Elt F) → (⟨S131072, .i1⟩ : BufTy).Contents (Elt F)),
    StableHlo.nullary main_c_10 (constantI S_ 32 1024#32),
    StableHlo.unary main_c_10 main_v55 (broadcastInDim S131072 ![] bcast_S_S131072 : (⟨S_, .i32⟩ : BufTy).Contents (Elt F) → (⟨S131072, .i32⟩ : BufTy).Contents (Elt F)),
    StableHlo.binary main_v45 main_v55 main_v56 (addi : (⟨S131072, .i32⟩ : BufTy).Contents (Elt F) → (⟨S131072, .i32⟩ : BufTy).Contents (Elt F) → (⟨S131072, .i32⟩ : BufTy).Contents (Elt F)),
    StableHlo.ternary main_v54 main_v56 main_v45 main_v57 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_11 (constantI S_ 32 0#32),
    StableHlo.unary main_c_11 main_v58 (broadcastInDim S131072 ![] bcast_S_S131072 : (⟨S_, .i32⟩ : BufTy).Contents (Elt F) → (⟨S131072, .i32⟩ : BufTy).Contents (Elt F)),
    StableHlo.binary main_v46 main_v58 main_v59 (cmpi .slt : (⟨S131072, .i32⟩ : BufTy).Contents (Elt F) → (⟨S131072, .i32⟩ : BufTy).Contents (Elt F) → (⟨S131072, .i1⟩ : BufTy).Contents (Elt F)),
    StableHlo.nullary main_c_12 (constantI S_ 32 1024#32),
    StableHlo.unary main_c_12 main_v60 (broadcastInDim S131072 ![] bcast_S_S131072 : (⟨S_, .i32⟩ : BufTy).Contents (Elt F) → (⟨S131072, .i32⟩ : BufTy).Contents (Elt F)),
    StableHlo.binary main_v46 main_v60 main_v61 (addi : (⟨S131072, .i32⟩ : BufTy).Contents (Elt F) → (⟨S131072, .i32⟩ : BufTy).Contents (Elt F) → (⟨S131072, .i32⟩ : BufTy).Contents (Elt F)),
    StableHlo.ternary main_v59 main_v61 main_v46 main_v62 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v52 main_v63 (broadcastInDim S131072x1 ![0] bcast_S131072_S131072x1_0 : (⟨S131072, .i32⟩ : BufTy).Contents (Elt F) → (⟨S131072x1, .i32⟩ : BufTy).Contents (Elt F)),
    StableHlo.unary main_v57 main_v64 (broadcastInDim S131072x1 ![0] bcast_S131072_S131072x1_0 : (⟨S131072, .i32⟩ : BufTy).Contents (Elt F) → (⟨S131072x1, .i32⟩ : BufTy).Contents (Elt F)),
    StableHlo.unary main_v62 main_v65 (broadcastInDim S131072x1 ![0] bcast_S131072_S131072x1_0 : (⟨S131072, .i32⟩ : BufTy).Contents (Elt F) → (⟨S131072x1, .i32⟩ : BufTy).Contents (Elt F)),
    StableHlo.nary ![main_v63, main_v64, main_v65] main_v66 (fun u => concatenate S131072x3 1 [⟨S131072x1, u 0⟩, ⟨S131072x1, u 1⟩, ⟨S131072x1, u 2⟩] concatenates_S131072x1_S131072x1_S131072x1_S131072x3_d1),
    StableHlo.ternary main_v47 main_v66 main_v43 main_v67 ((fun x i u => Host.scatterAdd scatter_S8x1024x1024x8_S131072x3_S131072x8_1_012_012_1 x i u) : (⟨S8x1024x1024x8, .f32⟩ : BufTy).Contents (Elt F) → (⟨S131072x3, .i32⟩ : BufTy).Contents (Elt F) → (⟨S131072x8, .f32⟩ : BufTy).Contents (Elt F) → (⟨S8x1024x1024x8, .f32⟩ : BufTy).Contents (Elt F)),
    StableHlo.unary main_v67 main_v68 ((transpose S8x8x1024x1024 [0, 3, 1, 2] · transposes_S8x1024x1024x8_S8x8x1024x1024_0_3_1_2) : (⟨S8x1024x1024x8, .f32⟩ : BufTy).Contents (Elt F) → (⟨S8x8x1024x1024, .f32⟩ : BufTy).Contents (Elt F)),
    StableHlo.unary main_v16 main_v69 ((extractStridedSlice S1x8x8192 ![2, 0, 0] · slices_S3x8x8192_S1x8x8192_2_0_0) : (⟨S3x8x8192, .f32⟩ : BufTy).Contents (Elt F) → (⟨S1x8x8192, .f32⟩ : BufTy).Contents (Elt F)),
    StableHlo.reshape main_v69 main_v70 rfl shapeCasts_S1x8x8192_S8x8192,
    StableHlo.unary main_v70 main_v71 (Host.exp : (⟨S8x8192, .f32⟩ : BufTy).Contents (Elt F) → (⟨S8x8192, .f32⟩ : BufTy).Contents (Elt F)),
    StableHlo.unary main_v71 main_v72 ((transpose S8192x8 [1, 0] · transposes_S8x8192_S8192x8_1_0) : (⟨S8x8192, .f32⟩ : BufTy).Contents (Elt F) → (⟨S8192x8, .f32⟩ : BufTy).Contents (Elt F)),
    StableHlo.reshape main_v72 main_v73 rfl shapeCasts_S8192x8_S8x1024x8,
    StableHlo.unary main_v73 main_v74 ((transpose S8x8x1024 [0, 2, 1] · transposes_S8x1024x8_S8x8x1024_0_2_1) : (⟨S8x1024x8, .f32⟩ : BufTy).Contents (Elt F) → (⟨S8x8x1024, .f32⟩ : BufTy).Contents (Elt F)),
    StableHlo.nullary main_cst_13 (constant S_ .f32 0x00000000#32),
    StableHlo.binary main_v68 main_cst_13 main_v75 ((fun x v => Host.reduceAdd x v reducesTo_S8x8x1024x1024_S8x8x1024_d3 h_S_) : (⟨S8x8x1024x1024, .f32⟩ : BufTy).Contents (Elt F) → (⟨S_, .f32⟩ : BufTy).Contents (Elt F) → (⟨S8x8x1024, .f32⟩ : BufTy).Contents (Elt F)),
    StableHlo.binary main_v75 main_v74 main_v76 (addf : (⟨S8x8x1024, .f32⟩ : BufTy).Contents (Elt F) → (⟨S8x8x1024, .f32⟩ : BufTy).Contents (Elt F) → (⟨S8x8x1024, .f32⟩ : BufTy).Contents (Elt F)),
    StableHlo.unary main_v76 main_v77 (broadcastInDim S8x8x1024x1 ![0, 1, 2] bcast_S8x8x1024_S8x8x1024x1_0_1_2 : (⟨S8x8x1024, .f32⟩ : BufTy).Contents (Elt F) → (⟨S8x8x1024x1, .f32⟩ : BufTy).Contents (Elt F)),
    StableHlo.nullary main_cst_14 (constant S_ .f32 0x3DCCCCCD#32),
    StableHlo.unary main_cst_14 main_v78 (broadcastInDim S8x8x1024x1 ![] bcast_S_S8x8x1024x1 : (⟨S_, .f32⟩ : BufTy).Contents (Elt F) → (⟨S8x8x1024x1, .f32⟩ : BufTy).Contents (Elt F)),
    StableHlo.binary main_v77 main_v78 main_v79 (addf : (⟨S8x8x1024x1, .f32⟩ : BufTy).Contents (Elt F) → (⟨S8x8x1024x1, .f32⟩ : BufTy).Contents (Elt F) → (⟨S8x8x1024x1, .f32⟩ : BufTy).Contents (Elt F)),
    StableHlo.unary main_v79 main_v80 (broadcastInDim S8x8x1024x1024 ![0, 1, 2, 3] bcast_S8x8x1024x1_S8x8x1024x1024_0_1_2_3 : (⟨S8x8x1024x1, .f32⟩ : BufTy).Contents (Elt F) → (⟨S8x8x1024x1024, .f32⟩ : BufTy).Contents (Elt F)),
    StableHlo.binary main_v68 main_v80 main_v81 (Host.divf : (⟨S8x8x1024x1024, .f32⟩ : BufTy).Contents (Elt F) → (⟨S8x8x1024x1024, .f32⟩ : BufTy).Contents (Elt F) → (⟨S8x8x1024x1024, .f32⟩ : BufTy).Contents (Elt F)),
    StableHlo.unary main_v81 main_v82 ((transpose S8x8x1024x1024 [0, 1, 3, 2] · transposes_S8x8x1024x1024_S8x8x1024x1024_0_1_3_2) : (⟨S8x8x1024x1024, .f32⟩ : BufTy).Contents (Elt F) → (⟨S8x8x1024x1024, .f32⟩ : BufTy).Contents (Elt F)) ]
theorem ops_b0_sub : (ops_b0 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., ternary_bufs_sub .., unary_bufs_sub .., unary_bufs_sub .., reshape_bufs_sub .., unary_bufs_sub .., unary_bufs_sub .., reshape_bufs_sub .., unary_bufs_sub .., nullary_bufs_sub .., binary_bufs_sub .., binary_bufs_sub .., unary_bufs_sub .., nullary_bufs_sub .., unary_bufs_sub .., binary_bufs_sub .., unary_bufs_sub .., binary_bufs_sub .., unary_bufs_sub ..⟩
theorem ops_b0_fresh : (ops_b0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- 20 operations of @main, from the iota %83. -/
abbrev ops_b1 : List (HloOp τ sig (Elt F)) :=
  [ StableHlo.nullary main_v83 (iotaInDim S1024x1024 32 0),
    StableHlo.nullary main_v84 (iotaInDim S1024x1024 32 1),
    StableHlo.nullary main_c_15 (constantI S_ 32 0#32),
    StableHlo.unary main_c_15 main_v85 (broadcastInDim S1024x1024 ![] bcast_S_S1024x1024 : (⟨S_, .i32⟩ : BufTy).Contents (Elt F) → (⟨S1024x1024, .i32⟩ : BufTy).Contents (Elt F)),
    StableHlo.binary main_v83 main_v85 main_v86 (addi : (⟨S1024x1024, .i32⟩ : BufTy).Contents (Elt F) → (⟨S1024x1024, .i32⟩ : BufTy).Contents (Elt F) → (⟨S1024x1024, .i32⟩ : BufTy).Contents (Elt F)),
    StableHlo.binary main_v86 main_v84 main_v87 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v87 main_v88 (uitofp .f32 : (⟨S1024x1024, .i1⟩ : BufTy).Contents (Elt F) → (⟨S1024x1024, .f32⟩ : BufTy).Contents (Elt F)),
    StableHlo.unary main_v88 main_v89 (broadcastInDim S1x1x1024x1024 ![2, 3] bcast_S1024x1024_S1x1x1024x1024_2_3 : (⟨S1024x1024, .f32⟩ : BufTy).Contents (Elt F) → (⟨S1x1x1024x1024, .f32⟩ : BufTy).Contents (Elt F)),
    StableHlo.unary main_v89 main_v90 (broadcastInDim S8x8x1024x1024 ![0, 1, 2, 3] bcast_S1x1x1024x1024_S8x8x1024x1024_0_1_2_3 : (⟨S1x1x1024x1024, .f32⟩ : BufTy).Contents (Elt F) → (⟨S8x8x1024x1024, .f32⟩ : BufTy).Contents (Elt F)),
    StableHlo.binary main_v90 main_v82 main_v91 (addf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v82 main_v82 main_v92 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    StableHlo.unary main_v88 main_v93 (broadcastInDim S1x1x1024x1024 ![2, 3] bcast_S1024x1024_S1x1x1024x1024_2_3 : (⟨S1024x1024, .f32⟩ : BufTy).Contents (Elt F) → (⟨S1x1x1024x1024, .f32⟩ : BufTy).Contents (Elt F)),
    StableHlo.unary main_v93 main_v94 (broadcastInDim S8x8x1024x1024 ![0, 1, 2, 3] bcast_S1x1x1024x1024_S8x8x1024x1024_0_1_2_3 : (⟨S1x1x1024x1024, .f32⟩ : BufTy).Contents (Elt F) → (⟨S8x8x1024x1024, .f32⟩ : BufTy).Contents (Elt F)),
    StableHlo.binary main_v94 main_v92 main_v95 (addf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v91 main_v95 main_v96 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v92 main_v92 main_v97 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    StableHlo.unary main_v88 main_v98 (broadcastInDim S1x1x1024x1024 ![2, 3] bcast_S1024x1024_S1x1x1024x1024_2_3 : (⟨S1024x1024, .f32⟩ : BufTy).Contents (Elt F) → (⟨S1x1x1024x1024, .f32⟩ : BufTy).Contents (Elt F)),
    StableHlo.unary main_v98 main_v99 (broadcastInDim S8x8x1024x1024 ![0, 1, 2, 3] bcast_S1x1x1024x1024_S8x8x1024x1024_0_1_2_3 : (⟨S1x1x1024x1024, .f32⟩ : BufTy).Contents (Elt F) → (⟨S8x8x1024x1024, .f32⟩ : BufTy).Contents (Elt F)),
    StableHlo.binary main_v99 main_v97 main_v100 (addf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v96 main_v100 main_v101 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)) ]
theorem ops_b1_sub : (ops_b1 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub ..⟩
theorem ops_b1_fresh : (ops_b1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- 15 operations of @main, through the product %116. -/
abbrev ops_c0 : List (HloOp τ sig (Elt F)) :=
  [ StableHlo.binary main_v97 main_v97 main_v102 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    StableHlo.unary main_v88 main_v103 (broadcastInDim S1x1x1024x1024 ![2, 3] bcast_S1024x1024_S1x1x1024x1024_2_3 : (⟨S1024x1024, .f32⟩ : BufTy).Contents (Elt F) → (⟨S1x1x1024x1024, .f32⟩ : BufTy).Contents (Elt F)),
    StableHlo.unary main_v103 main_v104 (broadcastInDim S8x8x1024x1024 ![0, 1, 2, 3] bcast_S1x1x1024x1024_S8x8x1024x1024_0_1_2_3 : (⟨S1x1x1024x1024, .f32⟩ : BufTy).Contents (Elt F) → (⟨S8x8x1024x1024, .f32⟩ : BufTy).Contents (Elt F)),
    StableHlo.binary main_v104 main_v102 main_v105 (addf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v101 main_v105 main_v106 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v102 main_v102 main_v107 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    StableHlo.unary main_v88 main_v108 (broadcastInDim S1x1x1024x1024 ![2, 3] bcast_S1024x1024_S1x1x1024x1024_2_3 : (⟨S1024x1024, .f32⟩ : BufTy).Contents (Elt F) → (⟨S1x1x1024x1024, .f32⟩ : BufTy).Contents (Elt F)),
    StableHlo.unary main_v108 main_v109 (broadcastInDim S8x8x1024x1024 ![0, 1, 2, 3] bcast_S1x1x1024x1024_S8x8x1024x1024_0_1_2_3 : (⟨S1x1x1024x1024, .f32⟩ : BufTy).Contents (Elt F) → (⟨S8x8x1024x1024, .f32⟩ : BufTy).Contents (Elt F)),
    StableHlo.binary main_v109 main_v107 main_v110 (addf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v106 main_v110 main_v111 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v107 main_v107 main_v112 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)),
    StableHlo.unary main_v88 main_v113 (broadcastInDim S1x1x1024x1024 ![2, 3] bcast_S1024x1024_S1x1x1024x1024_2_3 : (⟨S1024x1024, .f32⟩ : BufTy).Contents (Elt F) → (⟨S1x1x1024x1024, .f32⟩ : BufTy).Contents (Elt F)),
    StableHlo.unary main_v113 main_v114 (broadcastInDim S8x8x1024x1024 ![0, 1, 2, 3] bcast_S1x1x1024x1024_S8x8x1024x1024_0_1_2_3 : (⟨S1x1x1024x1024, .f32⟩ : BufTy).Contents (Elt F) → (⟨S8x8x1024x1024, .f32⟩ : BufTy).Contents (Elt F)),
    StableHlo.binary main_v114 main_v112 main_v115 (addf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v111 main_v115 main_v116 ((fun l r => Host.dotGeneral dot_S8x8x1024x1024_S8x8x1024x1024_S8x8x1024x1024_3_2_2_3_01_01 none l r) : (⟨S8x8x1024x1024, .f32⟩ : BufTy).Contents (Elt F) → (⟨S8x8x1024x1024, .f32⟩ : BufTy).Contents (Elt F) → (⟨S8x8x1024x1024, .f32⟩ : BufTy).Contents (Elt F)) ]
theorem ops_c0_sub : (ops_c0 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub ..⟩
theorem ops_c0_fresh : (ops_c0 : List (HloOp τ sig (Elt F))).Forall fun op => op.fresh = ∅ :=
  ⟨rfl, rfl, rfl, rfl, rfl, rfl, rfl, rfl, rfl, rfl, rfl, rfl, rfl, rfl, rfl⟩

/-- 15 operations of @main, from the broadcast %117 to the end. -/
abbrev ops_c1 : List (HloOp τ sig (Elt F)) :=
  [ StableHlo.unary main_v11 main_v117 (broadcastInDim S8x8x1x1024 ![0, 1, 3] bcast_S8x8x1024_S8x8x1x1024_0_1_3 : (⟨S8x8x1024, .f32⟩ : BufTy).Contents (Elt F) → (⟨S8x8x1x1024, .f32⟩ : BufTy).Contents (Elt F)),
    StableHlo.unary main_v117 main_v118 (broadcastInDim S8x8x1024x1024 ![0, 1, 2, 3] bcast_S8x8x1x1024_S8x8x1024x1024_0_1_2_3 : (⟨S8x8x1x1024, .f32⟩ : BufTy).Contents (Elt F) → (⟨S8x8x1024x1024, .f32⟩ : BufTy).Contents (Elt F)),
    StableHlo.binary main_v116 main_v118 main_v119 (mulf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v3 main_v2 main_v120 ((fun l r => Host.dotGeneral dot_S8x1024x64_S8x1024x64_S8x1024x1024_2_2_1_1_0_0 none l r) : (⟨S8x1024x64, .f32⟩ : BufTy).Contents (Elt F) → (⟨S8x1024x64, .f32⟩ : BufTy).Contents (Elt F) → (⟨S8x1024x1024, .f32⟩ : BufTy).Contents (Elt F)),
    StableHlo.unary main_v120 main_v121 (broadcastInDim S8x1x1024x1024 ![0, 2, 3] bcast_S8x1024x1024_S8x1x1024x1024_0_2_3 : (⟨S8x1024x1024, .f32⟩ : BufTy).Contents (Elt F) → (⟨S8x1x1024x1024, .f32⟩ : BufTy).Contents (Elt F)),
    StableHlo.unary main_v121 main_v122 (broadcastInDim S8x8x1024x1024 ![0, 1, 2, 3] bcast_S8x1x1024x1024_S8x8x1024x1024_0_1_2_3 : (⟨S8x1x1024x1024, .f32⟩ : BufTy).Contents (Elt F) → (⟨S8x8x1024x1024, .f32⟩ : BufTy).Contents (Elt F)),
    StableHlo.binary main_v119 main_v122 main_v123 (mulf : (⟨S8x8x1024x1024, .f32⟩ : BufTy).Contents (Elt F) → (⟨S8x8x1024x1024, .f32⟩ : BufTy).Contents (Elt F) → (⟨S8x8x1024x1024, .f32⟩ : BufTy).Contents (Elt F)),
    StableHlo.binary main_v123 main_v1 main_v124 ((fun l r => Host.dotGeneral dot_S8x8x1024x1024_S8x8x1024x16_S8x8x1024x16_3_2_2_3_01_01 none l r) : (⟨S8x8x1024x1024, .f32⟩ : BufTy).Contents (Elt F) → (⟨S8x8x1024x16, .f32⟩ : BufTy).Contents (Elt F) → (⟨S8x8x1024x16, .f32⟩ : BufTy).Contents (Elt F)),
    StableHlo.unary main_arg5 main_v125 (broadcastInDim S1x8x1x1 ![1] bcast_S8_S1x8x1x1_1 : (⟨S8, .f32⟩ : BufTy).Contents (Elt F) → (⟨S1x8x1x1, .f32⟩ : BufTy).Contents (Elt F)),
    StableHlo.unary main_v125 main_v126 (broadcastInDim S8x8x1024x16 ![0, 1, 2, 3] bcast_S1x8x1x1_S8x8x1024x16_0_1_2_3 : (⟨S1x8x1x1, .f32⟩ : BufTy).Contents (Elt F) → (⟨S8x8x1024x16, .f32⟩ : BufTy).Contents (Elt F)),
    StableHlo.binary main_v1 main_v126 main_v127 (mulf : (⟨S8x8x1024x16, .f32⟩ : BufTy).Contents (Elt F) → (⟨S8x8x1024x16, .f32⟩ : BufTy).Contents (Elt F) → (⟨S8x8x1024x16, .f32⟩ : BufTy).Contents (Elt F)),
    StableHlo.binary main_v124 main_v127 main_v128 (addf : (⟨S8x8x1024x16, .f32⟩ : BufTy).Contents (Elt F) → (⟨S8x8x1024x16, .f32⟩ : BufTy).Contents (Elt F) → (⟨S8x8x1024x16, .f32⟩ : BufTy).Contents (Elt F)),
    StableHlo.unary main_v128 main_v129 ((transpose S8x1024x16x8 [0, 2, 3, 1] · transposes_S8x8x1024x16_S8x1024x16x8_0_2_3_1) : (⟨S8x8x1024x16, .f32⟩ : BufTy).Contents (Elt F) → (⟨S8x1024x16x8, .f32⟩ : BufTy).Contents (Elt F)),
    StableHlo.reshape main_v129 main_v130 rfl shapeCasts_S8x1024x16x8_S8x1024x128,
    StableHlo.reshape main_v130 main_v131 rfl shapeCasts_S8x1024x128_S8192x128 ]
theorem ops_c1_sub : (ops_c1 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., reshape_bufs_sub .., reshape_bufs_sub ..⟩
theorem ops_c1_fresh : (ops_c1 : List (HloOp τ sig (Elt F))).Forall fun op => op.fresh = ∅ :=
  ⟨rfl, rfl, rfl, rfl, rfl, rfl, rfl, rfl, rfl, rfl, rfl, rfl, rfl, rfl, rfl⟩

/-- Everything up to and including the transpose %82 (the normalised adjacency, transposed). -/
abbrev opsPre : List (HloOp τ sig (Elt F)) := ops_a0 ++ ops_a1 ++ ops_a2 ++ ops_a3 ++ ops_a4 ++ ops_a5 ++ ops_a6 ++ ops_a7 ++ ops_a8 ++ ops_b0
/-- The identity matrix and the five doubling rounds: %83 … %116. -/
abbrev opsDag : List (HloOp τ sig (Elt F)) := ops_b1 ++ ops_c0
/-- The weighting, the product with the values and the output layout: %117 … %131. -/
abbrev opsTail : List (HloOp τ sig (Elt F)) := ops_c1
/-- @main's 219 operations, in order. -/
abbrev ops : List (HloOp τ sig (Elt F)) := opsPre ++ opsDag ++ opsTail

/-- The first window of @main, piece by piece (a call's body is a piece of its own). -/
theorem main_part0_chain (c : Dev nD) : main_part0 (F := F) c = (Pipeline.chainK
  [ seq ops_a0, seq ops_a1, seq ops_a2, seq ops_a3, seq ops_a4, seq ops_a5, seq ops_a6, seq ops_a7 ]
  (seq ops_a8) : Prog (TpuEff nD τ sig (Elt F) (Pipeline.Sig Λ₀ (Fin 0) fun p => (pcfgs (F := F) p).Adm) .tc) PUnit) := by
  chain_rfl

/-- The second window of @main, cut after the transpose %82. -/
theorem main_part1_chain (c : Dev nD) : main_part1 (F := F) c = (Pipeline.chainK
  [ seq ops_b0 ] (seq ops_b1) : Prog (TpuEff nD τ sig (Elt F) (Pipeline.Sig Λ₀ (Fin 0) fun p => (pcfgs (F := F) p).Adm) .tc) PUnit) := by
  chain_rfl

/-- The last window of @main, cut after the product %116. -/
theorem main_part2_chain (c : Dev nD) : main_part2 (F := F) c = (Pipeline.chainK
  [ seq ops_c0 ] (seq ops_c1) : Prog (TpuEff nD τ sig (Elt F) (Pipeline.Sig Λ₀ (Fin 0) fun p => (pcfgs (F := F) p).Adm) .tc) PUnit) := by
  chain_rfl

/-- @main is that straight line: its three windows in order, each the pieces above in order, and pieces run one
    after the other are their concatenation run as one (`seq_append`). -/
theorem main_eq (c : Dev nD) : main (F := F) c = seq ops := by
  show (main_part0 (F := F) c >>= fun _ => (main_part1 (F := F) c >>= fun _ => main_part2 (F := F) c)) = _
  rw [main_part0_chain, main_part1_chain, main_part2_chain]
  simp only [Pipeline.chainK, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_append {α : Type _} {p : α → Prop} {l₁ l₂ : List α} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

theorem opsPre_sub : (opsPre : List (HloOp τ sig (Elt F))).Forall fun op => op.bufs ⊆ tcRefs τ sig :=
  forall_append (forall_append (forall_append (forall_append (forall_append (forall_append (forall_append (forall_append (forall_append (ops_a0_sub) ops_a1_sub) ops_a2_sub) ops_a3_sub) ops_a4_sub) ops_a5_sub) ops_a6_sub) ops_a7_sub) ops_a8_sub) ops_b0_sub
theorem opsDag_sub : (opsDag : List (HloOp τ sig (Elt F))).Forall fun op => op.bufs ⊆ tcRefs τ sig :=
  forall_append ops_b1_sub ops_c0_sub
theorem opsTail_sub : (opsTail : List (HloOp τ sig (Elt F))).Forall fun op => op.bufs ⊆ tcRefs τ sig := ops_c1_sub
theorem ops_sub : (ops : List (HloOp τ sig (Elt F))).Forall fun op => op.bufs ⊆ tcRefs τ sig :=
  forall_append (forall_append opsPre_sub opsDag_sub) opsTail_sub

theorem opsPre_fresh : (opsPre : List (HloOp τ sig (Elt F))).Forall fun op => op.fresh = ∅ :=
  forall_append (forall_append (forall_append (forall_append (forall_append (forall_append (forall_append (forall_append (forall_append (ops_a0_fresh) ops_a1_fresh) ops_a2_fresh) ops_a3_fresh) ops_a4_fresh) ops_a5_fresh) ops_a6_fresh) ops_a7_fresh) ops_a8_fresh) ops_b0_fresh
theorem opsDag_fresh : (opsDag : List (HloOp τ sig (Elt F))).Forall fun op => op.fresh = ∅ :=
  forall_append ops_b1_fresh ops_c0_fresh
/-- Every operation determines its results (none allocates). -/
theorem ops_fresh : ∀ op ∈ (ops : List (HloOp τ sig (Elt F))), op.fresh = ∅ :=
  List.forall_iff_forall_mem.mp (forall_append (forall_append opsPre_fresh opsDag_fresh) ops_c1_fresh)

end Cert.ReferenceIdeal.Hand

end
-- ==== Proof.Ref.Run.lean ====
/- The reference program's run, read back from its straight line (Ops.lean): every weakly fair execution of @main
   terminates with each buffer at the fold of the 219 operations over the launch contents; the fold splits at the two
   cuts; no operation writes an argument, so the seven arguments end as launched. -/
import proofs.«170030_j80934363725836_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- On every device, for any float values, from any memory with zero counters: every weakly fair execution of @main
    terminates, and every final state has each TensorCore buffer at the operations' fold over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold, cut at the transpose %82 and at the product %116. -/
theorem after_split (V : Valuation τ sig (Elt F)) :
    after ops V = after opsTail (after opsDag (after opsPre V)) := by
  show after (opsPre ++ opsDag ++ opsTail) V = _
  rw [after_append, after_append]

/-- @main's seven arguments. -/
def argRef : Fin 7 → Ref sig .tc
  | 0 => main_arg0 | 1 => main_arg1 | 2 => main_arg2 | 3 => main_arg3 | 4 => main_arg4 | 5 => main_arg5 | 6 => main_arg6

/-- Decides, operation by operation of a literal list, that none writes an argument: each builder writes its result
    buffer only, and a result buffer is no argument. -/
local macro "none_writes_arg" c:ident : tactic => `(tactic| (
  refine List.forall_iff_forall_mem.mp ?_
  simp only [$c:ident, List.Forall, nullary_writes, unary_writes, binary_writes, ternary_writes, reshape_writes, nary_writes,
    Finset.mem_singleton]
  repeat' apply And.intro
  all_goals (intro k; exact devRef_ne_of_ne (by revert k; decide))))

theorem ops_a0_nw : ∀ op ∈ (ops_a0 : List (HloOp τ sig (Elt F))), ∀ k : Fin 7, (Proc.devRef .tc (argRef k) : DevRef τ sig) ∉ op.writes := by
  none_writes_arg ops_a0
theorem ops_a1_nw : ∀ op ∈ (ops_a1 : List (HloOp τ sig (Elt F))), ∀ k : Fin 7, (Proc.devRef .tc (argRef k) : DevRef τ sig) ∉ op.writes := by
  none_writes_arg ops_a1
theorem ops_a2_nw : ∀ op ∈ (ops_a2 : List (HloOp τ sig (Elt F))), ∀ k : Fin 7, (Proc.devRef .tc (argRef k) : DevRef τ sig) ∉ op.writes := by
  none_writes_arg ops_a2
theorem ops_a3_nw : ∀ op ∈ (ops_a3 : List (HloOp τ sig (Elt F))), ∀ k : Fin 7, (Proc.devRef .tc (argRef k) : DevRef τ sig) ∉ op.writes := by
  none_writes_arg ops_a3
theorem ops_a4_nw : ∀ op ∈ (ops_a4 : List (HloOp τ sig (Elt F))), ∀ k : Fin 7, (Proc.devRef .tc (argRef k) : DevRef τ sig) ∉ op.writes := by
  none_writes_arg ops_a4
theorem ops_a5_nw : ∀ op ∈ (ops_a5 : List (HloOp τ sig (Elt F))), ∀ k : Fin 7, (Proc.devRef .tc (argRef k) : DevRef τ sig) ∉ op.writes := by
  none_writes_arg ops_a5
theorem ops_a6_nw : ∀ op ∈ (ops_a6 : List (HloOp τ sig (Elt F))), ∀ k : Fin 7, (Proc.devRef .tc (argRef k) : DevRef τ sig) ∉ op.writes := by
  none_writes_arg ops_a6
theorem ops_a7_nw : ∀ op ∈ (ops_a7 : List (HloOp τ sig (Elt F))), ∀ k : Fin 7, (Proc.devRef .tc (argRef k) : DevRef τ sig) ∉ op.writes := by
  none_writes_arg ops_a7
theorem ops_a8_nw : ∀ op ∈ (ops_a8 : List (HloOp τ sig (Elt F))), ∀ k : Fin 7, (Proc.devRef .tc (argRef k) : DevRef τ sig) ∉ op.writes := by
  none_writes_arg ops_a8
theorem ops_b0_nw : ∀ op ∈ (ops_b0 : List (HloOp τ sig (Elt F))), ∀ k : Fin 7, (Proc.devRef .tc (argRef k) : DevRef τ sig) ∉ op.writes := by
  none_writes_arg ops_b0
theorem ops_b1_nw : ∀ op ∈ (ops_b1 : List (HloOp τ sig (Elt F))), ∀ k : Fin 7, (Proc.devRef .tc (argRef k) : DevRef τ sig) ∉ op.writes := by
  none_writes_arg ops_b1
theorem ops_c0_nw : ∀ op ∈ (ops_c0 : List (HloOp τ sig (Elt F))), ∀ k : Fin 7, (Proc.devRef .tc (argRef k) : DevRef τ sig) ∉ op.writes := by
  none_writes_arg ops_c0
theorem ops_c1_nw : ∀ op ∈ (ops_c1 : List (HloOp τ sig (Elt F))), ∀ k : Fin 7, (Proc.devRef .tc (argRef k) : DevRef τ sig) ∉ op.writes := by
  none_writes_arg ops_c1

theorem nw_append {l₁ l₂ : List (HloOp τ sig (Elt F))}
    (h₁ : ∀ op ∈ l₁, ∀ k : Fin 7, (Proc.devRef .tc (argRef k) : DevRef τ sig) ∉ op.writes)
    (h₂ : ∀ op ∈ l₂, ∀ k : Fin 7, (Proc.devRef .tc (argRef k) : DevRef τ sig) ∉ op.writes) :
    ∀ op ∈ l₁ ++ l₂, ∀ k : Fin 7, (Proc.devRef .tc (argRef k) : DevRef τ sig) ∉ op.writes :=
  fun op hop => (List.mem_append.mp hop).elim (h₁ op) (h₂ op)

/-- No operation of @main writes an argument. -/
theorem ops_nw : ∀ op ∈ (ops : List (HloOp τ sig (Elt F))), ∀ k : Fin 7, (Proc.devRef .tc (argRef k) : DevRef τ sig) ∉ op.writes :=
  nw_append (nw_append (nw_append (nw_append (nw_append (nw_append (nw_append (nw_append (nw_append (nw_append (nw_append (ops_a0_nw) ops_a1_nw) ops_a2_nw) ops_a3_nw) ops_a4_nw) ops_a5_nw) ops_a6_nw) ops_a7_nw) ops_a8_nw) ops_b0_nw)
    (nw_append ops_b1_nw ops_c0_nw)) ops_c1_nw

/-- An argument's buffer is, after the whole line, as it was. -/
theorem kept_arg (V : Valuation τ sig (Elt F)) (k : Fin 7) :
    after ops V (Proc.devRef .tc (argRef k)) = V (Proc.devRef .tc (argRef k)) :=
  after_of_forall_not_mem ops V fun op hop => ops_nw op hop k

theorem kept_main_arg0 (V : Valuation τ sig (Elt F)) :
    after ops V (Proc.devRef .tc main_arg0) = V (Proc.devRef .tc main_arg0) := kept_arg V 0
theorem kept_main_arg1 (V : Valuation τ sig (Elt F)) :
    after ops V (Proc.devRef .tc main_arg1) = V (Proc.devRef .tc main_arg1) := kept_arg V 1
theorem kept_main_arg2 (V : Valuation τ sig (Elt F)) :
    after ops V (Proc.devRef .tc main_arg2) = V (Proc.devRef .tc main_arg2) := kept_arg V 2
theorem kept_main_arg3 (V : Valuation τ sig (Elt F)) :
    after ops V (Proc.devRef .tc main_arg3) = V (Proc.devRef .tc main_arg3) := kept_arg V 3
theorem kept_main_arg4 (V : Valuation τ sig (Elt F)) :
    after ops V (Proc.devRef .tc main_arg4) = V (Proc.devRef .tc main_arg4) := kept_arg V 4
theorem kept_main_arg5 (V : Valuation τ sig (Elt F)) :
    after ops V (Proc.devRef .tc main_arg5) = V (Proc.devRef .tc main_arg5) := kept_arg V 5
theorem kept_main_arg6 (V : Valuation τ sig (Elt F)) :
    after ops V (Proc.devRef .tc main_arg6) = V (Proc.devRef .tc main_arg6) := kept_arg V 6

/-- @main runs and its seven argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_arg0).trans (kept_main_arg0 _), (h c main_arg1).trans (kept_main_arg1 _), (h c main_arg2).trans (kept_main_arg2 _),
     (h c main_arg3).trans (kept_main_arg3 _), (h c main_arg4).trans (kept_main_arg4 _), (h c main_arg5).trans (kept_main_arg5 _),
     (h c main_arg6).trans (kept_main_arg6 _)⟩) (run_raw m ρ)

end Cert.ReferenceIdeal.Hand

end
-- ==== Proof.Val.Doubling.lean ====
/-
  Five rounds of the doubling recurrence on 1024 × 1024 matrices over the extended reals:
  from L = X and A = I + X, each round squares L and multiplies A on the right by I + L (the new L).
  After five rounds A = (I + X)(I + X²)(I + X⁴)…(I + X³²), the truncated Neumann series of (I − X)⁻¹.
  Only the shape of the computation is named here; no law of the extended reals is used.
-/
import Idealize.ShloMosaic.PureOps.Ideal

noncomputable section

namespace Cert.Doubling

/-- A 1024 × 1024 matrix of extended reals, entry (row, column). -/
abbrev Mat := Fin 1024 → Fin 1024 → EReal

/-- The matrix product, entry by entry the sum over the inner coordinate. -/
def mm (A B : Mat) : Mat := fun i j => ∑ k : Fin 1024, A i k * B k j

/-- The entrywise sum. -/
def madd (A B : Mat) : Mat := fun i j => A i j + B i j

/-- The identity matrix: entry (i, j) is the truth value of "the 32-bit words of i and j are equal" read as a number
    (1 on the diagonal, 0 off it, since row and column numbers are below 2³²). -/
def eye : Mat := fun i j =>
  (((Idealize.ShloMosaic.IntOp.cmpi .eq (BitVec.ofNat 32 i.val) (BitVec.ofNat 32 j.val)).toNat : ℝ) : EReal)

/-- One round: L ← L·L, A ← A·(I + L·L). -/
def round (p : Mat × Mat) : Mat × Mat := (mm p.1 p.1, mm p.2 (madd eye (mm p.1 p.1)))

/-- The accumulator after five rounds from L = X, A = I + X. -/
def dag (X : Mat) : Mat := (round (round (round (round (round (X, madd eye X)))))).2

end Cert.Doubling

end
-- ==== Proof.Ref.Values.lean ====
/- The reference program's result as a composed function of the contents its first stretch leaves: the five doubling
   rounds read as a function of the transposed normalised adjacency, the weighting by the per-column scale, and the
   product with the values laid out as the output; then, at the ideal values, the doubling part read entry by entry as
   the matrix recurrence on each 1024 × 1024 slice and the weighting as an entrywise product. -/
import proofs.«170030_j80934363725836_1_alg».proof.Proof.Ref.Run
import proofs.«170030_j80934363725836_1_alg».proof.Proof.Val.Doubling
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Doubling

variable {F : FTy → Type} [FloatOps F]

/-! ## The composed functions -/

/-- The identity on every 1024 × 1024 slice: row counter (plus the zero splat) compared with the column counter,
    the truth value as a number, repeated over the two leading axes (%83 … %90). -/
def eyeFn : FVec F S8x8x1024x1024 .f32 :=
  broadcastInDim S8x8x1024x1024 ![0, 1, 2, 3] bcast_S1x1x1024x1024_S8x8x1024x1024_0_1_2_3
    (broadcastInDim S1x1x1024x1024 ![2, 3] bcast_S1024x1024_S1x1x1024x1024_2_3
      (uitofp .f32 (cmpi .eq
        (addi (iotaInDim S1024x1024 32 0) (broadcastInDim S1024x1024 ![] bcast_S_S1024x1024 (constantI S_ 32 0#32)))
        (iotaInDim S1024x1024 32 1))))

/-- The batched product of two stacks of 1024 × 1024 matrices. -/
def bmm (A B : FVec F S8x8x1024x1024 .f32) : FVec F S8x8x1024x1024 .f32 :=
  Host.dotGeneral dot_S8x8x1024x1024_S8x8x1024x1024_S8x8x1024x1024_3_2_2_3_01_01 none A B

/-- One round: the square of L, and the accumulator times the identity plus that square. -/
def roundFn (p : FVec F S8x8x1024x1024 .f32 × FVec F S8x8x1024x1024 .f32) :
    FVec F S8x8x1024x1024 .f32 × FVec F S8x8x1024x1024 .f32 :=
  (bmm p.1 p.1, bmm p.2 (addf eyeFn (bmm p.1 p.1)))

/-- The accumulator after the five rounds from L = X, A = I + X (%83 … %116). -/
def dagFn (X : FVec F S8x8x1024x1024 .f32) : FVec F S8x8x1024x1024 .f32 :=
  (roundFn (roundFn (roundFn (roundFn (roundFn (X, addf eyeFn X)))))).2

/-- The accumulator times the per-column scale, the scale repeated down the rows (%117 … %119). -/
def scaleFn (L : FVec F S8x8x1024x1024 .f32) (s : FVec F S8x8x1024 .f32) : FVec F S8x8x1024x1024 .f32 :=
  mulf L (broadcastInDim S8x8x1024x1024 ![0, 1, 2, 3] bcast_S8x8x1x1024_S8x8x1024x1024_0_1_2_3
    (broadcastInDim S8x8x1x1024 ![0, 1, 3] bcast_S8x8x1024_S8x8x1x1024_0_1_3 s))

/-- The rest (%120 … %131): times the inner products of the two 64-wide operands (shared by the eight heads), times
    the values, plus the values times the per-head constant, laid out as the 8192 × 128 output. -/
def restFn (L119 : FVec F S8x8x1024x1024 .f32) (v3 v2 : FVec F S8x1024x64 .f32) (v1 : FVec F S8x8x1024x16 .f32)
    (a5 : FVec F S8 .f32) : FVec F S8192x128 .f32 :=
  shapeCast S8192x128
    (shapeCast S8x1024x128
      (transpose S8x1024x16x8 [0, 2, 3, 1]
        (addf
          (Host.dotGeneral dot_S8x8x1024x1024_S8x8x1024x16_S8x8x1024x16_3_2_2_3_01_01 none
            (mulf L119
              (broadcastInDim S8x8x1024x1024 ![0, 1, 2, 3] bcast_S8x1x1024x1024_S8x8x1024x1024_0_1_2_3
                (broadcastInDim S8x1x1024x1024 ![0, 2, 3] bcast_S8x1024x1024_S8x1x1024x1024_0_2_3
                  (Host.dotGeneral dot_S8x1024x64_S8x1024x64_S8x1024x1024_2_2_1_1_0_0 none v3 v2))))
            v1)
          (mulf v1
            (broadcastInDim S8x8x1024x16 ![0, 1, 2, 3] bcast_S1x8x1x1_S8x8x1024x16_0_1_2_3
              (broadcastInDim S1x8x1x1 ![1] bcast_S8_S1x8x1x1_1 a5))))
        transposes_S8x8x1024x16_S8x1024x16x8_0_2_3_1)
      shapeCasts_S8x1024x16x8_S8x1024x128)
    shapeCasts_S8x1024x128_S8192x128

/-! ## The folds read back -/

set_option maxRecDepth 4096 in
set_option maxHeartbeats 1600000 in
/-- The doubling stretch leaves in %116 the five rounds of the contents of %82. -/
theorem dag_eval (W : Valuation τ sig (Elt F)) :
    after opsDag W (Proc.devRef .tc main_v116) = dagFn (W (Proc.devRef .tc main_v82)) := by
  show after (ops_b1 ++ ops_c0) W _ = _
  rw [after_append]
  after_results_simp
  rfl

set_option maxHeartbeats 800000 in
/-- The last stretch leaves in %131 the rest of the computation on what it finds. -/
theorem tail_eval (W : Valuation τ sig (Elt F)) :
    after opsTail W (Proc.devRef .tc main_v131)
      = restFn (scaleFn (W (Proc.devRef .tc main_v116)) (W (Proc.devRef .tc main_v11)))
          (W (Proc.devRef .tc main_v3)) (W (Proc.devRef .tc main_v2)) (W (Proc.devRef .tc main_v1))
          (W (Proc.devRef .tc main_arg5)) := by
  show after ops_c1 W _ = _
  after_results_simp
  rfl

/-! ## What the doubling stretch leaves alone -/

/-- The five buffers the last stretch reads besides %116. -/
def keptRef : Fin 5 → Ref sig .tc
  | 0 => main_v11 | 1 => main_v3 | 2 => main_v2 | 3 => main_v1 | 4 => main_arg5

/-- Decides, operation by operation of a literal list, that none writes one of those five: each builder writes its result
    buffer only. -/
local macro "none_writes_kept" c:ident : tactic => `(tactic| (
  refine List.forall_iff_forall_mem.mp ?_
  simp only [$c:ident, List.Forall, nullary_writes, unary_writes, binary_writes, ternary_writes, reshape_writes, nary_writes,
    Finset.mem_singleton]
  repeat' apply And.intro
  all_goals (intro k; exact devRef_ne_of_ne (by revert k; decide))))

theorem ops_b1_nk : ∀ op ∈ (ops_b1 : List (HloOp τ sig (Elt F))), ∀ k : Fin 5, (Proc.devRef .tc (keptRef k) : DevRef τ sig) ∉ op.writes := by
  none_writes_kept ops_b1
theorem ops_c0_nk : ∀ op ∈ (ops_c0 : List (HloOp τ sig (Elt F))), ∀ k : Fin 5, (Proc.devRef .tc (keptRef k) : DevRef τ sig) ∉ op.writes := by
  none_writes_kept ops_c0

/-- The doubling stretch writes none of the five. -/
theorem dag_keeps (W : Valuation τ sig (Elt F)) (k : Fin 5) :
    after opsDag W (Proc.devRef .tc (keptRef k)) = W (Proc.devRef .tc (keptRef k)) :=
  after_of_forall_not_mem opsDag W fun op hop => (List.mem_append.mp hop).elim (fun h => ops_b1_nk op h k) (fun h => ops_c0_nk op h k)

theorem dag_keeps_v11 (W : Valuation τ sig (Elt F)) : after opsDag W (Proc.devRef .tc main_v11) = W (Proc.devRef .tc main_v11) := dag_keeps W 0
theorem dag_keeps_v3 (W : Valuation τ sig (Elt F)) : after opsDag W (Proc.devRef .tc main_v3) = W (Proc.devRef .tc main_v3) := dag_keeps W 1
theorem dag_keeps_v2 (W : Valuation τ sig (Elt F)) : after opsDag W (Proc.devRef .tc main_v2) = W (Proc.devRef .tc main_v2) := dag_keeps W 2
theorem dag_keeps_v1 (W : Valuation τ sig (Elt F)) : after opsDag W (Proc.devRef .tc main_v1) = W (Proc.devRef .tc main_v1) := dag_keeps W 3
theorem dag_keeps_arg5 (W : Valuation τ sig (Elt F)) : after opsDag W (Proc.devRef .tc main_arg5) = W (Proc.devRef .tc main_arg5) := dag_keeps W 4

/-- The whole line's result: the rest, of the five rounds of %82 weighted by %11, over what the first stretch leaves. -/
theorem result_eval (V : Valuation τ sig (Elt F)) :
    after ops V (Proc.devRef .tc main_v131)
      = restFn (scaleFn (dagFn (after opsPre V (Proc.devRef .tc main_v82))) (after opsPre V (Proc.devRef .tc main_v11)))
          (after opsPre V (Proc.devRef .tc main_v3)) (after opsPre V (Proc.devRef .tc main_v2))
          (after opsPre V (Proc.devRef .tc main_v1)) (after opsPre V (Proc.devRef .tc main_arg5)) := by
  rw [after_split, tail_eval, dag_eval, dag_keeps_v11, dag_keeps_v3, dag_keeps_v2, dag_keeps_v1, dag_keeps_arg5]

/-! ## The doubling part entry by entry, at the ideal values -/

/-- The 1024 × 1024 slice of a stack at batch coordinates (b, h), as a matrix. -/
def slice (X : FVec Ideal S8x8x1024x1024 .f32) (b h : Fin 8) : Mat := fun a k => X (ix4 b h a k)

/-- The left operand's index of the batched product at output entry (b, h, i, j) and contracted coordinate c is (b, h, i, c). -/
theorem bmm_lhsIdx (b h : Fin 8) (i j c : Fin 1024) :
    dot_S8x8x1024x1024_S8x8x1024x1024_S8x8x1024x1024_3_2_2_3_01_01.lhsIdx (ix4 b h i j)
      ((contrEquiv1 dot_S8x8x1024x1024_S8x8x1024x1024_S8x8x1024x1024_3_2_2_3_01_01 1024 rfl rfl).symm c) = ix4 b h i c := by
  have c2 := contrEquiv1_symm_val dot_S8x8x1024x1024_S8x8x1024x1024_S8x8x1024x1024_3_2_2_3_01_01 1024 rfl rfl c
  funext ax; apply Fin.ext
  match ax with
  | ⟨0, _⟩ => simp [DotDims.lhsIdx, dot_S8x8x1024x1024_S8x8x1024x1024_S8x8x1024x1024_3_2_2_3_01_01]; rfl
  | ⟨1, _⟩ => simp [DotDims.lhsIdx, dot_S8x8x1024x1024_S8x8x1024x1024_S8x8x1024x1024_3_2_2_3_01_01]; rfl
  | ⟨2, _⟩ => simp [DotDims.lhsIdx, dot_S8x8x1024x1024_S8x8x1024x1024_S8x8x1024x1024_3_2_2_3_01_01]; rfl
  | ⟨3, _⟩ => simp [DotDims.lhsIdx, dot_S8x8x1024x1024_S8x8x1024x1024_S8x8x1024x1024_3_2_2_3_01_01]; exact c2

/-- The right operand's index of the batched product at output entry (b, h, i, j) and contracted coordinate c is (b, h, c, j). -/
theorem bmm_rhsIdx (b h : Fin 8) (i j c : Fin 1024) :
    dot_S8x8x1024x1024_S8x8x1024x1024_S8x8x1024x1024_3_2_2_3_01_01.rhsIdx (ix4 b h i j)
      ((contrEquiv1 dot_S8x8x1024x1024_S8x8x1024x1024_S8x8x1024x1024_3_2_2_3_01_01 1024 rfl rfl).symm c) = ix4 b h c j := by
  have c2 := contrEquiv1_symm_val dot_S8x8x1024x1024_S8x8x1024x1024_S8x8x1024x1024_3_2_2_3_01_01 1024 rfl rfl c
  funext ax; apply Fin.ext
  match ax with
  | ⟨0, _⟩ => simp [DotDims.rhsIdx, dot_S8x8x1024x1024_S8x8x1024x1024_S8x8x1024x1024_3_2_2_3_01_01]; rfl
  | ⟨1, _⟩ => simp [DotDims.rhsIdx, dot_S8x8x1024x1024_S8x8x1024x1024_S8x8x1024x1024_3_2_2_3_01_01]; rfl
  | ⟨2, _⟩ => simp [DotDims.rhsIdx, dot_S8x8x1024x1024_S8x8x1024x1024_S8x8x1024x1024_3_2_2_3_01_01]; exact c2
  | ⟨3, _⟩ => simp [DotDims.rhsIdx, dot_S8x8x1024x1024_S8x8x1024x1024_S8x8x1024x1024_3_2_2_3_01_01]; rfl

/-- The batched product, slice by slice, is the matrix product of the slices. -/
theorem slice_bmm (A B : FVec Ideal S8x8x1024x1024 .f32) (b h : Fin 8) :
    slice (bmm A B) b h = mm (slice A b h) (slice B b h) := by
  funext i j
  show FloatOps.dotGeneral dot_S8x8x1024x1024_S8x8x1024x1024_S8x8x1024x1024_3_2_2_3_01_01 none .single A B (ix4 b h i j) = _
  rw [Ideal.dotGeneral_apply,
    ← Equiv.sum_comp (contrEquiv1 dot_S8x8x1024x1024_S8x8x1024x1024_S8x8x1024x1024_3_2_2_3_01_01 1024 rfl rfl).symm]
  exact Finset.sum_congr rfl fun c _ => by rw [bmm_lhsIdx b h i j c, bmm_rhsIdx b h i j c]; rfl

/-- The entrywise sum, slice by slice. -/
theorem slice_addf (A B : FVec Ideal S8x8x1024x1024 .f32) (b h : Fin 8) :
    slice (addf A B) b h = madd (slice A b h) (slice B b h) := rfl

/-- Every slice of the repeated identity is the identity matrix. -/
theorem slice_eyeFn (b h : Fin 8) : slice (eyeFn (F := Ideal)) b h = eye := by
  funext i j
  show eyeFn (F := Ideal) (ix4 b h i j) = _
  unfold eyeFn
  rw [broadcastInDim_apply _ bcast_S1x1x1024x1024_S8x8x1024x1024_0_1_2_3 _ (ix4 b h i j) (ix4 (0 : Fin 1) (0 : Fin 1) i j)
      (fun a => match a with | ⟨0, _⟩ => rfl | ⟨1, _⟩ => rfl | ⟨2, _⟩ => rfl | ⟨3, _⟩ => rfl),
    broadcastInDim_apply _ bcast_S1024x1024_S1x1x1024x1024_2_3 _ (ix4 (0 : Fin 1) (0 : Fin 1) i j) (ix2 i j)
      (fun a => match a with | ⟨0, _⟩ => rfl | ⟨1, _⟩ => rfl)]
  show (((IntOp.cmpi .eq (BitVec.ofNat 32 i.val + 0#32) (BitVec.ofNat 32 j.val)).toNat : ℝ) : EReal) = _
  rw [BitVec.add_zero]
  rfl

/-- One round, slice by slice, is the matrix round. -/
theorem slice_roundFn (p : FVec Ideal S8x8x1024x1024 .f32 × FVec Ideal S8x8x1024x1024 .f32) (b h : Fin 8) :
    (slice (roundFn p).1 b h, slice (roundFn p).2 b h) = Cert.Doubling.round (slice p.1 b h, slice p.2 b h) := by
  unfold roundFn Cert.Doubling.round
  simp only [slice_bmm, slice_addf, slice_eyeFn]

/-- The five rounds read at an entry: the doubling recurrence on the slice. -/
theorem dagFn_apply (X : FVec Ideal S8x8x1024x1024 .f32) (b h : Fin 8) (i j : Fin 1024) :
    dagFn X (ix4 b h i j) = dag (fun a k => X (ix4 b h a k)) i j := by
  show slice (dagFn X) b h i j = dag (slice X b h) i j
  unfold dagFn dag
  have e0 : (slice X b h, slice (addf eyeFn X) b h) = (slice X b h, madd eye (slice X b h)) := by
    rw [slice_addf, slice_eyeFn]
  have step : ∀ p : FVec Ideal S8x8x1024x1024 .f32 × FVec Ideal S8x8x1024x1024 .f32, ∀ q : Mat × Mat,
      (slice p.1 b h, slice p.2 b h) = q → (slice (roundFn p).1 b h, slice (roundFn p).2 b h) = Cert.Doubling.round q :=
    fun p q hq => by rw [slice_roundFn, hq]
  have h1 := step (X, addf eyeFn X) _ e0
  have h2 := step _ _ h1
  have h3 := step _ _ h2
  have h4 := step _ _ h3
  have h5 := step _ _ h4
  exact congrFun (congrFun (congrArg Prod.snd h5) i) j

/-- The weighting read at an entry: the entry times the scale of its column. -/
theorem scaleFn_apply (L : FVec Ideal S8x8x1024x1024 .f32) (s : FVec Ideal S8x8x1024 .f32) (b h : Fin 8) (i j : Fin 1024) :
    scaleFn L s (ix4 b h i j) = L (ix4 b h i j) * s (ix3 b h j) := by
  unfold scaleFn
  rw [mulf_apply,
    broadcastInDim_apply _ bcast_S8x8x1x1024_S8x8x1024x1024_0_1_2_3 _ (ix4 b h i j) (ix4 b h (0 : Fin 1) j)
      (fun a => match a with | ⟨0, _⟩ => rfl | ⟨1, _⟩ => rfl | ⟨2, _⟩ => rfl | ⟨3, _⟩ => rfl),
    broadcastInDim_apply _ bcast_S8x8x1024_S8x8x1x1024_0_1_3 _ (ix4 b h (0 : Fin 1) j) (ix3 b h j)
      (fun a => match a with | ⟨0, _⟩ => rfl | ⟨1, _⟩ => rfl | ⟨2, _⟩ => rfl)]

end Cert.ReferenceIdeal.Hand

end
-- ==== Proof.Val.KernelTail.lean ====
/-
  The kernel program's result as a function of what its one region leaves: the last stretch of host operations
  widens the region's output, weights it by the inner products of the two 64-wide operands (shared by the eight
  heads), multiplies by the values, adds the values times the per-head constant, and lays the sum out as the
  8192 × 128 output. That function is the reference program's closing function, term for term.
-/
import proofs.«170030_j80934363725836_1_alg».proof.Proof.KI.Run
import proofs.«170030_j80934363725836_1_alg».proof.Proof.Ref.Values

set_option maxRecDepth 16384

noncomputable section

namespace Cert.KernelIdeal.TailValue

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat Cfg Window)

variable {F : FTy → Type} [FloatOps F]

/-- The closing function: `L` (the widened output of the region) times the inner products of `v3` and `v2` repeated
    over the heads, times the values `v1`, plus `v1` times the per-head constant `a5`, laid out as 8192 × 128. -/
def restFnK (L : FVec F S8x8x1024x1024 .f32) (v3 v2 : FVec F S8x1024x64 .f32) (v1 : FVec F S8x8x1024x16 .f32)
    (a5 : FVec F S8 .f32) : FVec F S8192x128 .f32 :=
  shapeCast S8192x128
    (shapeCast S8x1024x128
      (transpose S8x1024x16x8 [0, 2, 3, 1]
        (addf
          (Host.dotGeneral dot_S8x8x1024x1024_S8x8x1024x16_S8x8x1024x16_3_2_2_3_01_01 none
            (mulf L
              (broadcastInDim S8x8x1024x1024 ![0, 1, 2, 3] bcast_S8x1x1024x1024_S8x8x1024x1024_0_1_2_3
                (broadcastInDim S8x1x1024x1024 ![0, 2, 3] bcast_S8x1024x1024_S8x1x1024x1024_0_2_3
                  (Host.dotGeneral dot_S8x1024x64_S8x1024x64_S8x1024x1024_2_2_1_1_0_0 none v3 v2))))
            v1)
          (mulf v1
            (broadcastInDim S8x8x1024x16 ![0, 1, 2, 3] bcast_S1x8x1x1_S8x8x1024x16_0_1_2_3
              (broadcastInDim S1x8x1x1 ![1] bcast_S8_S1x8x1x1_1 a5))))
        transposes_S8x8x1024x16_S8x1024x16x8_0_2_3_1)
      shapeCasts_S8x1024x16x8_S8x1024x128)
    shapeCasts_S8x1024x128_S8192x128

set_option maxHeartbeats 800000 in
/-- The operations after the region leave in the result buffer the closing function of what they find. -/
theorem tail_eval (W : Valuation τ sig (Elt F)) :
    after hostOps1 W (Proc.devRef .tc main_v100)
      = restFnK (extf .f32 (shapeCast S8x8x1024x1024 (W (Proc.devRef .tc main_v86)) shapeCasts_S64x1024x1024_S8x8x1024x1024) bitsLt_bf16_f32)
          (W (Proc.devRef .tc main_v3)) (W (Proc.devRef .tc main_v2)) (W (Proc.devRef .tc main_v1)) (W (Proc.devRef .tc main_arg5)) := by
  simp only [hostOps1]
  after_results_simp
  rfl

/-- The result buffer after @main, from the frame run's data: the closing function of the region's output array as the
    proof data compute it, and of the four buffers the earlier host operations left. -/
theorem result_eq (m : (ℓ : Loc nD τ sig) → Buf (Elt F) ℓ) (c : Dev nD) :
    Pipeline.afterTail₀ cfgs (dats m) 0 (V0 m) [hostOps1] c main_v100
      = restFnK (extf .f32 (shapeCast S8x8x1024x1024 ((dats m 0 c).arrAt 2 cfg0.N) shapeCasts_S64x1024x1024_S8x8x1024x1024) bitsLt_bf16_f32)
          (V m c main_v3) (V m c main_v2) (V m c main_v1) (V m c main_arg5) := by
  unfold Pipeline.afterTail₀
  rw [show ([hostOps1] : List (List (HloOp τ sig (Elt F)))).flatten = hostOps1 from by
    simp only [List.flatten_cons, List.flatten_nil, List.append_nil]]
  rw [tail_eval]
  have h86 : Pipeline.withArrays spec0 c (V0 m c) (fun w => (dats m 0 c).arrAt w cfg0.N) (Proc.devRef .tc main_v86)
      = (dats m 0 c).arrAt 2 cfg0.N :=
    Pipeline.withArrays_arr spec0 launch0.win.arr_inj c (V0 m c) (fun w => (dats m 0 c).arrAt w cfg0.N) 2
  rw [h86,
    Pipeline.withArrays_of_ne _ c (V0 m c) _ main_v3 (by exact (by decide : ∀ w, Pipeline.arrRef spec0 w ≠ main_v3)),
    Pipeline.withArrays_of_ne _ c (V0 m c) _ main_v2 (by exact (by decide : ∀ w, Pipeline.arrRef spec0 w ≠ main_v2)),
    Pipeline.withArrays_of_ne _ c (V0 m c) _ main_v1 (by exact (by decide : ∀ w, Pipeline.arrRef spec0 w ≠ main_v1)),
    Pipeline.withArrays_of_ne _ c (V0 m c) _ main_arg5 (by exact (by decide : ∀ w, Pipeline.arrRef spec0 w ≠ main_arg5))]

/-- @main runs, its result buffer ends at the closing function of the region's output array, and its seven argument
    arrays end unchanged. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v100)
        = restFnK (extf .f32 (shapeCast S8x8x1024x1024 ((dats m 0 c).arrAt 2 cfg0.N) shapeCasts_S64x1024x1024_S8x8x1024x1024) bitsLt_bf16_f32)
          (V m c main_v3) (V m c main_v2) (V m c main_v1) (V m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v100 (Pipeline.mem_restRefs_of main_v100 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

set_option maxHeartbeats 400000 in
/-- The closing function is the reference program's, term for term. -/
theorem restFnK_eq_ref : @restFnK F _ = @Cert.ReferenceIdeal.Hand.restFn F _ := rfl

end Cert.KernelIdeal.TailValue

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.Val.KernelBlock.lean ====
/-
  The kernel body's block function read at an entry, at the ideal values.

  With X the 1024 × 1024 block of the adjacency array the body loads and s the 1024 scales of its row block, the body
  stores, at row i and column j of the output block, entry (i, j) of the accumulator after five doubling rounds
  from L = X, A = I + X (each round L ← L·L, A ← A·(I + L)), times s j. Rounding to and from the sixteen-bit format
  is the identity at the ideal values, a product into the zero matrix is the plain sum over the inner coordinate,
  and a cast between a shape and itself changes nothing.
-/
import proofs.«170030_j80934363725836_1_alg».proof.Proof.KI.Data
import proofs.«170030_j80934363725836_1_alg».proof.Proof.LibDense
import proofs.«170030_j80934363725836_1_alg».proof.Proof.Val.Doubling
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.KernelIdeal.BlockValue

open Cert.KernelIdeal Cert.KernelIdeal.Gen Cert.KernelIdeal.Hand Cert.Doubling
open Idealize.ShloMosaic Idealize.ShloMosaic.ValueIdx

/-- The entries of a 1024 × 1024 vector as a matrix. -/
def toMat {φ : FTy} (v : FVec Ideal S1024x1024 φ) : Mat := fun i j => v (ix2 i j)

/-- The one slab of a 1 × 1024 × 1024 block as a matrix. -/
def slabMat {φ : FTy} (x : FVec Ideal S1x1024x1024 φ) : Mat := fun i j => x (ix3 (0 : Fin 1) i j)

/-- A product into the zero matrix, whatever the operands' formats, is the matrix product of the entries. -/
theorem toMat_matmul {φ₁ φ₂ : FTy} (A : FVec Ideal S1024x1024 φ₁) (B : FVec Ideal S1024x1024 φ₂) :
    toMat (matmul dot_S1024x1024_S1024x1024_S1024x1024_1_0_0_1_n_n none A B (constant S1024x1024 .f32 0x00000000#32))
      = mm (toMat A) (toMat B) := by
  funext i j
  exact Cert.Dense.matmul_plain_apply (m := 1024) (k := 1024) (n := 1024)
    dot_S1024x1024_S1024x1024_S1024x1024_1_0_0_1_n_n_wf A B i j

/-- Rounding to a narrower format keeps the entries. -/
theorem toMat_truncf {φ ψ : FTy} (A : FVec Ideal S1024x1024 φ) (h : ψ.bits < φ.bits) :
    toMat (truncf ψ A h : FVec Ideal S1024x1024 ψ) = toMat A := rfl

/-- The entrywise sum. -/
theorem toMat_addf {φ : FTy} (A B : FVec Ideal S1024x1024 φ) : toMat (addf A B) = madd (toMat A) (toMat B) := rfl

/-- A cast from the shape to itself keeps the entries. -/
theorem toMat_shapeCast_self {φ : FTy} (A : FVec Ideal S1024x1024 φ) (h : S1024x1024.ShapeCasts S1024x1024) :
    toMat (shapeCast S1024x1024 A h) = toMat A := by
  rw [shapeCast_self]

/-- The identity the body builds from the row and column counters. -/
theorem toMat_pay6 : toMat (k0_pay6 (F := Ideal)) = eye := by
  funext i j
  dsimp only [k0_pay6]
  rw [sitofp_extui_eq_uitofp]
  show (((IntOp.cmpi .eq
      (broadcastTo S1024x1024 (iota .tc S1024x1 32 [0] iota_S1024x1_d0_w32) broadcasts_S1024x1_S1024x1024 (ix2 i j))
      (broadcastTo S1024x1024 (iota .tc S1x1024 32 [1] iota_S1x1024_d1_w32) broadcasts_S1x1024_S1024x1024 (ix2 i j))).toNat : ℝ) : EReal) = _
  rw [broadcastTo_apply (iota .tc S1024x1 32 [0] iota_S1024x1_d0_w32) broadcasts_S1024x1_S1024x1024 (ix2 i j) (ix2 i (0 : Fin 1))
      (fun a => match a with | ⟨0, _⟩ => rfl | ⟨1, _⟩ => rfl),
    broadcastTo_1b_ab_apply (a := 1024) (b := 1024) (iota .tc S1x1024 32 [1] iota_S1x1024_d1_w32) broadcasts_S1x1024_S1024x1024 i j]
  show (((IntOp.cmpi .eq (BitVec.ofNat 32 (0 * 1024 + i.val)) (BitVec.ofNat 32 (0 * 1024 + j.val))).toNat : ℝ) : EReal) = _
  rw [Nat.zero_mul, Nat.zero_add, Nat.zero_add]
  rfl

/-- The loaded block, its leading unit axis dropped and widened to 32 bits, is the block's slab. -/
theorem toMat_pay7 (x : FVec Ideal S1x1024x1024 .bf16) : toMat (k0_pay7 (F := Ideal) x) = slabMat x := by
  funext i j
  dsimp only [k0_pay7]
  exact shapeCast_1ab_ab_apply (a := 1024) (b := 1024) x shapeCasts_S1x1024x1024_S1024x1024 i j

theorem toMat_pay8 (x : FVec Ideal S1x1024x1024 .bf16) : toMat (k0_pay8 (F := Ideal) x) = slabMat x := by
  dsimp only [k0_pay8]
  rw [toMat_shapeCast_self, toMat_pay7]

theorem toMat_pay9 (x : FVec Ideal S1x1024x1024 .bf16) : toMat (k0_pay9 (F := Ideal) x) = madd eye (slabMat x) := by
  dsimp only [k0_pay9]
  rw [toMat_shapeCast_self, toMat_addf, toMat_pay6, toMat_pay7]

/-- The square of a matrix read from a scratch buffer. -/
theorem toMat_pay10 (L : FVec Ideal S1024x1024 .f32) : toMat (k0_pay10 (F := Ideal) L) = mm (toMat L) (toMat L) := by
  dsimp only [k0_pay10]
  rw [toMat_matmul, toMat_truncf]

theorem toMat_pay11 (L : FVec Ideal S1024x1024 .f32) : toMat (k0_pay11 (F := Ideal) L) = mm (toMat L) (toMat L) := by
  dsimp only [k0_pay11]
  rw [toMat_shapeCast_self, toMat_pay10]

/-- The accumulator times the identity plus the new square. -/
theorem toMat_pay12 (L A : FVec Ideal S1024x1024 .f32) :
    toMat (k0_pay12 (F := Ideal) L A) = mm (toMat A) (madd eye (mm (toMat L) (toMat L))) := by
  dsimp only [k0_pay12]
  rw [toMat_shapeCast_self, toMat_matmul, toMat_truncf, toMat_truncf, toMat_addf, toMat_pay6, toMat_pay10]

theorem toMat_pay13 (L : FVec Ideal S1024x1024 .f32) : toMat (k0_pay13 (F := Ideal) L) = mm (toMat L) (toMat L) := by
  dsimp only [k0_pay13]
  rw [toMat_matmul, toMat_truncf]

theorem toMat_pay14 (v : FVec Ideal S1024x1024 .f32) : toMat (k0_pay14 (F := Ideal) v) = toMat v := by
  dsimp only [k0_pay14]
  rw [toMat_shapeCast_self]

theorem toMat_pay15 (E v A : FVec Ideal S1024x1024 .f32) :
    toMat (k0_pay15 (F := Ideal) E v A) = mm (toMat A) (madd (toMat E) (toMat v)) := by
  dsimp only [k0_pay15]
  rw [toMat_shapeCast_self, toMat_matmul, toMat_truncf, toMat_truncf, toMat_addf]

theorem toMat_pay16 (L : FVec Ideal S1024x1024 .f32) : toMat (k0_pay16 (F := Ideal) L) = mm (toMat L) (toMat L) := by
  dsimp only [k0_pay16]
  rw [toMat_matmul, toMat_truncf]

theorem toMat_pay17 (L : FVec Ideal S1024x1024 .f32) : toMat (k0_pay17 (F := Ideal) L) = mm (toMat L) (toMat L) := by
  dsimp only [k0_pay17]
  rw [toMat_shapeCast_self, toMat_pay16]

theorem toMat_pay18 (E L A : FVec Ideal S1024x1024 .f32) :
    toMat (k0_pay18 (F := Ideal) E L A) = mm (toMat A) (madd (toMat E) (mm (toMat L) (toMat L))) := by
  dsimp only [k0_pay18]
  rw [toMat_shapeCast_self, toMat_matmul, toMat_truncf, toMat_truncf, toMat_addf, toMat_pay16]

theorem toMat_pay19 (L : FVec Ideal S1024x1024 .f32) : toMat (k0_pay19 (F := Ideal) L) = mm (toMat L) (toMat L) := by
  dsimp only [k0_pay19]
  rw [toMat_matmul, toMat_truncf]

theorem toMat_pay20 (L : FVec Ideal S1024x1024 .f32) : toMat (k0_pay20 (F := Ideal) L) = mm (toMat L) (toMat L) := by
  dsimp only [k0_pay20]
  rw [toMat_shapeCast_self, toMat_pay19]

theorem toMat_pay21 (E L : FVec Ideal S1024x1024 .f32) :
    toMat (k0_pay21 (F := Ideal) E L) = madd (toMat E) (mm (toMat L) (toMat L)) := by
  dsimp only [k0_pay21]
  rw [toMat_truncf, toMat_addf, toMat_pay19]

theorem toMat_pay1 (v : FVec Ideal S1024x1024 .bf16) (A : FVec Ideal S1024x1024 .f32) :
    toMat (k0_pay1 (F := Ideal) v A) = mm (toMat A) (toMat v) := by
  dsimp only [k0_pay1]
  rw [toMat_shapeCast_self, toMat_matmul, toMat_truncf]

theorem toMat_pay2 (L : FVec Ideal S1024x1024 .f32) : toMat (k0_pay2 (F := Ideal) L) = mm (toMat L) (toMat L) := by
  dsimp only [k0_pay2]
  rw [toMat_matmul, toMat_truncf]

theorem toMat_pay4 (E L A : FVec Ideal S1024x1024 .f32) :
    toMat (k0_pay4 (F := Ideal) E L A) = mm (toMat A) (madd (toMat E) (mm (toMat L) (toMat L))) := by
  dsimp only [k0_pay4]
  rw [toMat_shapeCast_self, toMat_matmul, toMat_truncf, toMat_truncf, toMat_addf, toMat_pay2]

/-- The accumulator after the five rounds is the doubling recurrence's, on the block's slab. -/
theorem toMat_blockA5 (x : FVec Ideal S1x1024x1024 .bf16) : toMat (φ := .f32) (blockA5 (F := Ideal) x) = dag (slabMat x) := by
  unfold blockA5 blockA4 blockV66 blockL4 blockL3 blockA3 blockL2 blockA2 blockV33 blockL1 blockA1 blockL0 blockA0 blockE
  rw [toMat_pay4, toMat_pay20, toMat_pay17, toMat_pay14, toMat_pay13, toMat_pay11, toMat_pay8, toMat_pay1, toMat_pay21,
    toMat_pay18, toMat_pay15, toMat_pay12, toMat_pay9, toMat_pay6, toMat_pay17, toMat_pay14, toMat_pay13, toMat_pay11, toMat_pay8]
  rfl

/-- The stored block: the accumulator's entry times the column's scale. -/
theorem pay5_apply (s : FVec Ideal S1x1x1024 .f32) (A : FVec Ideal S1024x1024 .f32) (i j : Fin 1024) :
    k0_pay5 (F := Ideal) s A (ix3 (0 : Fin 1) i j) = toMat A i j * s (ix3 (0 : Fin 1) (0 : Fin 1) j) := by
  dsimp only [k0_pay5]
  rw [shapeCast_ab_1ab_apply (a := 1024) (b := 1024) _ shapeCasts_S1024x1024_S1x1024x1024 (0 : Fin 1) i j]
  show A (ix2 i j) * broadcastTo S1024x1024 (shapeCast S1x1024 s shapeCasts_S1x1x1024_S1x1024) broadcasts_S1x1024_S1024x1024 (ix2 i j) = _
  rw [broadcastTo_1b_ab_apply (a := 1024) (b := 1024) _ broadcasts_S1x1024_S1024x1024 i j,
    shapeCast_1ab_ab_apply (a := 1) (b := 1024) s shapeCasts_S1x1x1024_S1x1024 (0 : Fin 1) j]
  rfl

theorem hz3 : (![0, 0, 0] : Fin 3 → Nat) = fun _ => 0 := funext fun a => by fin_cases a <;> rfl

/-- What the body leaves in the output block, entry by entry. -/
theorem blockOut_apply (x0 : FVec Ideal S1x1024x1024 .bf16) (x1 : FVec Ideal S1x1x1024 .f32) (i j : Fin 1024) :
    blockOut (F := Ideal) x0 x1 (ix3 (0 : Fin 1) i j) = dag (slabMat x0) i j * x1 (ix3 (0 : Fin 1) (0 : Fin 1) j) := by
  unfold blockOut
  rw [View.canon_unit_zero hz3, View.ld_unit_zero (S := S1x1024x1024) hz3, View.ld_unit_zero (S := S1x1x1024) hz3, pay5_apply]
  exact congrArg (fun M : Mat => M i j * x1 (ix3 (0 : Fin 1) (0 : Fin 1) j)) (toMat_blockA5 x0)

end Cert.KernelIdeal.BlockValue

end
-- ==== Proof.Val.Scaled.lean ====
/-
  The kernel's output array as one function of its two input arrays: for each of the 64 slabs of M, the doubling
  recurrence's accumulator on that slab, with column j scaled by entry j of row b of s.
-/
import proofs.«170030_j80934363725836_1_alg».proof.Proof.Val.Doubling
import Idealize.ShloMosaic.Lib.ValueIdx

noncomputable section

namespace Cert.Scaled

open Cert.Doubling Idealize.ShloMosaic Idealize.ShloMosaic.ValueIdx

/-- The doubling accumulator of slab b of M, scaled column by column by row b of s. -/
def scaledDag (M : FVec Ideal ⟨3, ![64, 1024, 1024]⟩ .bf16) (s : FVec Ideal ⟨3, ![64, 1, 1024]⟩ .f32) :
    FVec Ideal ⟨3, ![64, 1024, 1024]⟩ .bf16 :=
  fun idx => dag (fun a b => M (ix3 (n0 := 64) (idx 0) a b)) (idx 1) (idx 2) * s (ix3 (n0 := 64) (idx 0) (0 : Fin 1) (idx 2))

/-- Read at (b, i, j). -/
theorem scaledDag_apply (M : FVec Ideal ⟨3, ![64, 1024, 1024]⟩ .bf16) (s : FVec Ideal ⟨3, ![64, 1, 1024]⟩ .f32)
    (b : Fin 64) (i j : Fin 1024) :
    scaledDag M s (ix3 b i j) = dag (fun a k => M (ix3 b a k)) i j * s (ix3 b (0 : Fin 1) j) := rfl

end Cert.Scaled

end
-- ==== Proof.Val.KernelOut.lean ====
/-
  The output array of the kernel's one region, after its 64 grid points, as one function of the two arrays the
  region reads: row block t of the output is the doubling recurrence's accumulator on slab t of the adjacency
  array, each column scaled by row block t of the scale array. Grid point t reads block t of each input and
  writes block t of the output, and the 64 blocks fill the output array.
-/
import proofs.«170030_j80934363725836_1_alg».proof.Proof.KI.Data
import proofs.«170030_j80934363725836_1_alg».proof.Proof.Val.KernelBlock
import proofs.«170030_j80934363725836_1_alg».proof.Proof.Val.Scaled
import Idealize.ShloMosaic.Lib.Pipeline.Value

set_option maxRecDepth 16384

noncomputable section

namespace Cert.KernelIdeal.OutValue

open Cert.KernelIdeal Cert.KernelIdeal.Gen Cert.KernelIdeal.Hand Cert.KernelIdeal.BlockValue Cert.Doubling Cert.Scaled
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The printed index maps over the grid: point t works on block t along the leading axis, block 0 along the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 64 := by
  have h := t.isLt
  have hN : cfg0.N = 64 := N_0
  omega

/-- An element of point t's block of a 64 × 1024 × 1024 array sits at (t, i, j). -/
theorem emb0 (t : Fin cfg0.N) (i j : Fin 1024) :
    ((cfg0.win 0).blk t).view.emb (ix3 (0 : Fin 1) i j) = ix3 (n0 := 64) ⟨t.val, t_lt t⟩ i j := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 1024 + 1 * j.val = j.val; omega

theorem emb2 (t : Fin cfg0.N) (i j : Fin 1024) :
    ((cfg0.win 2).blk t).view.emb (ix3 (0 : Fin 1) i j) = ix3 (n0 := 64) ⟨t.val, t_lt t⟩ i j := by
  obtain ⟨-, -, -, -, -, -, e0, e1, e2⟩ := idx_facts t
  funext a; apply Fin.ext
  match a with
  | ⟨0, _⟩ => show win0_2.index t (0 : Fin 3) * 1 + 1 * 0 = t.val; omega
  | ⟨1, _⟩ => show win0_2.index t (1 : Fin 3) * 1024 + 1 * i.val = i.val; omega
  | ⟨2, _⟩ => show win0_2.index t (2 : Fin 3) * 1024 + 1 * j.val = j.val; omega

/-- An element of point t's block of the 64 × 1 × 1024 scale array sits at (t, 0, j). -/
theorem emb1 (t : Fin cfg0.N) (j : Fin 1024) :
    ((cfg0.win 1).blk t).view.emb (ix3 (0 : Fin 1) (0 : Fin 1) j) = ix3 (n0 := 64) ⟨t.val, t_lt t⟩ (0 : Fin 1) j := by
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 1024 + 1 * j.val = j.val; omega

/-- A block whose entries are slab b of M, with the scales of row b of s, leaves block b of the scaled accumulator. -/
theorem block_eq (x0 : FVec Ideal S1x1024x1024 .bf16) (x1 : FVec Ideal S1x1x1024 .f32)
    (M : FVec Ideal S64x1024x1024 .bf16) (s : FVec Ideal S64x1x1024 .f32) (b : Fin 64)
    (h0 : ∀ a k : Fin 1024, x0 (ix3 (0 : Fin 1) a k) = M (ix3 b a k))
    (h1 : ∀ j : Fin 1024, x1 (ix3 (0 : Fin 1) (0 : Fin 1) j) = s (ix3 b (0 : Fin 1) j))
    (i j : Fin 1024) :
    blockOut (F := Ideal) x0 x1 (ix3 (0 : Fin 1) i j) = scaledDag M s (ix3 b i j) := by
  rw [blockOut_apply, h1 j, scaledDag_apply]
  have hs : slabMat x0 = fun a k => M (ix3 b a k) := funext fun a => funext fun k => h0 a k
  rw [hs]

/-- Point t's block of a 64 × 1024 × 1024 array, entry by entry. -/
theorem read0_apply (A : FVec Ideal S64x1024x1024 .bf16) (t : Fin cfg0.N) (a k : Fin 1024) :
    ((cfg0.win 0).blk t).view.read (Elt Ideal) A (ix3 (0 : Fin 1) a k) = A (ix3 (n0 := 64) ⟨t.val, t_lt t⟩ a k) := by
  rw [View.read_apply]
  exact congrArg A (emb0 t a k)

/-- Point t's block of a 64 × 1 × 1024 array, entry by entry. -/
theorem read1_apply (A : FVec Ideal S64x1x1024 .f32) (t : Fin cfg0.N) (j : Fin 1024) :
    ((cfg0.win 1).blk t).view.read (Elt Ideal) A (ix3 (0 : Fin 1) (0 : Fin 1) j) = A (ix3 (n0 := 64) ⟨t.val, t_lt t⟩ (0 : Fin 1) j) := by
  rw [View.read_apply]
  exact congrArg A (emb1 t j)

/-- Whatever the two input arrays hold: what the body leaves from their blocks at point t is block t of the scaled
    accumulator of the arrays. -/
theorem flushed_generic (A0 : FVec Ideal S64x1024x1024 .bf16) (A1 : FVec Ideal S64x1x1024 .f32) (t : Fin cfg0.N) :
    (cfg0.win 2).cut (grid0.coords t)
        (blockOut (F := Ideal) (((cfg0.win 0).blk t).view.read (Elt Ideal) A0) (((cfg0.win 1).blk t).view.read (Elt Ideal) A1))
      = ((cfg0.win 2).blk t).view.read (Elt Ideal) (scaledDag A0 A1) := by
  refine funext fun (y : S1x1024x1024.Idx) => ?_
  obtain ⟨u, i, j, rfl⟩ : ∃ (u : Fin 1) (i j : Fin 1024), y = ix3 u i j :=
    ⟨y 0, y 1, y 2, eq_ix3 (n0 := 1) (n1 := 1024) (n2 := 1024) y⟩
  obtain rfl : u = 0 := Subsingleton.elim _ _
  show blockOut (F := Ideal) (((cfg0.win 0).blk t).view.read (Elt Ideal) A0) (((cfg0.win 1).blk t).view.read (Elt Ideal) A1) (ix3 (0 : Fin 1) i j)
    = scaledDag A0 A1 (((cfg0.win 2).blk t).view.emb (ix3 (0 : Fin 1) i j))
  exact (block_eq (((cfg0.win 0).blk t).view.read (Elt Ideal) A0) (((cfg0.win 1).blk t).view.read (Elt Ideal) A1) A0 A1 ⟨t.val, t_lt t⟩
    (read0_apply A0 t) (read1_apply A1 t) i j).trans (congrArg (scaledDag A0 A1) (emb2 t i j).symm)

/-- What grid point t writes back is block t of the scaled accumulator of the arrays the region finds. -/
theorem flushed2_eq (c : Dev nD) (t : Fin cfg0.N) :
    (dats m 0 c).flushed 2 t = ((cfg0.win 2).blk t).view.read (Elt Ideal) (scaledDag (V m c main_v84) (V m c main_v85)) := by
  show (cfg0.win 2).cut (grid0.coords t) ((dats m 0 c).after 2 t) = _
  rw [after0_2]
  unfold iblk
  generalize V m c = VV
  exact flushed_generic (VV main_v84) (VV main_v85) t

/-- An index of the output array is in point t's block iff each coordinate is in the block's range. -/
theorem mem_blk2 (t : Fin cfg0.N) (i : S64x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v86).slice (win0_2.rect t)).set ↔ _
  rw [View.set_slice_whole, Rect.mem_set_unit]
  exact Iff.rfl

/-- The 64 blocks fill the output array. -/
theorem cover2 (i : S64x1024x1024.Idx) : ∃ t : Fin cfg0.N, (cfg0.win 2).flush t = true ∧ i ∈ ((cfg0.win 2).blk t).view.set := by
  have h0 : (i 0).val < 64 := (i 0).isLt
  have h1 : (i 1).val < 1024 := (i 1).isLt
  have h2 : (i 2).val < 1024 := (i 2).isLt
  have hN : cfg0.N = 64 := N_0
  refine ⟨⟨(i 0).val, by omega⟩, flush0_2 _, ?_⟩
  rw [mem_blk2]
  obtain ⟨-, -, -, -, -, -, e0, e1, e2⟩ := idx_facts ⟨(i 0).val, by omega⟩
  intro a
  match a with
  | ⟨0, _⟩ => show win0_2.index _ (0 : Fin 3) * 1 ≤ (i 0).val ∧ (i 0).val < win0_2.index _ (0 : Fin 3) * 1 + 1; simp only [] at e0; omega
  | ⟨1, _⟩ => show win0_2.index _ (1 : Fin 3) * 1024 ≤ (i 1).val ∧ (i 1).val < win0_2.index _ (1 : Fin 3) * 1024 + 1024; omega
  | ⟨2, _⟩ => show win0_2.index _ (2 : Fin 3) * 1024 ≤ (i 2).val ∧ (i 2).val < win0_2.index _ (2 : Fin 3) * 1024 + 1024; omega

/-- The output array after the region. -/
theorem final2 (c : Dev nD) : (dats m 0 c).arrAt 2 cfg0.N = scaledDag (V m c main_v84) (V m c main_v85) :=
  (dats m 0 c).arrAt_eq_of_cover 2 _ (fun t _ => flushed2_eq m c t) cover2

end Cert.KernelIdeal.OutValue

end
-- ==== Proof.Val.Core.lean ====
/-
  The join of the two sides. The kernel's output array — for each of the 64 (graph, head) pairs the doubling
  accumulator of that pair's 1024 × 1024 slab, each column scaled — read back as an 8 × 8 × 1024 × 1024 array is the
  reference's batched accumulator times the scales: pair number 8·b + h of the flat array is pair (b, h) of the batched
  one (both arrays are row-major), and the two sides run the same recurrence on the same slab.
-/
import proofs.«170030_j80934363725836_1_alg».proof.Proof.Val.Scaled
import proofs.«170030_j80934363725836_1_alg».proof.Proof.Ref.Values
import Idealize.ShloMosaic.Lib.ValueIdx
import Idealize.ShloMosaic.Lib.Pipeline.Value

noncomputable section

namespace Cert.Core

open Cert.Doubling Idealize.ShloMosaic Idealize.ShloMosaic.ValueIdx

variable {α : Type}

/-- The flat number of the pair (b, h). -/
def pair (b h : Fin 8) : Fin 64 := ⟨b.val * 8 + h.val, by omega⟩

/-- An 8 × 8 × 1024 × 1024 array cast to 64 × 1024 × 1024 reads, at (8·b + h, a, k), the operand at (b, h, a, k). -/
theorem cast_pairs_flat (X : (⟨4, ![8, 8, 1024, 1024]⟩ : Shape).Idx → α)
    (hc : (⟨4, ![8, 8, 1024, 1024]⟩ : Shape).ShapeCasts ⟨3, ![64, 1024, 1024]⟩) (b h : Fin 8) (a k : Fin 1024) :
    shapeCast ⟨3, ![64, 1024, 1024]⟩ X hc (ix3 (pair b h) a k) = X (ix4 b h a k) :=
  shapeCast_apply X hc _ _ (by
    rw [Shape.rowMajor_val_four, Shape.rowMajor_val_three]
    rfl)

/-- A 64 × 1024 × 1024 array cast to 8 × 8 × 1024 × 1024 reads, at (b, h, i, j), the operand at (8·b + h, i, j). -/
theorem cast_flat_pairs (Y : (⟨3, ![64, 1024, 1024]⟩ : Shape).Idx → α)
    (hc : (⟨3, ![64, 1024, 1024]⟩ : Shape).ShapeCasts ⟨4, ![8, 8, 1024, 1024]⟩) (b h : Fin 8) (i j : Fin 1024) :
    shapeCast ⟨4, ![8, 8, 1024, 1024]⟩ Y hc (ix4 b h i j) = Y (ix3 (pair b h) i j) :=
  shapeCast_apply Y hc _ _ (by
    rw [Shape.rowMajor_val_four, Shape.rowMajor_val_three]
    rfl)

/-- An 8 × 8 × 1024 array cast to 64 × 1 × 1024 reads, at (8·b + h, 0, j), the operand at (b, h, j). -/
theorem cast_scales_flat (v : (⟨3, ![8, 8, 1024]⟩ : Shape).Idx → α)
    (hc : (⟨3, ![8, 8, 1024]⟩ : Shape).ShapeCasts ⟨3, ![64, 1, 1024]⟩) (b h : Fin 8) (j : Fin 1024) :
    shapeCast ⟨3, ![64, 1, 1024]⟩ v hc (ix3 (pair b h) (0 : Fin 1) j) = v (ix3 b h j) :=
  shapeCast_apply v hc _ _ (by
    rw [Shape.rowMajor_val_three, Shape.rowMajor_val_three]
    show (b.val * 8 + h.val) * 1024 + j.val = ((b.val * 8 + h.val) * 1 + 0) * 1024 + j.val
    omega)

/-- The kernel's output array, widened and read as 8 × 8 × 1024 × 1024, is the reference's scaled accumulator. -/
theorem scaled_eq (X : FVec Ideal ⟨4, ![8, 8, 1024, 1024]⟩ .f32) (v : FVec Ideal ⟨3, ![8, 8, 1024]⟩ .f32)
    (h1 : (⟨4, ![8, 8, 1024, 1024]⟩ : Shape).ShapeCasts ⟨3, ![64, 1024, 1024]⟩)
    (h2 : (⟨3, ![8, 8, 1024]⟩ : Shape).ShapeCasts ⟨3, ![64, 1, 1024]⟩)
    (h3 : (⟨3, ![64, 1024, 1024]⟩ : Shape).ShapeCasts ⟨4, ![8, 8, 1024, 1024]⟩)
    (hb : FTy.bf16.bits < FTy.f32.bits) :
    (extf .f32 (shapeCast ⟨4, ![8, 8, 1024, 1024]⟩
        (Cert.Scaled.scaledDag (truncf .bf16 (shapeCast ⟨3, ![64, 1024, 1024]⟩ X h1) hb)
          (shapeCast ⟨3, ![64, 1, 1024]⟩ v h2)) h3) hb : FVec Ideal ⟨4, ![8, 8, 1024, 1024]⟩ .f32)
      = Cert.ReferenceIdeal.Hand.scaleFn (Cert.ReferenceIdeal.Hand.dagFn X) v := by
  funext idx
  obtain ⟨b, h, i, j, rfl⟩ : ∃ (b h : Fin 8) (i j : Fin 1024), idx = ix4 b h i j :=
    ⟨idx 0, idx 1, idx 2, idx 3, eq_ix4 idx⟩
  rw [Cert.ReferenceIdeal.Hand.scaleFn_apply, Cert.ReferenceIdeal.Hand.dagFn_apply]
  show shapeCast ⟨4, ![8, 8, 1024, 1024]⟩ (Cert.Scaled.scaledDag
      (truncf .bf16 (shapeCast ⟨3, ![64, 1024, 1024]⟩ X h1) hb) (shapeCast ⟨3, ![64, 1, 1024]⟩ v h2)) h3 (ix4 b h i j) = _
  rw [cast_flat_pairs]
  show dag (fun a k => shapeCast ⟨3, ![64, 1024, 1024]⟩ X h1 (ix3 (pair b h) a k)) i j
      * shapeCast ⟨3, ![64, 1, 1024]⟩ v h2 (ix3 (pair b h) (0 : Fin 1) j) = _
  rw [cast_scales_flat]
  have hX : (fun a k => shapeCast ⟨3, ![64, 1024, 1024]⟩ X h1 (ix3 (pair b h) a k)) = fun a k => X (ix4 b h a k) :=
    funext fun a => funext fun k => cast_pairs_flat X h1 b h a k
  rw [hX]

end Cert.Core

end
-- ==== Proof.Val.PreAgree.lean ====
/- The two programs compute the same prefix: the kernel program's host operations before its region and the
   reference's operations through the transpose %82 are the same operations in the same order over their own buffers,
   so from equal arguments they leave equal contents in the buffers the rest reads — the transposed normalised
   adjacency %82, the per-column scale %11, and the three reshaped operands %3, %2, %1. The kernel program then only
   re-lays %82 (rounded to sixteen bits) and %11 out as the region's two input arrays. -/
import proofs.«170030_j80934363725836_1_alg».proof.Proof.Gen.KernelIdeal.Launch
import proofs.«170030_j80934363725836_1_alg».proof.Proof.Ref.Run

noncomputable section

namespace Cert.PreAgree

open Idealize.ShloMosaic Idealize.ShloMosaic.TcCoe Idealize.SL.Sem Idealize.ShloMosaic.StableHlo

variable {F : FTy → Type} [FloatOps F]

/-- The kernel program's host operations before its region, in order. -/
abbrev kPre : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]

/-! ## The shared prefix -/

set_option maxRecDepth 8192 in
set_option maxHeartbeats 1000000 in
/-- From equal arguments the two prefixes leave equal contents in %11. -/
theorem pre_v11 (VK : Valuation Cert.KernelIdeal.τ Cert.KernelIdeal.sig (Elt F)) (VR : Valuation Cert.ReferenceIdeal.τ Cert.ReferenceIdeal.sig (Elt F))
    (a0 : (⟨Cert.ReferenceIdeal.S8192x128, .f32⟩ : BufTy).Contents (Elt F)) (a1 : (⟨Cert.ReferenceIdeal.S8192x64, .f32⟩ : BufTy).Contents (Elt F)) (a2 : (⟨Cert.ReferenceIdeal.S8192x64, .f32⟩ : BufTy).Contents (Elt F)) (a3 : (⟨Cert.ReferenceIdeal.S8192x32, .f32⟩ : BufTy).Contents (Elt F)) (a4 : (⟨Cert.ReferenceIdeal.S8, .f32⟩ : BufTy).Contents (Elt F)) (a5 : (⟨Cert.ReferenceIdeal.S8, .f32⟩ : BufTy).Contents (Elt F)) (a6 : (⟨Cert.ReferenceIdeal.S2x131072, .i32⟩ : BufTy).Contents (Elt F))
    (hK0 : VK (Proc.devRef .tc Cert.KernelIdeal.main_arg0) = a0) (hK1 : VK (Proc.devRef .tc Cert.KernelIdeal.main_arg1) = a1) (hK2 : VK (Proc.devRef .tc Cert.KernelIdeal.main_arg2) = a2) (hK3 : VK (Proc.devRef .tc Cert.KernelIdeal.main_arg3) = a3) (hK4 : VK (Proc.devRef .tc Cert.KernelIdeal.main_arg4) = a4) (hK5 : VK (Proc.devRef .tc Cert.KernelIdeal.main_arg5) = a5) (hK6 : VK (Proc.devRef .tc Cert.KernelIdeal.main_arg6) = a6)
    (hR0 : VR (Proc.devRef .tc Cert.ReferenceIdeal.main_arg0) = a0) (hR1 : VR (Proc.devRef .tc Cert.ReferenceIdeal.main_arg1) = a1) (hR2 : VR (Proc.devRef .tc Cert.ReferenceIdeal.main_arg2) = a2) (hR3 : VR (Proc.devRef .tc Cert.ReferenceIdeal.main_arg3) = a3) (hR4 : VR (Proc.devRef .tc Cert.ReferenceIdeal.main_arg4) = a4) (hR5 : VR (Proc.devRef .tc Cert.ReferenceIdeal.main_arg5) = a5) (hR6 : VR (Proc.devRef .tc Cert.ReferenceIdeal.main_arg6) = a6) :
    after kPre VK (Proc.devRef .tc Cert.KernelIdeal.main_v11) = after Cert.ReferenceIdeal.Hand.opsPre VR (Proc.devRef .tc Cert.ReferenceIdeal.main_v11) := by
  simp only [kPre, Cert.ReferenceIdeal.Hand.opsPre, List.flatten_cons, List.flatten_nil, List.append_nil, Cert.ReferenceIdeal.Hand.after_append]
  after_results_simp
  simp only [hK0, hK1, hK2, hK3, hK4, hK5, hK6, hR0, hR1, hR2, hR3, hR4, hR5, hR6]
  rfl

set_option maxRecDepth 8192 in
set_option maxHeartbeats 1000000 in
/-- From equal arguments the two prefixes leave equal contents in %3. -/
theorem pre_v3 (VK : Valuation Cert.KernelIdeal.τ Cert.KernelIdeal.sig (Elt F)) (VR : Valuation Cert.ReferenceIdeal.τ Cert.ReferenceIdeal.sig (Elt F))
    (a0 : (⟨Cert.ReferenceIdeal.S8192x128, .f32⟩ : BufTy).Contents (Elt F)) (a1 : (⟨Cert.ReferenceIdeal.S8192x64, .f32⟩ : BufTy).Contents (Elt F)) (a2 : (⟨Cert.ReferenceIdeal.S8192x64, .f32⟩ : BufTy).Contents (Elt F)) (a3 : (⟨Cert.ReferenceIdeal.S8192x32, .f32⟩ : BufTy).Contents (Elt F)) (a4 : (⟨Cert.ReferenceIdeal.S8, .f32⟩ : BufTy).Contents (Elt F)) (a5 : (⟨Cert.ReferenceIdeal.S8, .f32⟩ : BufTy).Contents (Elt F)) (a6 : (⟨Cert.ReferenceIdeal.S2x131072, .i32⟩ : BufTy).Contents (Elt F))
    (hK0 : VK (Proc.devRef .tc Cert.KernelIdeal.main_arg0) = a0) (hK1 : VK (Proc.devRef .tc Cert.KernelIdeal.main_arg1) = a1) (hK2 : VK (Proc.devRef .tc Cert.KernelIdeal.main_arg2) = a2) (hK3 : VK (Proc.devRef .tc Cert.KernelIdeal.main_arg3) = a3) (hK4 : VK (Proc.devRef .tc Cert.KernelIdeal.main_arg4) = a4) (hK5 : VK (Proc.devRef .tc Cert.KernelIdeal.main_arg5) = a5) (hK6 : VK (Proc.devRef .tc Cert.KernelIdeal.main_arg6) = a6)
    (hR0 : VR (Proc.devRef .tc Cert.ReferenceIdeal.main_arg0) = a0) (hR1 : VR (Proc.devRef .tc Cert.ReferenceIdeal.main_arg1) = a1) (hR2 : VR (Proc.devRef .tc Cert.ReferenceIdeal.main_arg2) = a2) (hR3 : VR (Proc.devRef .tc Cert.ReferenceIdeal.main_arg3) = a3) (hR4 : VR (Proc.devRef .tc Cert.ReferenceIdeal.main_arg4) = a4) (hR5 : VR (Proc.devRef .tc Cert.ReferenceIdeal.main_arg5) = a5) (hR6 : VR (Proc.devRef .tc Cert.ReferenceIdeal.main_arg6) = a6) :
    after kPre VK (Proc.devRef .tc Cert.KernelIdeal.main_v3) = after Cert.ReferenceIdeal.Hand.opsPre VR (Proc.devRef .tc Cert.ReferenceIdeal.main_v3) := by
  simp only [kPre, Cert.ReferenceIdeal.Hand.opsPre, List.flatten_cons, List.flatten_nil, List.append_nil, Cert.ReferenceIdeal.Hand.after_append]
  after_results_simp
  simp only [hK0, hK1, hK2, hK3, hK4, hK5, hK6, hR0, hR1, hR2, hR3, hR4, hR5, hR6]
  rfl

set_option maxRecDepth 8192 in
set_option maxHeartbeats 1000000 in
/-- From equal arguments the two prefixes leave equal contents in %2. -/
theorem pre_v2 (VK : Valuation Cert.KernelIdeal.τ Cert.KernelIdeal.sig (Elt F)) (VR : Valuation Cert.ReferenceIdeal.τ Cert.ReferenceIdeal.sig (Elt F))
    (a0 : (⟨Cert.ReferenceIdeal.S8192x128, .f32⟩ : BufTy).Contents (Elt F)) (a1 : (⟨Cert.ReferenceIdeal.S8192x64, .f32⟩ : BufTy).Contents (Elt F)) (a2 : (⟨Cert.ReferenceIdeal.S8192x64, .f32⟩ : BufTy).Contents (Elt F)) (a3 : (⟨Cert.ReferenceIdeal.S8192x32, .f32⟩ : BufTy).Contents (Elt F)) (a4 : (⟨Cert.ReferenceIdeal.S8, .f32⟩ : BufTy).Contents (Elt F)) (a5 : (⟨Cert.ReferenceIdeal.S8, .f32⟩ : BufTy).Contents (Elt F)) (a6 : (⟨Cert.ReferenceIdeal.S2x131072, .i32⟩ : BufTy).Contents (Elt F))
    (hK0 : VK (Proc.devRef .tc Cert.KernelIdeal.main_arg0) = a0) (hK1 : VK (Proc.devRef .tc Cert.KernelIdeal.main_arg1) = a1) (hK2 : VK (Proc.devRef .tc Cert.KernelIdeal.main_arg2) = a2) (hK3 : VK (Proc.devRef .tc Cert.KernelIdeal.main_arg3) = a3) (hK4 : VK (Proc.devRef .tc Cert.KernelIdeal.main_arg4) = a4) (hK5 : VK (Proc.devRef .tc Cert.KernelIdeal.main_arg5) = a5) (hK6 : VK (Proc.devRef .tc Cert.KernelIdeal.main_arg6) = a6)
    (hR0 : VR (Proc.devRef .tc Cert.ReferenceIdeal.main_arg0) = a0) (hR1 : VR (Proc.devRef .tc Cert.ReferenceIdeal.main_arg1) = a1) (hR2 : VR (Proc.devRef .tc Cert.ReferenceIdeal.main_arg2) = a2) (hR3 : VR (Proc.devRef .tc Cert.ReferenceIdeal.main_arg3) = a3) (hR4 : VR (Proc.devRef .tc Cert.ReferenceIdeal.main_arg4) = a4) (hR5 : VR (Proc.devRef .tc Cert.ReferenceIdeal.main_arg5) = a5) (hR6 : VR (Proc.devRef .tc Cert.ReferenceIdeal.main_arg6) = a6) :
    after kPre VK (Proc.devRef .tc Cert.KernelIdeal.main_v2) = after Cert.ReferenceIdeal.Hand.opsPre VR (Proc.devRef .tc Cert.ReferenceIdeal.main_v2) := by
  simp only [kPre, Cert.ReferenceIdeal.Hand.opsPre, List.flatten_cons, List.flatten_nil, List.append_nil, Cert.ReferenceIdeal.Hand.after_append]
  after_results_simp
  simp only [hK0, hK1, hK2, hK3, hK4, hK5, hK6, hR0, hR1, hR2, hR3, hR4, hR5, hR6]
  rfl

set_option maxRecDepth 8192 in
set_option maxHeartbeats 1000000 in
/-- From equal arguments the two prefixes leave equal contents in %1. -/
theorem pre_v1 (VK : Valuation Cert.KernelIdeal.τ Cert.KernelIdeal.sig (Elt F)) (VR : Valuation Cert.ReferenceIdeal.τ Cert.ReferenceIdeal.sig (Elt F))
    (a0 : (⟨Cert.ReferenceIdeal.S8192x128, .f32⟩ : BufTy).Contents (Elt F)) (a1 : (⟨Cert.ReferenceIdeal.S8192x64, .f32⟩ : BufTy).Contents (Elt F)) (a2 : (⟨Cert.ReferenceIdeal.S8192x64, .f32⟩ : BufTy).Contents (Elt F)) (a3 : (⟨Cert.ReferenceIdeal.S8192x32, .f32⟩ : BufTy).Contents (Elt F)) (a4 : (⟨Cert.ReferenceIdeal.S8, .f32⟩ : BufTy).Contents (Elt F)) (a5 : (⟨Cert.ReferenceIdeal.S8, .f32⟩ : BufTy).Contents (Elt F)) (a6 : (⟨Cert.ReferenceIdeal.S2x131072, .i32⟩ : BufTy).Contents (Elt F))
    (hK0 : VK (Proc.devRef .tc Cert.KernelIdeal.main_arg0) = a0) (hK1 : VK (Proc.devRef .tc Cert.KernelIdeal.main_arg1) = a1) (hK2 : VK (Proc.devRef .tc Cert.KernelIdeal.main_arg2) = a2) (hK3 : VK (Proc.devRef .tc Cert.KernelIdeal.main_arg3) = a3) (hK4 : VK (Proc.devRef .tc Cert.KernelIdeal.main_arg4) = a4) (hK5 : VK (Proc.devRef .tc Cert.KernelIdeal.main_arg5) = a5) (hK6 : VK (Proc.devRef .tc Cert.KernelIdeal.main_arg6) = a6)
    (hR0 : VR (Proc.devRef .tc Cert.ReferenceIdeal.main_arg0) = a0) (hR1 : VR (Proc.devRef .tc Cert.ReferenceIdeal.main_arg1) = a1) (hR2 : VR (Proc.devRef .tc Cert.ReferenceIdeal.main_arg2) = a2) (hR3 : VR (Proc.devRef .tc Cert.ReferenceIdeal.main_arg3) = a3) (hR4 : VR (Proc.devRef .tc Cert.ReferenceIdeal.main_arg4) = a4) (hR5 : VR (Proc.devRef .tc Cert.ReferenceIdeal.main_arg5) = a5) (hR6 : VR (Proc.devRef .tc Cert.ReferenceIdeal.main_arg6) = a6) :
    after kPre VK (Proc.devRef .tc Cert.KernelIdeal.main_v1) = after Cert.ReferenceIdeal.Hand.opsPre VR (Proc.devRef .tc Cert.ReferenceIdeal.main_v1) := by
  simp only [kPre, Cert.ReferenceIdeal.Hand.opsPre, List.flatten_cons, List.flatten_nil, List.append_nil, Cert.ReferenceIdeal.Hand.after_append]
  after_results_simp
  simp only [hK0, hK1, hK2, hK3, hK4, hK5, hK6, hR0, hR1, hR2, hR3, hR4, hR5, hR6]
  rfl

/-! ## The kernel program's two input arrays -/

set_option maxRecDepth 8192 in
set_option maxHeartbeats 1000000 in
/-- The region's first input array is %82 flattened to 64 slices and rounded to sixteen bits. -/
theorem v84_eq (VK : Valuation Cert.KernelIdeal.τ Cert.KernelIdeal.sig (Elt F)) :
    after kPre VK (Proc.devRef .tc Cert.KernelIdeal.main_v84)
      = truncf .bf16 (shapeCast Cert.KernelIdeal.S64x1024x1024 (after kPre VK (Proc.devRef .tc Cert.KernelIdeal.main_v82))
          Cert.KernelIdeal.Gen.shapeCasts_S8x8x1024x1024_S64x1024x1024) Cert.KernelIdeal.Gen.bitsLt_bf16_f32 := by
  simp only [kPre, List.flatten_cons, List.flatten_nil, List.append_nil, Cert.ReferenceIdeal.Hand.after_append]
  after_results_simp
  rfl

set_option maxRecDepth 8192 in
set_option maxHeartbeats 1000000 in
/-- The region's second input array is the per-column scale %11 flattened to 64 rows. -/
theorem v85_eq (VK : Valuation Cert.KernelIdeal.τ Cert.KernelIdeal.sig (Elt F)) :
    after kPre VK (Proc.devRef .tc Cert.KernelIdeal.main_v85)
      = shapeCast Cert.KernelIdeal.S64x1x1024 (after kPre VK (Proc.devRef .tc Cert.KernelIdeal.main_v11))
          Cert.KernelIdeal.Gen.shapeCasts_S8x8x1024_S64x1x1024 := by
  simp only [kPre, List.flatten_cons, List.flatten_nil, List.append_nil, Cert.ReferenceIdeal.Hand.after_append]
  after_results_simp
  rfl

end Cert.PreAgree

end
-- ==== Proof.Val.PreAgree82.lean ====
/- The two programs' prefixes leave equal contents in the transposed normalised adjacency %82, from equal arguments.
   The prefix is written once as a pure function of arguments 3, 4 and 6, in pieces: the negated softplus %16, the two
   index rows %18 and %20, the gathered weights %43, the three scatter coordinates %44, %45, %46, the scattered adjacency
   %68, and the row normalisation with the transpose %82. Each program's operations are read back, stretch by stretch,
   as those pieces; the stretches composed give the same function on both sides. -/
import proofs.«170030_j80934363725836_1_alg».proof.Proof.Val.PreAgree

set_option Elab.async false

noncomputable section

namespace Cert.PreAgree

open Idealize.ShloMosaic Idealize.ShloMosaic.TcCoe Idealize.SL.Sem Idealize.ShloMosaic.StableHlo

variable {F : FTy → Type} [FloatOps F]

/-! ## The prefix as pure functions -/

section Pure
open Cert.ReferenceIdeal Cert.ReferenceIdeal.Gen

/-- The negated softplus of the three leading feature rows plus the per-head offset (%0 … %16 on arguments 3 and 4). -/
def v16Fn (a3 : FVec F S8192x32 .f32) (a4 : FVec F S8 .f32) : FVec F S3x8x8192 .f32 :=
  (Host.negf (select ((cmpf .une) (subf (addf (extractStridedSlice S3x8x8192 ![0, 0, 0] (transpose S4x8x8192 [2, 1, 0] (shapeCast S8192x8x4 a3 shapeCasts_S8192x32_S8192x8x4) transposes_S8192x8x4_S4x8x8192_2_1_0) slices_S4x8x8192_S3x8x8192_0_0_0) (broadcastInDim S3x8x8192 ![0, 1, 2] bcast_S1x8x1_S3x8x8192_0_1_2 (broadcastInDim S1x8x1 ![1] bcast_S8_S1x8x1_1 a4))) ((broadcastInDim S3x8x8192 ![] bcast_S_S3x8x8192) (constant S_ .f32 0x00000000#32))) (subf (addf (extractStridedSlice S3x8x8192 ![0, 0, 0] (transpose S4x8x8192 [2, 1, 0] (shapeCast S8192x8x4 a3 shapeCasts_S8192x32_S8192x8x4) transposes_S8192x8x4_S4x8x8192_2_1_0) slices_S4x8x8192_S3x8x8192_0_0_0) (broadcastInDim S3x8x8192 ![0, 1, 2] bcast_S1x8x1_S3x8x8192_0_1_2 (broadcastInDim S1x8x1 ![1] bcast_S8_S1x8x1_1 a4))) ((broadcastInDim S3x8x8192 ![] bcast_S_S3x8x8192) (constant S_ .f32 0x00000000#32)))) (addf (addf (extractStridedSlice S3x8x8192 ![0, 0, 0] (transpose S4x8x8192 [2, 1, 0] (shapeCast S8192x8x4 a3 shapeCasts_S8192x32_S8192x8x4) transposes_S8192x8x4_S4x8x8192_2_1_0) slices_S4x8x8192_S3x8x8192_0_0_0) (broadcastInDim S3x8x8192 ![0, 1, 2] bcast_S1x8x1_S3x8x8192_0_1_2 (broadcastInDim S1x8x1 ![1] bcast_S8_S1x8x1_1 a4))) ((broadcastInDim S3x8x8192 ![] bcast_S_S3x8x8192) (constant S_ .f32 0x00000000#32))) (addf (maximumf (addf (extractStridedSlice S3x8x8192 ![0, 0, 0] (transpose S4x8x8192 [2, 1, 0] (shapeCast S8192x8x4 a3 shapeCasts_S8192x32_S8192x8x4) transposes_S8192x8x4_S4x8x8192_2_1_0) slices_S4x8x8192_S3x8x8192_0_0_0) (broadcastInDim S3x8x8192 ![0, 1, 2] bcast_S1x8x1_S3x8x8192_0_1_2 (broadcastInDim S1x8x1 ![1] bcast_S8_S1x8x1_1 a4))) ((broadcastInDim S3x8x8192 ![] bcast_S_S3x8x8192) (constant S_ .f32 0x00000000#32))) (Host.log1p (Host.exp (Host.negf (Host.absf (subf (addf (extractStridedSlice S3x8x8192 ![0, 0, 0] (transpose S4x8x8192 [2, 1, 0] (shapeCast S8192x8x4 a3 shapeCasts_S8192x32_S8192x8x4) transposes_S8192x8x4_S4x8x8192_2_1_0) slices_S4x8x8192_S3x8x8192_0_0_0) (broadcastInDim S3x8x8192 ![0, 1, 2] bcast_S1x8x1_S3x8x8192_0_1_2 (broadcastInDim S1x8x1 ![1] bcast_S8_S1x8x1_1 a4))) ((broadcastInDim S3x8x8192 ![] bcast_S_S3x8x8192) (constant S_ .f32 0x00000000#32))))))))))

/-- The two rows of the edge table (%17 … %20). -/
def v18Fn (a6 : IVec S2x131072 32) : IVec S131072 32 :=
  (shapeCast S131072 (extractStridedSlice S1x131072 ![0, 0] a6 slices_S2x131072_S1x131072_0_0) shapeCasts_S1x131072_S131072)
def v20Fn (a6 : IVec S2x131072 32) : IVec S131072 32 :=
  (shapeCast S131072 (extractStridedSlice S1x131072 ![1, 0] a6 slices_S2x131072_S1x131072_1_0) shapeCasts_S1x131072_S131072)

/-- The edge weights: the two gathered rows added, halved, exponentiated, transposed (%21 … %43). -/
def v43Fn (x16 : FVec F S3x8x8192 .f32) (x18 x20 : IVec S131072 32) : FVec F S131072x8 .f32 :=
  (transpose S131072x8 [1, 0] (Host.exp (mulf (addf (Host.gather gather_S8x8192_S131072x1_S8x131072_0_1_n_n_1_1_81 (shapeCast S8x8192 (extractStridedSlice S1x8x8192 ![0, 0, 0] x16 slices_S3x8x8192_S1x8x8192_0_0_0) shapeCasts_S1x8x8192_S8x8192) (broadcastInDim S131072x1 ![0] bcast_S131072_S131072x1_0 (select (cmpi .slt x18 (broadcastInDim S131072 ![] bcast_S_S131072 (constantI S_ 32 0#32))) (addi x18 (broadcastInDim S131072 ![] bcast_S_S131072 (constantI S_ 32 8192#32))) x18))) (Host.gather gather_S8x8192_S131072x1_S8x131072_0_1_n_n_1_1_81 (shapeCast S8x8192 (extractStridedSlice S1x8x8192 ![1, 0, 0] x16 slices_S3x8x8192_S1x8x8192_1_0_0) shapeCasts_S1x8x8192_S8x8192) (broadcastInDim S131072x1 ![0] bcast_S131072_S131072x1_0 (select (cmpi .slt x20 (broadcastInDim S131072 ![] bcast_S_S131072 (constantI S_ 32 0#32))) (addi x20 (broadcastInDim S131072 ![] bcast_S_S131072 (constantI S_ 32 8192#32))) x20)))) (broadcastInDim S8x131072 ![] bcast_S_S8x131072 (constant S_ .f32 0x3F000000#32)))) transposes_S8x131072_S131072x8_1_0)

/-- The three scatter coordinates: the floored quotient and the two remainders by 1024 (%44, %45, %46). -/
def v44Fn (x18 : IVec S131072 32) (c3 : IVec S_ 32) : IVec S131072 32 :=
  (select (andi ((cmpi .ne) (signi x18) ((broadcastInDim S131072 ![] bcast_S_S131072) (signi c3))) ((cmpi .ne) (Host.remsi x18 ((broadcastInDim S131072 ![] bcast_S_S131072) c3)) ((broadcastInDim S131072 ![] bcast_S_S131072) (constantI S_ 32 0#32)))) (subi (Host.divsi x18 ((broadcastInDim S131072 ![] bcast_S_S131072) c3)) ((broadcastInDim S131072 ![] bcast_S_S131072) (constantI S_ 32 1#32))) (Host.divsi x18 ((broadcastInDim S131072 ![] bcast_S_S131072) c3)))
def v45Fn (x18 : IVec S131072 32) : IVec S131072 32 :=
  (select (andi ((cmpi .ne) ((cmpi .slt) (Host.remsi x18 ((broadcastInDim S131072 ![] bcast_S_S131072) (select ((cmpi .eq) (constantI S_ 32 1024#32) (constantI S_ 32 0#32)) (constantI S_ 32 1#32) (constantI S_ 32 1024#32)))) ((broadcastInDim S131072 ![] bcast_S_S131072) (constantI S_ 32 0#32))) ((broadcastInDim S131072 ![] bcast_S_S131072) ((cmpi .slt) (select ((cmpi .eq) (constantI S_ 32 1024#32) (constantI S_ 32 0#32)) (constantI S_ 32 1#32) (constantI S_ 32 1024#32)) (constantI S_ 32 0#32)))) ((cmpi .ne) (Host.remsi x18 ((broadcastInDim S131072 ![] bcast_S_S131072) (select ((cmpi .eq) (constantI S_ 32 1024#32) (constantI S_ 32 0#32)) (constantI S_ 32 1#32) (constantI S_ 32 1024#32)))) ((broadcastInDim S131072 ![] bcast_S_S131072) (constantI S_ 32 0#32)))) (addi (Host.remsi x18 ((broadcastInDim S131072 ![] bcast_S_S131072) (select ((cmpi .eq) (constantI S_ 32 1024#32) (constantI S_ 32 0#32)) (constantI S_ 32 1#32) (constantI S_ 32 1024#32)))) ((broadcastInDim S131072 ![] bcast_S_S131072) (select ((cmpi .eq) (constantI S_ 32 1024#32) (constantI S_ 32 0#32)) (constantI S_ 32 1#32) (constantI S_ 32 1024#32)))) (Host.remsi x18 ((broadcastInDim S131072 ![] bcast_S_S131072) (select ((cmpi .eq) (constantI S_ 32 1024#32) (constantI S_ 32 0#32)) (constantI S_ 32 1#32) (constantI S_ 32 1024#32)))))
def v46Fn (x20 : IVec S131072 32) : IVec S131072 32 :=
  (select (andi ((cmpi .ne) ((cmpi .slt) (Host.remsi x20 ((broadcastInDim S131072 ![] bcast_S_S131072) (select ((cmpi .eq) (constantI S_ 32 1024#32) (constantI S_ 32 0#32)) (constantI S_ 32 1#32) (constantI S_ 32 1024#32)))) ((broadcastInDim S131072 ![] bcast_S_S131072) (constantI S_ 32 0#32))) ((broadcastInDim S131072 ![] bcast_S_S131072) ((cmpi .slt) (select ((cmpi .eq) (constantI S_ 32 1024#32) (constantI S_ 32 0#32)) (constantI S_ 32 1#32) (constantI S_ 32 1024#32)) (constantI S_ 32 0#32)))) ((cmpi .ne) (Host.remsi x20 ((broadcastInDim S131072 ![] bcast_S_S131072) (select ((cmpi .eq) (constantI S_ 32 1024#32) (constantI S_ 32 0#32)) (constantI S_ 32 1#32) (constantI S_ 32 1024#32)))) ((broadcastInDim S131072 ![] bcast_S_S131072) (constantI S_ 32 0#32)))) (addi (Host.remsi x20 ((broadcastInDim S131072 ![] bcast_S_S131072) (select ((cmpi .eq) (constantI S_ 32 1024#32) (constantI S_ 32 0#32)) (constantI S_ 32 1#32) (constantI S_ 32 1024#32)))) ((broadcastInDim S131072 ![] bcast_S_S131072) (select ((cmpi .eq) (constantI S_ 32 1024#32) (constantI S_ 32 0#32)) (constantI S_ 32 1#32) (constantI S_ 32 1024#32)))) (Host.remsi x20 ((broadcastInDim S131072 ![] bcast_S_S131072) (select ((cmpi .eq) (constantI S_ 32 1024#32) (constantI S_ 32 0#32)) (constantI S_ 32 1#32) (constantI S_ 32 1024#32)))))

/-- The adjacency: the weights scatter-added at the wrapped coordinates, heads brought forward (%47 … %68). -/
def v68Fn (x43 : FVec F S131072x8 .f32) (x44 x45 x46 : IVec S131072 32) : FVec F S8x8x1024x1024 .f32 :=
  (transpose S8x8x1024x1024 [0, 3, 1, 2] (Host.scatterAdd scatter_S8x1024x1024x8_S131072x3_S131072x8_1_012_012_1 (broadcastInDim S8x1024x1024x8 ![] bcast_S_S8x1024x1024x8 (constant S_ .f32 0x00000000#32)) (concatenate S131072x3 1 [⟨S131072x1, (broadcastInDim S131072x1 ![0] bcast_S131072_S131072x1_0 (select (cmpi .slt x44 (broadcastInDim S131072 ![] bcast_S_S131072 (constantI S_ 32 0#32))) (addi x44 (broadcastInDim S131072 ![] bcast_S_S131072 (constantI S_ 32 8#32))) x44))⟩, ⟨S131072x1, (broadcastInDim S131072x1 ![0] bcast_S131072_S131072x1_0 (select (cmpi .slt x45 (broadcastInDim S131072 ![] bcast_S_S131072 (constantI S_ 32 0#32))) (addi x45 (broadcastInDim S131072 ![] bcast_S_S131072 (constantI S_ 32 1024#32))) x45))⟩, ⟨S131072x1, (broadcastInDim S131072x1 ![0] bcast_S131072_S131072x1_0 (select (cmpi .slt x46 (broadcastInDim S131072 ![] bcast_S_S131072 (constantI S_ 32 0#32))) (addi x46 (broadcastInDim S131072 ![] bcast_S_S131072 (constantI S_ 32 1024#32))) x46))⟩] concatenates_S131072x1_S131072x1_S131072x1_S131072x3_d1) x43) transposes_S8x1024x1024x8_S8x8x1024x1024_0_3_1_2)

/-- The row normalisation and the transpose (%69 … %82). -/
def v82Fn (x16 : FVec F S3x8x8192 .f32) (x68 : FVec F S8x8x1024x1024 .f32) : FVec F S8x8x1024x1024 .f32 :=
  (transpose S8x8x1024x1024 [0, 1, 3, 2] (Host.divf x68 (broadcastInDim S8x8x1024x1024 ![0, 1, 2, 3] bcast_S8x8x1024x1_S8x8x1024x1024_0_1_2_3 (addf (broadcastInDim S8x8x1024x1 ![0, 1, 2] bcast_S8x8x1024_S8x8x1024x1_0_1_2 (addf (Host.reduceAdd x68 (constant S_ .f32 0x00000000#32) reducesTo_S8x8x1024x1024_S8x8x1024_d3 h_S_) (transpose S8x8x1024 [0, 2, 1] (shapeCast S8x1024x8 (transpose S8192x8 [1, 0] (Host.exp (shapeCast S8x8192 (extractStridedSlice S1x8x8192 ![2, 0, 0] x16 slices_S3x8x8192_S1x8x8192_2_0_0) shapeCasts_S1x8x8192_S8x8192)) transposes_S8x8192_S8192x8_1_0) shapeCasts_S8192x8_S8x1024x8) transposes_S8x1024x8_S8x8x1024_0_2_1))) (broadcastInDim S8x8x1024x1 ![] bcast_S_S8x8x1024x1 (constant S_ .f32 0x3DCCCCCD#32))))) transposes_S8x8x1024x1024_S8x8x1024x1024_0_1_3_2)

/-- The transposed normalised adjacency as a function of the three arguments it depends on. -/
def pre82Fn (a3 : FVec F S8192x32 .f32) (a4 : FVec F S8 .f32) (a6 : IVec S2x131072 32) : FVec F S8x8x1024x1024 .f32 :=
  v82Fn (v16Fn a3 a4)
    (v68Fn (v43Fn (v16Fn a3 a4) (v18Fn a6) (v20Fn a6)) (v44Fn (v18Fn a6) (constantI S_ 32 1024#32)) (v45Fn (v18Fn a6)) (v46Fn (v20Fn a6)))

end Pure

/-! ## The reference's stretches -/

set_option maxRecDepth 8192 in
set_option maxHeartbeats 1000000 in
theorem r1_v16 (W : Valuation Cert.ReferenceIdeal.τ Cert.ReferenceIdeal.sig (Elt F)) :
    after Cert.ReferenceIdeal.Hand.ops_a2 (after Cert.ReferenceIdeal.Hand.ops_a1 (after Cert.ReferenceIdeal.Hand.ops_a0 W)) (Proc.devRef .tc Cert.ReferenceIdeal.main_v16)
      = v16Fn (W (Proc.devRef .tc Cert.ReferenceIdeal.main_arg3)) (W (Proc.devRef .tc Cert.ReferenceIdeal.main_arg4)) := by
  after_results_simp
  try rfl

set_option maxRecDepth 8192 in
set_option maxHeartbeats 1000000 in
theorem r1_v18 (W : Valuation Cert.ReferenceIdeal.τ Cert.ReferenceIdeal.sig (Elt F)) :
    after Cert.ReferenceIdeal.Hand.ops_a2 (after Cert.ReferenceIdeal.Hand.ops_a1 (after Cert.ReferenceIdeal.Hand.ops_a0 W)) (Proc.devRef .tc Cert.ReferenceIdeal.main_v18)
      = v18Fn (W (Proc.devRef .tc Cert.ReferenceIdeal.main_arg6)) := by
  after_results_simp
  try rfl

set_option maxRecDepth 8192 in
set_option maxHeartbeats 1000000 in
theorem r1_v20 (W : Valuation Cert.ReferenceIdeal.τ Cert.ReferenceIdeal.sig (Elt F)) :
    after Cert.ReferenceIdeal.Hand.ops_a2 (after Cert.ReferenceIdeal.Hand.ops_a1 (after Cert.ReferenceIdeal.Hand.ops_a0 W)) (Proc.devRef .tc Cert.ReferenceIdeal.main_v20)
      = v20Fn (W (Proc.devRef .tc Cert.ReferenceIdeal.main_arg6)) := by
  after_results_simp
  try rfl

set_option maxRecDepth 8192 in
set_option maxHeartbeats 1000000 in
theorem r1_v43 (W : Valuation Cert.ReferenceIdeal.τ Cert.ReferenceIdeal.sig (Elt F)) :
    after Cert.ReferenceIdeal.Hand.ops_a2 (after Cert.ReferenceIdeal.Hand.ops_a1 (after Cert.ReferenceIdeal.Hand.ops_a0 W)) (Proc.devRef .tc Cert.ReferenceIdeal.main_v43)
      = v43Fn (v16Fn (W (Proc.devRef .tc Cert.ReferenceIdeal.main_arg3)) (W (Proc.devRef .tc Cert.ReferenceIdeal.main_arg4))) (v18Fn (W (Proc.devRef .tc Cert.ReferenceIdeal.main_arg6))) (v20Fn (W (Proc.devRef .tc Cert.ReferenceIdeal.main_arg6))) := by
  after_results_simp
  try rfl

set_option maxRecDepth 8192 in
set_option maxHeartbeats 1000000 in
theorem r1_c_3 (W : Valuation Cert.ReferenceIdeal.τ Cert.ReferenceIdeal.sig (Elt F)) :
    after Cert.ReferenceIdeal.Hand.ops_a2 (after Cert.ReferenceIdeal.Hand.ops_a1 (after Cert.ReferenceIdeal.Hand.ops_a0 W)) (Proc.devRef .tc Cert.ReferenceIdeal.main_c_3)
      = constantI Cert.ReferenceIdeal.S_ 32 1024#32 := by
  after_results_simp
  try rfl

set_option maxRecDepth 8192 in
set_option maxHeartbeats 1000000 in
theorem r2_v44 (W : Valuation Cert.ReferenceIdeal.τ Cert.ReferenceIdeal.sig (Elt F)) :
    after Cert.ReferenceIdeal.Hand.ops_a7 (after Cert.ReferenceIdeal.Hand.ops_a6 (after Cert.ReferenceIdeal.Hand.ops_a5 (after Cert.ReferenceIdeal.Hand.ops_a4 (after Cert.ReferenceIdeal.Hand.ops_a3 W)))) (Proc.devRef .tc Cert.ReferenceIdeal.main_v44)
      = v44Fn (W (Proc.devRef .tc Cert.ReferenceIdeal.main_v18)) (W (Proc.devRef .tc Cert.ReferenceIdeal.main_c_3)) := by
  after_results_simp
  try rfl

set_option maxRecDepth 8192 in
set_option maxHeartbeats 1000000 in
theorem r2_v45 (W : Valuation Cert.ReferenceIdeal.τ Cert.ReferenceIdeal.sig (Elt F)) :
    after Cert.ReferenceIdeal.Hand.ops_a7 (after Cert.ReferenceIdeal.Hand.ops_a6 (after Cert.ReferenceIdeal.Hand.ops_a5 (after Cert.ReferenceIdeal.Hand.ops_a4 (after Cert.ReferenceIdeal.Hand.ops_a3 W)))) (Proc.devRef .tc Cert.ReferenceIdeal.main_v45)
      = v45Fn (W (Proc.devRef .tc Cert.ReferenceIdeal.main_v18)) := by
  after_results_simp
  try rfl

set_option maxRecDepth 8192 in
set_option maxHeartbeats 1000000 in
theorem r2_v46 (W : Valuation Cert.ReferenceIdeal.τ Cert.ReferenceIdeal.sig (Elt F)) :
    after Cert.ReferenceIdeal.Hand.ops_a7 (after Cert.ReferenceIdeal.Hand.ops_a6 (after Cert.ReferenceIdeal.Hand.ops_a5 (after Cert.ReferenceIdeal.Hand.ops_a4 (after Cert.ReferenceIdeal.Hand.ops_a3 W)))) (Proc.devRef .tc Cert.ReferenceIdeal.main_v46)
      = v46Fn (W (Proc.devRef .tc Cert.ReferenceIdeal.main_v20)) := by
  after_results_simp
  try rfl

set_option maxRecDepth 8192 in
set_option maxHeartbeats 1000000 in
theorem r2_v16 (W : Valuation Cert.ReferenceIdeal.τ Cert.ReferenceIdeal.sig (Elt F)) :
    after Cert.ReferenceIdeal.Hand.ops_a7 (after Cert.ReferenceIdeal.Hand.ops_a6 (after Cert.ReferenceIdeal.Hand.ops_a5 (after Cert.ReferenceIdeal.Hand.ops_a4 (after Cert.ReferenceIdeal.Hand.ops_a3 W)))) (Proc.devRef .tc Cert.ReferenceIdeal.main_v16)
      = W (Proc.devRef .tc Cert.ReferenceIdeal.main_v16) := by
  after_results_simp
  try rfl

set_option maxRecDepth 8192 in
set_option maxHeartbeats 1000000 in
theorem r2_v43 (W : Valuation Cert.ReferenceIdeal.τ Cert.ReferenceIdeal.sig (Elt F)) :
    after Cert.ReferenceIdeal.Hand.ops_a7 (after Cert.ReferenceIdeal.Hand.ops_a6 (after Cert.ReferenceIdeal.Hand.ops_a5 (after Cert.ReferenceIdeal.Hand.ops_a4 (after Cert.ReferenceIdeal.Hand.ops_a3 W)))) (Proc.devRef .tc Cert.ReferenceIdeal.main_v43)
      = W (Proc.devRef .tc Cert.ReferenceIdeal.main_v43) := by
  after_results_simp
  try rfl

set_option maxRecDepth 8192 in
set_option maxHeartbeats 1000000 in
theorem r3_v82 (W : Valuation Cert.ReferenceIdeal.τ Cert.ReferenceIdeal.sig (Elt F)) :
    after Cert.ReferenceIdeal.Hand.ops_b0 (after Cert.ReferenceIdeal.Hand.ops_a8 W) (Proc.devRef .tc Cert.ReferenceIdeal.main_v82)
      = v82Fn (W (Proc.devRef .tc Cert.ReferenceIdeal.main_v16)) (v68Fn (W (Proc.devRef .tc Cert.ReferenceIdeal.main_v43)) (W (Proc.devRef .tc Cert.ReferenceIdeal.main_v44)) (W (Proc.devRef .tc Cert.ReferenceIdeal.main_v45)) (W (Proc.devRef .tc Cert.ReferenceIdeal.main_v46))) := by
  after_results_simp
  try rfl

/-! ## The kernel program's stretches -/

set_option maxRecDepth 8192 in
set_option maxHeartbeats 1000000 in
theorem k1_v16 (W : Valuation Cert.KernelIdeal.τ Cert.KernelIdeal.sig (Elt F)) :
    after Cert.KernelIdeal.Gen.hostOps0_2 (after Cert.KernelIdeal.Gen.hostOps0_1 (after Cert.KernelIdeal.Gen.hostOps0 W)) (Proc.devRef .tc Cert.KernelIdeal.main_v16)
      = v16Fn (W (Proc.devRef .tc Cert.KernelIdeal.main_arg3)) (W (Proc.devRef .tc Cert.KernelIdeal.main_arg4)) := by
  after_results_simp
  try rfl

set_option maxRecDepth 8192 in
set_option maxHeartbeats 1000000 in
theorem k1_v18 (W : Valuation Cert.KernelIdeal.τ Cert.KernelIdeal.sig (Elt F)) :
    after Cert.KernelIdeal.Gen.hostOps0_2 (after Cert.KernelIdeal.Gen.hostOps0_1 (after Cert.KernelIdeal.Gen.hostOps0 W)) (Proc.devRef .tc Cert.KernelIdeal.main_v18)
      = v18Fn (W (Proc.devRef .tc Cert.KernelIdeal.main_arg6)) := by
  after_results_simp
  try rfl

set_option maxRecDepth 8192 in
set_option maxHeartbeats 1000000 in
theorem k1_v20 (W : Valuation Cert.KernelIdeal.τ Cert.KernelIdeal.sig (Elt F)) :
    after Cert.KernelIdeal.Gen.hostOps0_2 (after Cert.KernelIdeal.Gen.hostOps0_1 (after Cert.KernelIdeal.Gen.hostOps0 W)) (Proc.devRef .tc Cert.KernelIdeal.main_v20)
      = v20Fn (W (Proc.devRef .tc Cert.KernelIdeal.main_arg6)) := by
  after_results_simp
  try rfl

set_option maxRecDepth 8192 in
set_option maxHeartbeats 1000000 in
theorem k1_v43 (W : Valuation Cert.KernelIdeal.τ Cert.KernelIdeal.sig (Elt F)) :
    after Cert.KernelIdeal.Gen.hostOps0_2 (after Cert.KernelIdeal.Gen.hostOps0_1 (after Cert.KernelIdeal.Gen.hostOps0 W)) (Proc.devRef .tc Cert.KernelIdeal.main_v43)
      = v43Fn (v16Fn (W (Proc.devRef .tc Cert.KernelIdeal.main_arg3)) (W (Proc.devRef .tc Cert.KernelIdeal.main_arg4))) (v18Fn (W (Proc.devRef .tc Cert.KernelIdeal.main_arg6))) (v20Fn (W (Proc.devRef .tc Cert.KernelIdeal.main_arg6))) := by
  after_results_simp
  try rfl

set_option maxRecDepth 8192 in
set_option maxHeartbeats 1000000 in
theorem k1_c_3 (W : Valuation Cert.KernelIdeal.τ Cert.KernelIdeal.sig (Elt F)) :
    after Cert.KernelIdeal.Gen.hostOps0_2 (after Cert.KernelIdeal.Gen.hostOps0_1 (after Cert.KernelIdeal.Gen.hostOps0 W)) (Proc.devRef .tc Cert.KernelIdeal.main_c_3)
      = constantI Cert.ReferenceIdeal.S_ 32 1024#32 := by
  after_results_simp
  try rfl

set_option maxRecDepth 8192 in
set_option maxHeartbeats 1000000 in
theorem k2_v44 (W : Valuation Cert.KernelIdeal.τ Cert.KernelIdeal.sig (Elt F)) :
    after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 W)))) (Proc.devRef .tc Cert.KernelIdeal.main_v44)
      = v44Fn (W (Proc.devRef .tc Cert.KernelIdeal.main_v18)) (W (Proc.devRef .tc Cert.KernelIdeal.main_c_3)) := by
  after_results_simp
  try rfl

set_option maxRecDepth 8192 in
set_option maxHeartbeats 1000000 in
theorem k2_v45 (W : Valuation Cert.KernelIdeal.τ Cert.KernelIdeal.sig (Elt F)) :
    after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 W)))) (Proc.devRef .tc Cert.KernelIdeal.main_v45)
      = v45Fn (W (Proc.devRef .tc Cert.KernelIdeal.main_v18)) := by
  after_results_simp
  try rfl

set_option maxRecDepth 8192 in
set_option maxHeartbeats 1000000 in
theorem k2_v46 (W : Valuation Cert.KernelIdeal.τ Cert.KernelIdeal.sig (Elt F)) :
    after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 W)))) (Proc.devRef .tc Cert.KernelIdeal.main_v46)
      = v46Fn (W (Proc.devRef .tc Cert.KernelIdeal.main_v20)) := by
  after_results_simp
  try rfl

set_option maxRecDepth 8192 in
set_option maxHeartbeats 1000000 in
theorem k2_v16 (W : Valuation Cert.KernelIdeal.τ Cert.KernelIdeal.sig (Elt F)) :
    after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 W)))) (Proc.devRef .tc Cert.KernelIdeal.main_v16)
      = W (Proc.devRef .tc Cert.KernelIdeal.main_v16) := by
  after_results_simp
  try rfl

set_option maxRecDepth 8192 in
set_option maxHeartbeats 1000000 in
theorem k2_v43 (W : Valuation Cert.KernelIdeal.τ Cert.KernelIdeal.sig (Elt F)) :
    after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 W)))) (Proc.devRef .tc Cert.KernelIdeal.main_v43)
      = W (Proc.devRef .tc Cert.KernelIdeal.main_v43) := by
  after_results_simp
  try rfl

set_option maxRecDepth 8192 in
set_option maxHeartbeats 1000000 in
theorem k3_v82 (W : Valuation Cert.KernelIdeal.τ Cert.KernelIdeal.sig (Elt F)) :
    after Cert.KernelIdeal.Gen.hostOps0_8 W (Proc.devRef .tc Cert.KernelIdeal.main_v82)
      = v82Fn (W (Proc.devRef .tc Cert.KernelIdeal.main_v16)) (v68Fn (W (Proc.devRef .tc Cert.KernelIdeal.main_v43)) (W (Proc.devRef .tc Cert.KernelIdeal.main_v44)) (W (Proc.devRef .tc Cert.KernelIdeal.main_v45)) (W (Proc.devRef .tc Cert.KernelIdeal.main_v46))) := by
  after_results_simp
  try rfl

/-! ## Each prefix is the function of its arguments -/

set_option maxRecDepth 8192 in
set_option maxHeartbeats 1000000 in
/-- The reference's operations through %82 leave in %82 the function of arguments 3, 4 and 6. -/
theorem pre82_R (V : Valuation Cert.ReferenceIdeal.τ Cert.ReferenceIdeal.sig (Elt F)) (a3 : (⟨Cert.ReferenceIdeal.S8192x32, .f32⟩ : BufTy).Contents (Elt F)) (a4 : (⟨Cert.ReferenceIdeal.S8, .f32⟩ : BufTy).Contents (Elt F)) (a6 : (⟨Cert.ReferenceIdeal.S2x131072, .i32⟩ : BufTy).Contents (Elt F))
    (h3 : V (Proc.devRef .tc Cert.ReferenceIdeal.main_arg3) = a3) (h4 : V (Proc.devRef .tc Cert.ReferenceIdeal.main_arg4) = a4) (h6 : V (Proc.devRef .tc Cert.ReferenceIdeal.main_arg6) = a6) :
    after Cert.ReferenceIdeal.Hand.opsPre V (Proc.devRef .tc Cert.ReferenceIdeal.main_v82) = pre82Fn a3 a4 a6 := by
  simp only [Cert.ReferenceIdeal.Hand.opsPre, Cert.ReferenceIdeal.Hand.after_append]
  rw [r3_v82, r2_v16, r2_v43, r2_v44, r2_v45, r2_v46, r1_v16, r1_v43, r1_v18, r1_v20, r1_c_3, h3, h4, h6]
  rfl

set_option maxRecDepth 8192 in
set_option maxHeartbeats 1000000 in
/-- The kernel program's host operations before its region leave in %82 the function of arguments 3, 4 and 6. -/
theorem pre82_K (V : Valuation Cert.KernelIdeal.τ Cert.KernelIdeal.sig (Elt F)) (a3 : (⟨Cert.ReferenceIdeal.S8192x32, .f32⟩ : BufTy).Contents (Elt F)) (a4 : (⟨Cert.ReferenceIdeal.S8, .f32⟩ : BufTy).Contents (Elt F)) (a6 : (⟨Cert.ReferenceIdeal.S2x131072, .i32⟩ : BufTy).Contents (Elt F))
    (h3 : V (Proc.devRef .tc Cert.KernelIdeal.main_arg3) = a3) (h4 : V (Proc.devRef .tc Cert.KernelIdeal.main_arg4) = a4) (h6 : V (Proc.devRef .tc Cert.KernelIdeal.main_arg6) = a6) :
    after kPre V (Proc.devRef .tc Cert.KernelIdeal.main_v82) = pre82Fn a3 a4 a6 := by
  simp only [kPre, List.flatten_cons, List.flatten_nil, List.append_nil, Cert.ReferenceIdeal.Hand.after_append]
  rw [k3_v82, k2_v16, k2_v43, k2_v44, k2_v45, k2_v46, k1_v16, k1_v43, k1_v18, k1_v20, k1_c_3, h3, h4, h6]
  rfl

/-! ## Hence they agree -/

/-- From equal arguments the two prefixes leave equal contents in %82. -/
theorem pre_v82 (VK : Valuation Cert.KernelIdeal.τ Cert.KernelIdeal.sig (Elt F)) (VR : Valuation Cert.ReferenceIdeal.τ Cert.ReferenceIdeal.sig (Elt F))
    (a0 : (⟨Cert.ReferenceIdeal.S8192x128, .f32⟩ : BufTy).Contents (Elt F)) (a1 : (⟨Cert.ReferenceIdeal.S8192x64, .f32⟩ : BufTy).Contents (Elt F)) (a2 : (⟨Cert.ReferenceIdeal.S8192x64, .f32⟩ : BufTy).Contents (Elt F)) (a3 : (⟨Cert.ReferenceIdeal.S8192x32, .f32⟩ : BufTy).Contents (Elt F)) (a4 : (⟨Cert.ReferenceIdeal.S8, .f32⟩ : BufTy).Contents (Elt F)) (a5 : (⟨Cert.ReferenceIdeal.S8, .f32⟩ : BufTy).Contents (Elt F)) (a6 : (⟨Cert.ReferenceIdeal.S2x131072, .i32⟩ : BufTy).Contents (Elt F))
    (hK0 : VK (Proc.devRef .tc Cert.KernelIdeal.main_arg0) = a0) (hK1 : VK (Proc.devRef .tc Cert.KernelIdeal.main_arg1) = a1) (hK2 : VK (Proc.devRef .tc Cert.KernelIdeal.main_arg2) = a2) (hK3 : VK (Proc.devRef .tc Cert.KernelIdeal.main_arg3) = a3) (hK4 : VK (Proc.devRef .tc Cert.KernelIdeal.main_arg4) = a4) (hK5 : VK (Proc.devRef .tc Cert.KernelIdeal.main_arg5) = a5) (hK6 : VK (Proc.devRef .tc Cert.KernelIdeal.main_arg6) = a6)
    (hR0 : VR (Proc.devRef .tc Cert.ReferenceIdeal.main_arg0) = a0) (hR1 : VR (Proc.devRef .tc Cert.ReferenceIdeal.main_arg1) = a1) (hR2 : VR (Proc.devRef .tc Cert.ReferenceIdeal.main_arg2) = a2) (hR3 : VR (Proc.devRef .tc Cert.ReferenceIdeal.main_arg3) = a3) (hR4 : VR (Proc.devRef .tc Cert.ReferenceIdeal.main_arg4) = a4) (hR5 : VR (Proc.devRef .tc Cert.ReferenceIdeal.main_arg5) = a5) (hR6 : VR (Proc.devRef .tc Cert.ReferenceIdeal.main_arg6) = a6) :
    after kPre VK (Proc.devRef .tc Cert.KernelIdeal.main_v82) = after Cert.ReferenceIdeal.Hand.opsPre VR (Proc.devRef .tc Cert.ReferenceIdeal.main_v82) :=
  (pre82_K VK a3 a4 a6 hK3 hK4 hK6).trans (pre82_R VR a3 a4 a6 hR3 hR4 hR6).symm

end Cert.PreAgree

end
-- ==== Proof.Val.Algebraic.lean ====
/-
  The claims assembled. The three programs run and leave their seven argument arrays unchanged; the ideal reading of
  the kernel program rewrote no operation; and at the ideal values the kernel program and the reference end with equal
  results: both are the closing function of the scaled accumulator of five doubling rounds (L ← L·L, A ← A·(I + L))
  over the contents that one and the same first stretch of host operations leaves — the kernel program's region
  computes the accumulator on each of the 64 slabs, the reference by batched products over the 8 × 8 pairs.
-/
import proofs.«170030_j80934363725836_1_alg».proof.Defs
import proofs.«170030_j80934363725836_1_alg».proof.Proof.Gen.Kernel
import proofs.«170030_j80934363725836_1_alg».proof.Proof.Gen.KernelIdeal
import proofs.«170030_j80934363725836_1_alg».proof.Proof.Gen.ReferenceIdeal
import proofs.«170030_j80934363725836_1_alg».proof.Proof.Gen.Pre_finite_inputs
import proofs.«170030_j80934363725836_1_alg».proof.Proof.KI.Run
import proofs.«170030_j80934363725836_1_alg».proof.Proof.K.Run
import proofs.«170030_j80934363725836_1_alg».proof.Proof.Ref.Values
import proofs.«170030_j80934363725836_1_alg».proof.Proof.Val.KernelTail
import proofs.«170030_j80934363725836_1_alg».proof.Proof.Val.KernelOut
import proofs.«170030_j80934363725836_1_alg».proof.Proof.Val.Core
import proofs.«170030_j80934363725836_1_alg».proof.Proof.Val.PreAgree
import proofs.«170030_j80934363725836_1_alg».proof.Proof.Val.PreAgree82

set_option maxRecDepth 16384

noncomputable section

open Idealize.ShloMosaic Idealize.ShloMosaic.TcCoe Idealize.SL.Sem Idealize.ShloMosaic.StableHlo

open Cert.KernelIdeal Cert.KernelIdeal.Gen Cert.KernelIdeal.Hand

namespace Cert.Proof.Claims

/-! ## The three frames -/

/-- The kernel program as printed runs and leaves its seven argument arrays unchanged. -/
theorem frame_k : Cert.frame_Kernel := fun m ρ _ => Cert.Kernel.Hand.frame m ρ
/-- So does its reading at the ideal values, -/
theorem frame_ki : Cert.frame_KernelIdeal := fun m ρ _ => Cert.KernelIdeal.Hand.frame m ρ
/-- and so does the reference program. -/
theorem frame_ri : Cert.frame_ReferenceIdeal := fun m ρ _ => Cert.ReferenceIdeal.Hand.frame m ρ
/-- The ideal reading rewrote no operation. -/
theorem preserves : Cert.preserves_Kernel_KernelIdeal := trivial

/-! ## The two results are one value -/

/-- No operation of the reference's first stretch writes an argument. -/
theorem opsPre_nw {F : FTy → Type} [FloatOps F] : ∀ op ∈ (Cert.ReferenceIdeal.Hand.opsPre : List (HloOp Cert.ReferenceIdeal.τ Cert.ReferenceIdeal.sig (Elt F))), ∀ k : Fin 7,
    (Proc.devRef .tc (Cert.ReferenceIdeal.Hand.argRef k) : DevRef Cert.ReferenceIdeal.τ Cert.ReferenceIdeal.sig) ∉ op.writes :=
  Cert.ReferenceIdeal.Hand.nw_append (Cert.ReferenceIdeal.Hand.nw_append (Cert.ReferenceIdeal.Hand.nw_append (Cert.ReferenceIdeal.Hand.nw_append (Cert.ReferenceIdeal.Hand.nw_append (Cert.ReferenceIdeal.Hand.nw_append (Cert.ReferenceIdeal.Hand.nw_append (Cert.ReferenceIdeal.Hand.nw_append (Cert.ReferenceIdeal.Hand.nw_append
    Cert.ReferenceIdeal.Hand.ops_a0_nw Cert.ReferenceIdeal.Hand.ops_a1_nw) Cert.ReferenceIdeal.Hand.ops_a2_nw) Cert.ReferenceIdeal.Hand.ops_a3_nw) Cert.ReferenceIdeal.Hand.ops_a4_nw) Cert.ReferenceIdeal.Hand.ops_a5_nw) Cert.ReferenceIdeal.Hand.ops_a6_nw) Cert.ReferenceIdeal.Hand.ops_a7_nw) Cert.ReferenceIdeal.Hand.ops_a8_nw) Cert.ReferenceIdeal.Hand.ops_b0_nw

/-- So the per-head constant is, after that stretch, as launched. -/
theorem pre_kept_arg5 {F : FTy → Type} [FloatOps F] (V : Valuation Cert.ReferenceIdeal.τ Cert.ReferenceIdeal.sig (Elt F)) :
    after Cert.ReferenceIdeal.Hand.opsPre V (Proc.devRef .tc Cert.ReferenceIdeal.main_arg5) = V (Proc.devRef .tc Cert.ReferenceIdeal.main_arg5) :=
  after_of_forall_not_mem Cert.ReferenceIdeal.Hand.opsPre V fun op hop => opsPre_nw op hop 5

/-- The join over named values: with the region's output array the scaled doubling accumulator of its two input
    arrays, these the 64-slab reading (rounded) of `X` and the 64-row reading of `s`, the kernel's closing function of
    that output is the reference's closing function of the scaled accumulator of `X` and `s`. -/
theorem join (A M : FVec Ideal S64x1024x1024 .bf16) (r : FVec Ideal S64x1x1024 .f32)
    (X : FVec Ideal S8x8x1024x1024 .f32) (s : FVec Ideal S8x8x1024 .f32)
    (v3 v2 : FVec Ideal S8x1024x64 .f32) (v1 : FVec Ideal S8x8x1024x16 .f32) (a5 : FVec Ideal S8 .f32)
    (hA : A = Cert.Scaled.scaledDag M r)
    (hM : M = truncf .bf16 (shapeCast S64x1024x1024 X shapeCasts_S8x8x1024x1024_S64x1024x1024) bitsLt_bf16_f32)
    (hr : r = shapeCast S64x1x1024 s shapeCasts_S8x8x1024_S64x1x1024) :
    Cert.ReferenceIdeal.Hand.restFn (Cert.ReferenceIdeal.Hand.scaleFn (Cert.ReferenceIdeal.Hand.dagFn X) s) v3 v2 v1 a5
      = TailValue.restFnK (F := Ideal) (extf .f32 (shapeCast S8x8x1024x1024 A shapeCasts_S64x1024x1024_S8x8x1024x1024) bitsLt_bf16_f32) v3 v2 v1 a5 := by
  subst hA hM hr
  rw [TailValue.restFnK_eq_ref]
  exact congrArg (fun L => Cert.ReferenceIdeal.Hand.restFn L v3 v2 v1 a5)
    (Cert.Core.scaled_eq X s shapeCasts_S8x8x1024x1024_S64x1024x1024 shapeCasts_S8x8x1024_S64x1x1024
      shapeCasts_S64x1024x1024_S8x8x1024x1024 bitsLt_bf16_f32).symm

set_option maxHeartbeats 400000 in
/-- From contents that agree on the seven arguments, the reference's closing function of its scaled accumulator, over
    what its first stretch leaves, is the kernel program's result: the first stretches are the same operations, the
    kernel's region computes the accumulator slab by slab where the reference computes it by batched products. -/
theorem value_eq (m : (ℓ : Loc nD τ sig) → Buf (Elt Ideal) ℓ) (c : Dev nD)
    (VR : Valuation Cert.ReferenceIdeal.τ Cert.ReferenceIdeal.sig (Elt Ideal))
    (a0 : (⟨Cert.ReferenceIdeal.S8192x128, .f32⟩ : BufTy).Contents (Elt Ideal)) (a1 : (⟨Cert.ReferenceIdeal.S8192x64, .f32⟩ : BufTy).Contents (Elt Ideal)) (a2 : (⟨Cert.ReferenceIdeal.S8192x64, .f32⟩ : BufTy).Contents (Elt Ideal)) (a3 : (⟨Cert.ReferenceIdeal.S8192x32, .f32⟩ : BufTy).Contents (Elt Ideal)) (a4 : (⟨Cert.ReferenceIdeal.S8, .f32⟩ : BufTy).Contents (Elt Ideal)) (a5 : (⟨Cert.ReferenceIdeal.S8, .f32⟩ : BufTy).Contents (Elt Ideal)) (a6 : (⟨Cert.ReferenceIdeal.S2x131072, .i32⟩ : BufTy).Contents (Elt Ideal))
    (hK0 : m (c, Proc.devRef .tc main_arg0) = a0) (hK1 : m (c, Proc.devRef .tc main_arg1) = a1) (hK2 : m (c, Proc.devRef .tc main_arg2) = a2) (hK3 : m (c, Proc.devRef .tc main_arg3) = a3) (hK4 : m (c, Proc.devRef .tc main_arg4) = a4) (hK5 : m (c, Proc.devRef .tc main_arg5) = a5) (hK6 : m (c, Proc.devRef .tc main_arg6) = a6)
    (hR0 : VR (Proc.devRef .tc Cert.ReferenceIdeal.main_arg0) = a0) (hR1 : VR (Proc.devRef .tc Cert.ReferenceIdeal.main_arg1) = a1) (hR2 : VR (Proc.devRef .tc Cert.ReferenceIdeal.main_arg2) = a2) (hR3 : VR (Proc.devRef .tc Cert.ReferenceIdeal.main_arg3) = a3) (hR4 : VR (Proc.devRef .tc Cert.ReferenceIdeal.main_arg4) = a4) (hR5 : VR (Proc.devRef .tc Cert.ReferenceIdeal.main_arg5) = a5) (hR6 : VR (Proc.devRef .tc Cert.ReferenceIdeal.main_arg6) = a6) :
    Cert.ReferenceIdeal.Hand.restFn (F := Ideal)
        (Cert.ReferenceIdeal.Hand.scaleFn (Cert.ReferenceIdeal.Hand.dagFn (after Cert.ReferenceIdeal.Hand.opsPre VR (Proc.devRef .tc Cert.ReferenceIdeal.main_v82))) (after Cert.ReferenceIdeal.Hand.opsPre VR (Proc.devRef .tc Cert.ReferenceIdeal.main_v11)))
        (after Cert.ReferenceIdeal.Hand.opsPre VR (Proc.devRef .tc Cert.ReferenceIdeal.main_v3)) (after Cert.ReferenceIdeal.Hand.opsPre VR (Proc.devRef .tc Cert.ReferenceIdeal.main_v2)) (after Cert.ReferenceIdeal.Hand.opsPre VR (Proc.devRef .tc Cert.ReferenceIdeal.main_v1)) (after Cert.ReferenceIdeal.Hand.opsPre VR (Proc.devRef .tc Cert.ReferenceIdeal.main_arg5))
      = TailValue.restFnK (F := Ideal) (extf .f32 (shapeCast S8x8x1024x1024 ((dats m 0 c).arrAt 2 cfg0.N) shapeCasts_S64x1024x1024_S8x8x1024x1024) bitsLt_bf16_f32)
          (V m c main_v3) (V m c main_v2) (V m c main_v1) (V m c main_arg5) := by
  -- the first stretch's five results agree, the two region inputs are readings of two of them
  have e82 := Cert.PreAgree.pre_v82 (F := Ideal) (fun b => m (c, b)) VR a0 a1 a2 a3 a4 a5 a6 hK0 hK1 hK2 hK3 hK4 hK5 hK6 hR0 hR1 hR2 hR3 hR4 hR5 hR6
  have e11 := Cert.PreAgree.pre_v11 (F := Ideal) (fun b => m (c, b)) VR a0 a1 a2 a3 a4 a5 a6 hK0 hK1 hK2 hK3 hK4 hK5 hK6 hR0 hR1 hR2 hR3 hR4 hR5 hR6
  have e3 := Cert.PreAgree.pre_v3 (F := Ideal) (fun b => m (c, b)) VR a0 a1 a2 a3 a4 a5 a6 hK0 hK1 hK2 hK3 hK4 hK5 hK6 hR0 hR1 hR2 hR3 hR4 hR5 hR6
  have e2 := Cert.PreAgree.pre_v2 (F := Ideal) (fun b => m (c, b)) VR a0 a1 a2 a3 a4 a5 a6 hK0 hK1 hK2 hK3 hK4 hK5 hK6 hR0 hR1 hR2 hR3 hR4 hR5 hR6
  have e1 := Cert.PreAgree.pre_v1 (F := Ideal) (fun b => m (c, b)) VR a0 a1 a2 a3 a4 a5 a6 hK0 hK1 hK2 hK3 hK4 hK5 hK6 hR0 hR1 hR2 hR3 hR4 hR5 hR6
  have h84 := Cert.PreAgree.v84_eq (F := Ideal) (fun b => m (c, b))
  have h85 := Cert.PreAgree.v85_eq (F := Ideal) (fun b => m (c, b))
  have hA := OutValue.final2 m c
  have h5 : VR (Proc.devRef .tc Cert.ReferenceIdeal.main_arg5) = V m c main_arg5 :=
    hR5.trans (hK5.symm.trans (V_main_arg5 m c).symm)
  rw [pre_kept_arg5, h5]
  -- one spelling for the contents the kernel's first stretch leaves, then a name for them
  dsimp only [Cert.PreAgree.kPre] at e82 e11 e3 e2 e1 h84 h85
  dsimp only [V, V0] at hA ⊢
  generalize StableHlo.after (List.flatten [hostOps0, hostOps0_1, hostOps0_2, hostOps0_3, hostOps0_4, hostOps0_5, hostOps0_6, hostOps0_7, hostOps0_8]) (fun b => m (c, b)) = W at e82 e11 e3 e2 e1 h84 h85 hA ⊢
  rw [← e82, ← e11, ← e3, ← e2, ← e1]
  exact join _ _ _ _ _ _ _ _ _ hA h84 h85

/-- At the ideal values, from memories agreeing on the arguments, both programs run, end with equal results and leave
    their arguments unchanged. -/
theorem algebraic : Cert.algebraic_KernelIdeal_ReferenceIdeal := by
  intro m ρ m' ρ' _ hagree
  refine ⟨_, TailValue.run_value (F := Ideal) m ρ, ?_⟩
  refine (θ_run Cert.ReferenceIdeal.defs _ _).mono (fun _ h c =>
    ⟨(h c Cert.ReferenceIdeal.main_v131).trans ((Cert.ReferenceIdeal.Hand.result_eval _).trans (value_eq m c (launchContents m' c) _ _ _ _ _ _ _ rfl rfl rfl rfl rfl rfl rfl
        ((hagree c).1) ((hagree c).2.1) ((hagree c).2.2.1) ((hagree c).2.2.2.1) ((hagree c).2.2.2.2.1) ((hagree c).2.2.2.2.2.1) ((hagree c).2.2.2.2.2.2))),
    (h c Cert.ReferenceIdeal.main_arg0).trans (Cert.ReferenceIdeal.Hand.kept_main_arg0 _), (h c Cert.ReferenceIdeal.main_arg1).trans (Cert.ReferenceIdeal.Hand.kept_main_arg1 _),
    (h c Cert.ReferenceIdeal.main_arg2).trans (Cert.ReferenceIdeal.Hand.kept_main_arg2 _), (h c Cert.ReferenceIdeal.main_arg3).trans (Cert.ReferenceIdeal.Hand.kept_main_arg3 _),
    (h c Cert.ReferenceIdeal.main_arg4).trans (Cert.ReferenceIdeal.Hand.kept_main_arg4 _), (h c Cert.ReferenceIdeal.main_arg5).trans (Cert.ReferenceIdeal.Hand.kept_main_arg5 _),
    (h c Cert.ReferenceIdeal.main_arg6).trans (Cert.ReferenceIdeal.Hand.kept_main_arg6 _)⟩) (Cert.ReferenceIdeal.Hand.run_raw (F := Ideal) m' ρ')

end Cert.Proof.Claims

end
-- ==== Proof.lean ====
/- The proof of `Cert.Claim`: each of the three programs runs and leaves its seven argument arrays unchanged; the ideal
   reading of the kernel program rewrote no operation; and at the ideal values the kernel program and the reference end
   with equal results. The kernel program's one region, at each of its 64 grid points, computes on one 1024 × 1024 slab
   the accumulator of five doubling rounds (L ← L·L, A ← A·(I + L), from L = X, A = I + X) and scales its columns; the
   reference computes the same accumulator by batched products over the 8 × 8 pairs; the host operations before and after
   are the same on both sides. The witnesses of the programs' stated facts come first. -/
import proofs.«170030_j80934363725836_1_alg».proof.Defs
import proofs.«170030_j80934363725836_1_alg».proof.Proof.Gen.Kernel
import proofs.«170030_j80934363725836_1_alg».proof.Proof.Gen.Kernel.Skeleton
import proofs.«170030_j80934363725836_1_alg».proof.Proof.Gen.Kernel.Launch
import proofs.«170030_j80934363725836_1_alg».proof.Proof.Gen.Kernel.Points
import proofs.«170030_j80934363725836_1_alg».proof.Proof.Gen.KernelIdeal
import proofs.«170030_j80934363725836_1_alg».proof.Proof.Gen.KernelIdeal.Skeleton
import proofs.«170030_j80934363725836_1_alg».proof.Proof.Gen.KernelIdeal.Launch
import proofs.«170030_j80934363725836_1_alg».proof.Proof.Gen.KernelIdeal.Points
import proofs.«170030_j80934363725836_1_alg».proof.Proof.Gen.ReferenceIdeal
import proofs.«170030_j80934363725836_1_alg».proof.Proof.Gen.Pre_finite_inputs
import proofs.«170030_j80934363725836_1_alg».proof.Proof.Val.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
